-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v78)) (v2 : (c : Dev Cert.KernelIdeal.nD) → Buf (Elt Ideal) ((c.tc : Thread Cert.KernelIdeal.nD Cert.KernelIdeal.τ).loc Cert.KernelIdeal.main_v83)) (v3 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_v83) = v2 c
          ∧ r.2.mem ((c.tc : Thread Cert.KernelIdeal.nD Cert.KernelIdeal.τ).loc Cert.KernelIdeal.main_arg1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_arg1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S256x128 .f32) (main_arg9 : FVec F S128 .f32) (main_arg10 : FVec F S128x40 .f32) (main_arg11 : FVec F S40 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S256x256 .f32) (main_arg7 : FVec F S256 .f32) (main_arg8 : FVec F S256x128 .f32) (main_arg9 : FVec F S128 .f32) (main_arg10 : FVec F S128x40 .f32) (main_arg11 : FVec F S40 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x256 .f32) (main_arg1 : IVec S2x800000 32) (main_arg2 : FVec F S256x256 .f32) (main_arg3 : FVec F S256 .f32) (main_arg4 : FVec F S256x128 .f32) (main_arg5 : FVec F S128 .f32) (main_arg6 : FVec F S256x256 .f32) (main_arg7 : FVec F S256 .f32) (main_arg8 : FVec F S256x128 .f32) (main_arg9 : FVec F S128 .f32) (main_arg10 : FVec F S128x40 .f32) (main_arg11 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_v13 main_v16
-- ==== Kernel.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S5000x256 : Shape := ⟨2, ![5000, 256]⟩
abbrev S100000x1 : Shape := ⟨2, ![100000, 1]⟩
abbrev S800000x256 : Shape := ⟨2, ![800000, 256]⟩
abbrev S1x256 : Shape := ⟨2, ![1, 256]⟩
abbrev S100000x128 : Shape := ⟨2, ![100000, 128]⟩
abbrev S5000x128 : Shape := ⟨2, ![5000, 128]⟩
abbrev S800000x128 : Shape := ⟨2, ![800000, 128]⟩
abbrev S1x128 : Shape := ⟨2, ![1, 128]⟩
abbrev S128x256 : Shape := ⟨2, ![128, 256]⟩
abbrev S4000x128 : Shape := ⟨2, ![4000, 128]⟩
abbrev S4000x256 : Shape := ⟨2, ![4000, 256]⟩
abbrev S128x128 : Shape := ⟨2, ![128, 128]⟩
abbrev S100000x40 : Shape := ⟨2, ![100000, 40]⟩

abbrev nBuf : Space → Nat
  | .hbm => 120
  | .vmem => 27
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S100000, .f32⟩
  | .hbm, ⟨20, _⟩ => ⟨S800000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x256, .f32⟩
  | .hbm, ⟨37, _⟩ => ⟨S100000x1, .f32⟩
  | .hbm, ⟨38, _⟩ => ⟨S100000x256, .f32⟩
  | .hbm, ⟨39, _⟩ => ⟨S100000x256, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S_, .f32⟩
  | .hbm, ⟨50, _⟩ => ⟨S100000x256, .f32⟩
  | .hbm, ⟨51, _⟩ => ⟨S800000x1, .i32⟩
  | .hbm, ⟨52, _⟩ => ⟨S100000x256, .f32⟩
  | .hbm, ⟨53, _⟩ => ⟨S100000x1, .f32⟩
  | .hbm, ⟨54, _⟩ => ⟨S100000x256, .f32⟩
  | .hbm, ⟨55, _⟩ => ⟨S100000x256, .f32⟩
  | .hbm, ⟨56, _⟩ => ⟨S100000x256, .f32⟩
  | .hbm, ⟨57, _⟩ => ⟨S1x256, .f32⟩
  | .hbm, ⟨58, _⟩ => ⟨S100000x256, .f32⟩
  | .hbm, ⟨59, _⟩ => ⟨S100000x256, .f32⟩
  | .hbm, ⟨60, _⟩ => ⟨S_, .f32⟩
  | .hbm, ⟨61, _⟩ => ⟨S100000x256, .f32⟩
  | .hbm, ⟨62, _⟩ => ⟨S100000x256, .f32⟩
  | .hbm, ⟨63, _⟩ => ⟨S100000x128, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S100000x128, .f32⟩
  | .hbm, ⟨78, _⟩ => ⟨S800000x1, .i32⟩
  | .hbm, ⟨79, _⟩ => ⟨S100000x128, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S100000x128, .bf16⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x128, .bf16⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x128, .bf16⟩
  | .hbm, ⟨106, _⟩ => ⟨S128x256, .f32⟩
  | .hbm, ⟨107, _⟩ => ⟨S128x256, .f32⟩
  | .hbm, ⟨108, _⟩ => ⟨S1x256, .f32⟩
  | .hbm, ⟨109, _⟩ => ⟨S1x128, .f32⟩
  | .hbm, ⟨110, _⟩ => ⟨S800000x128, .f32⟩
  | .hbm, ⟨111, _⟩ => ⟨S_, .i32⟩
  | .hbm, ⟨112, _⟩ => ⟨S_, .f32⟩
  | .hbm, ⟨113, _⟩ => ⟨S128x128, .f32⟩
  | .hbm, ⟨114, _⟩ => ⟨S_, .i32⟩
  | .hbm, ⟨115, _⟩ => ⟨S_, .f32⟩
  | .hbm, ⟨116, _⟩ => ⟨S128, .f32⟩
  | .hbm, ⟨117, _⟩ => ⟨S1x128, .f32⟩
  | .hbm, ⟨118, _⟩ => ⟨S100000x128, .f32⟩
  | .hbm, ⟨119, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | .local _ .vmem, ⟨10, _⟩ => ⟨S4000x128, .bf16⟩
  | .local _ .vmem, ⟨11, _⟩ => ⟨S4000x128, .bf16⟩
  | .local _ .vmem, ⟨12, _⟩ => ⟨S4000x128, .bf16⟩
  | .local _ .vmem, ⟨13, _⟩ => ⟨S4000x128, .bf16⟩
  | .local _ .vmem, ⟨14, _⟩ => ⟨S128x256, .f32⟩
  | .local _ .vmem, ⟨15, _⟩ => ⟨S128x256, .f32⟩
  | .local _ .vmem, ⟨16, _⟩ => ⟨S1x256, .f32⟩
  | .local _ .vmem, ⟨17, _⟩ => ⟨S256x128, .f32⟩
  | .local _ .vmem, ⟨18, _⟩ => ⟨S1x128, .f32⟩
  | .local _ .vmem, ⟨19, _⟩ => ⟨S4000x128, .f32⟩
  | .local _ .vmem, ⟨20, _⟩ => ⟨S4000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_cst : Ref sig .tc := ⟨.hbm, 60, rfl⟩
abbrev main_call1_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_v43 : Ref sig .tc := ⟨.hbm, 69, rfl⟩
abbrev main_c_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_10 : Ref sig .tc := ⟨.hbm, 88, rfl⟩
abbrev main_v60 : Ref sig .tc := ⟨.hbm, 89, rfl⟩
abbrev main_v61 : Ref sig .tc := ⟨.hbm, 90, rfl⟩
abbrev main_c_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_14 : Ref sig .tc := ⟨.hbm, 111, rfl⟩
abbrev main_call2_v0 : Ref sig .tc := ⟨.hbm, 112, rfl⟩
abbrev main_v79 : Ref sig .tc := ⟨.hbm, 113, rfl⟩
abbrev main_c_15 : Ref sig .tc := ⟨.hbm, 114, rfl⟩
abbrev main_call3_v0 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S256x256_S128x256_0_0 : S256x256.Slices ![0, 0] S128x256
  slices_S256x256_S128x256_128_0 : S256x256.Slices ![128, 0] S128x256
  shapeCasts_S256_S1x256 : S256.ShapeCasts S1x256
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  pads_S128x40_S128x128_000_0880 : S128x40.Pads (![0, 0] : Fin 2 → Nat) ![0, 88] ![0, 0] S128x128
  h_S_ : 0 < S_.numel
  pads_S40_S128_0880 : S40.Pads (![0] : Fin 1 → Nat) ![88] ![0] S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  slices_S100000x128_S100000x40_0_0 : S100000x128.Slices ![0, 0] S100000x40
  scatter_S100000_S800000x1_S800000_n_0_0_1_wf : ScatterDims.WF S100000 S800000x1 S800000 [] [0] [0] 1
  dot_S5000x256_S256x256_S5000x256_1_0_0_1_n_n_wf : DotDims.WF S5000x256 S256x256 S5000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S5000x256_S256x128_S5000x128_1_0_0_1_n_n_wf : DotDims.WF S5000x256 S256x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S800000x128.size a
  hwx2_0 : ∀ i : grid2.Coords, EltTy.bits .bf16 = 32 ∨ (Rect.block (s := S800000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S800000x128.size a
  hwx2_1 : ∀ i : grid2.Coords, EltTy.bits .bf16 = 32 ∨ (Rect.block (s := S800000x128) S4000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .f32 = 32 ∨ (Rect.block (s := S256x128) S256x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S800000x128.size a
  hwx2_7 : ∀ i : grid2.Coords, EltTy.bits .f32 = 32 ∨ (Rect.block (s := S800000x128) S4000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v74) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v77) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v78) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x256 : Shape := ⟨2, ![900000, 256]⟩
abbrev S1x256 : Shape := ⟨2, ![1, 256]⟩
abbrev S100000x128 : Shape := ⟨2, ![100000, 128]⟩
abbrev S900000x128 : Shape := ⟨2, ![900000, 128]⟩
abbrev S1x128 : Shape := ⟨2, ![1, 128]⟩
abbrev S800000x1 : Shape := ⟨2, ![800000, 1]⟩
abbrev S800000x128 : Shape := ⟨2, ![800000, 128]⟩
abbrev S800000x256 : Shape := ⟨2, ![800000, 256]⟩
abbrev S100000x40 : Shape := ⟨2, ![100000, 40]⟩
abbrev S1x40 : Shape := ⟨2, ![1, 40]⟩

abbrev nBuf : Space → Nat
  | .hbm => 136
  | .vmem => 0
  | .smem => 0
  | _ => 0

abbrev hbmTy0_0 (i : Nat) : BufTy := match i % 128 with
  | 0 => ⟨S100000x256, .f32⟩
  | 1 => ⟨S2x800000, .i32⟩
  | 2 => ⟨S256x256, .f32⟩
  | 3 => ⟨S256, .f32⟩
  | 4 => ⟨S256x128, .f32⟩
  | 5 => ⟨S128, .f32⟩
  | 6 => ⟨S256x256, .f32⟩
  | 7 => ⟨S256, .f32⟩
  | 8 => ⟨S256x128, .f32⟩
  | 9 => ⟨S128, .f32⟩
  | 10 => ⟨S128x40, .f32⟩
  | 11 => ⟨S40, .f32⟩
  | 12 => ⟨S100000, .i32⟩
  | 13 => ⟨S1x800000, .i32⟩
  | 14 => ⟨S800000, .i32⟩
  | 15 => ⟨S900000, .i32⟩
  | 16 => ⟨S1x800000, .i32⟩
  | 17 => ⟨S800000, .i32⟩
  | 18 => ⟨S900000, .i32⟩
  | 19 => ⟨S_, .f32⟩
  | 20 => ⟨S900000, .f32⟩
  | 21 => ⟨S_, .f32⟩
  | 22 => ⟨S100000, .f32⟩
  | 23 => ⟨S900000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S900000, .i32⟩
  | 38 => ⟨S900000, .i1⟩
  | 39 => ⟨S_, .i32⟩
  | 40 => ⟨S900000, .i32⟩
  | 41 => ⟨S900000, .i32⟩
  | 42 => ⟨S900000, .i32⟩
  | 43 => ⟨S900000x1, .i32⟩
  | 44 => ⟨S900000, .f32⟩
  | 45 => ⟨S_, .i32⟩
  | 46 => ⟨S900000, .i32⟩
  | 47 => ⟨S900000, .i1⟩
  | 48 => ⟨S_, .i32⟩
  | 49 => ⟨S900000, .i32⟩
  | 50 => ⟨S900000, .i32⟩
  | 51 => ⟨S900000, .i32⟩
  | 52 => ⟨S900000x1, .i32⟩
  | 53 => ⟨S900000, .f32⟩
  | 54 => ⟨S900000, .f32⟩
  | 55 => ⟨S100000x256, .f32⟩
  | 56 => ⟨S900000x1, .f32⟩
  | 57 => ⟨S_, .i32⟩
  | 58 => ⟨S900000, .i32⟩
  | 59 => ⟨S900000, .i1⟩
  | 60 => ⟨S_, .i32⟩
  | 61 => ⟨S900000, .i32⟩
  | 62 => ⟨S900000, .i32⟩
  | 63 => ⟨S900000, .i32⟩
  | 64 => ⟨S900000x1, .i32⟩
  | 65 => ⟨S900000x256, .f32⟩
  | 66 => ⟨S900000x256, .f32⟩
  | 67 => ⟨S900000x256, .f32⟩
  | 68 => ⟨S_, .f32⟩
  | 69 => ⟨S100000x256, .f32⟩
  | 70 => ⟨S900000x1, .i32⟩
  | 71 => ⟨S100000x256, .f32⟩
  | 72 => ⟨S1x256, .f32⟩
  | 73 => ⟨S100000x256, .f32⟩
  | 74 => ⟨S100000x256, .f32⟩
  | 75 => ⟨S_, .f32⟩
  | 76 => ⟨S100000x256, .f32⟩
  | 77 => ⟨S100000x256, .f32⟩
  | 78 => ⟨S100000x128, .f32⟩
  | 79 => ⟨S900000x1, .f32⟩
  | 80 => ⟨S_, .i32⟩
  | 81 => ⟨S900000, .i32⟩
  | 82 => ⟨S900000, .i1⟩
  | 83 => ⟨S_, .i32⟩
  | 84 => ⟨S900000, .i32⟩
  | 85 => ⟨S900000, .i32⟩
  | 86 => ⟨S900000, .i32⟩
  | 87 => ⟨S900000x1, .i32⟩
  | 88 => ⟨S900000x128, .f32⟩
  | 89 => ⟨S900000x128, .f32⟩
  | 90 => ⟨S900000x128, .f32⟩
  | 91 => ⟨S_, .f32⟩
  | 92 => ⟨S100000x128, .f32⟩
  | 93 => ⟨S900000x1, .i32⟩
  | 94 => ⟨S100000x128, .f32⟩
  | 95 => ⟨S1x128, .f32⟩
  | 96 => ⟨S100000x128, .f32⟩
  | 97 => ⟨S100000x128, .f32⟩
  | 98 => ⟨S1x800000, .i32⟩
  | 99 => ⟨S800000, .i32⟩
  | 100 => ⟨S1x800000, .i32⟩
  | 101 => ⟨S800000, .i32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x256, .f32⟩
  | 121 => ⟨S800000x256, .f32⟩
  | 122 => ⟨S1x256, .f32⟩
  | 123 => ⟨S800000x256, .f32⟩
  | 124 => ⟨S800000x256, .f32⟩
  | 125 => ⟨S_, .f32⟩
  | 126 => ⟨S800000x256, .f32⟩
  | 127 => ⟨S800000x256, .f32⟩
  | _ => ⟨S100000x256, .f32⟩

abbrev hbmTy0_1 (i : Nat) : BufTy := match i % 128 with
  | 0 => ⟨S800000x128, .f32⟩
  | 1 => ⟨S1x128, .f32⟩
  | 2 => ⟨S800000x128, .f32⟩
  | 3 => ⟨S800000x128, .f32⟩
  | 4 => ⟨S100000x40, .f32⟩
  | 5 => ⟨S1x40, .f32⟩
  | 6 => ⟨S100000x40, .f32⟩
  | 7 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_13 : Ref sig .tc := ⟨.hbm, 102, rfl⟩
abbrev main_v71 : Ref sig .tc := ⟨.hbm, 103, rfl⟩
abbrev main_v72 : Ref sig .tc := ⟨.hbm, 104, rfl⟩
abbrev main_c_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_15 : Ref sig .tc := ⟨.hbm, 111, rfl⟩
abbrev main_v78 : Ref sig .tc := ⟨.hbm, 112, rfl⟩
abbrev main_v79 : Ref sig .tc := ⟨.hbm, 113, rfl⟩
abbrev main_c_16 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_call2_cst : Ref sig .tc := ⟨.hbm, 125, rfl⟩
abbrev main_call2_v0 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S1x128_S800000x128_0_1 : S1x128.BroadcastsInDim S800000x128 (![0, 1] : Fin 2 → Fin S800000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x256_S256x256_S100000x256_1_0_0_1_n_n_wf : DotDims.WF S100000x256 S256x256 S100000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S100000x256_S256x128_S100000x128_1_0_0_1_n_n_wf : DotDims.WF S100000x256 S256x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  gather_S100000x128_S800000x1_S800000x128_1_0_n_n_0_1_1128_wf : GatherDims.WF S100000x128 S800000x1 S800000x128 [1] [0] [] [0] [] 1 ![1, 128]
  dot_S800000x256_S256x256_S800000x256_1_0_0_1_n_n_wf : DotDims.WF S800000x256 S256x256 S800000x256 [1] [0] [0] [1] [] []
  dot_S800000x256_S256x128_S800000x128_1_0_0_1_n_n_wf : DotDims.WF S800000x256 S256x128 S800000x128 [1] [0] [0] [1] [] []
  dot_S100000x128_S128x40_S100000x40_1_0_0_1_n_n_wf : DotDims.WF S100000x128 S128x40 S100000x40 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel program's run with every buffer named: every weakly fair execution of @main terminates,
  nothing faulting, and each unscoped buffer of a TensorCore ends at the contents the last host stretch leaves,
  the fold of the program's host stretches and regions over the launch memory.
-/
import proofs.«129196_j11553462026276_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the final contents of every unscoped buffer named: the last boundary's contents. -/
theorem run_named : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W15 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c b hb => h c _ (mem_uc b hb))

end Cert.KernelIdeal.KRun

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.LibProduct.lean ====
/-
  The product of a matrix of extended reals with another, as one function of its two factors.

  Entry (i, j) of the product of an [M, K] array with a [K, N] array is the sum over k of l (i, k) * r (k, j).
  On the extended reals a matrix unit's product into a zero accumulator and the host's dot_general (contraction of
  the left factor's columns with the right factor's rows, no batch axis) are both exactly this function.

  A block of consecutive rows of a product is the product of the same rows of the left factor with the whole right
  factor: each entry's sum runs over the whole shared axis and mentions one row of the left factor only. That is all
  that a product computed a band of rows at a time needs.
-/
import proofs.«129196_j11553462026276_2_alg».proof.Proof.LibMatmulSum

noncomputable section

namespace Cert.Product

open Idealize.ShloMosaic Idealize.ShloMosaic.ValueIdx

/-- The product of an [M, K] array and a [K, N] array: entry (i, j) is the sum over k of l (i, k) * r (k, j). -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (j : (⟨2, ![M, N]⟩ : Shape).Idx) : mm l r j = ∑ k : Fin K, l (ix2 (j 0) k) * r (ix2 k (j 1)) := rfl

variable {M K N : Nat} (d : DotDims ⟨2, ![M, K]⟩ ⟨2, ![K, N]⟩ ⟨2, ![M, N]⟩)

/-- The host's dot_general of a plain product is the product. -/
theorem dotGeneral_eq_mm (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    Host.dotGeneral (F := Ideal) d prec l r = mm l r :=
  funext fun j => MatmulSum.dotGeneral_apply d hlc hrc hln hrn hlb hrb prec .single l r j

/-- A matrix unit's product into the zero accumulator is the product. -/
theorem matmul_zero_eq_mm (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    matmul (F := Ideal) d prec l r (constant ⟨2, ![M, N]⟩ .f32 0x00000000#32) = mm l r :=
  funext fun j => MatmulSum.matmul_zero_apply d hlc hrc hln hrn hlb hrb prec l r j

/-- Rows `o, o + 1, …` of a product: if `lb` holds the rows of `l` from row `o` on (`hl`), then the product of `lb`
    with `r` at (p, q) is the product of `l` with `r` at (o + p, q). -/
theorem mm_rows {M' : Nat} (l : (⟨2, ![M, K]⟩ : Shape).Idx → EReal) (lb : (⟨2, ![M', K]⟩ : Shape).Idx → EReal)
    (r : (⟨2, ![K, N]⟩ : Shape).Idx → EReal) (p : Fin M') (i : Fin M) (q : Fin N)
    (hl : ∀ k : Fin K, lb (ix2 p k) = l (ix2 i k)) :
    mm lb r (ix2 p q) = mm l r (ix2 i q) :=
  Finset.sum_congr rfl fun k _ => by rw [show (ix2 p q : (⟨2, ![M', N]⟩ : Shape).Idx) 0 = p from rfl,
    show (ix2 p q : (⟨2, ![M', N]⟩ : Shape).Idx) 1 = q from rfl, show (ix2 i q : (⟨2, ![M, N]⟩ : Shape).Idx) 0 = i from rfl,
    show (ix2 i q : (⟨2, ![M, N]⟩ : Shape).Idx) 1 = q from rfl, hl k]

end Cert.Product

end
-- ==== Proof.Spec.lean ====
/-
  The graph encoder as plain functions of its argument arrays, entry by entry, over the extended reals.

  An edge e has a source word and a target word (rows 0 and 1 of the edge array). A word names a node for an
  accumulation when, read as a signed integer, it is that node's number (otherwise the edge is dropped); it names
  a node for a read after 100000 is added to a negative word and the result is clamped into [0, 99999].

  deg i = 0 + (number of edges whose target is i) + 1, dinv i = deg^(-1/2) guarded as the program guards it.
  One layer of the network sends an array y of node rows to
      dinv i * ((0 + sum over the edges e into i of dinv (src e) * y (src e)) + dinv i * y i) + b :
  the self loop is the last summand, and the factor dinv i of every edge into i is taken out of the sum.
  The reference's form of the same layer keeps the self loops as 100000 further edges and multiplies every
  update by dinv (src e) * dinv (tgt e) before it is accumulated.
-/
import Idealize.ShloMosaic.PureOps.Ideal.Laws
import Idealize.ShloMosaic.Lib.ValueIdx

noncomputable section

namespace Cert.Spec

open Idealize.ShloMosaic Idealize.ShloMosaic.ValueIdx

/-- The word 0.0 and the word 1.0 as extended reals. -/
def zero : EReal := Ideal.ofBits .f32 0x00000000#32
def one : EReal := Ideal.ofBits .f32 0x3F800000#32

/-- A negative index word gets 100000 added (the wrap of a negative index). -/
def wrapW (w : BitVec 32) : BitVec 32 := Scalar.select (IntOp.cmpi .slt w 0#32) (IntOp.addi w 100000#32) w
/-- A signed word clamped into [0, 99999]: the node a read names. -/
def clampN (w : BitVec 32) : Fin 100000 := ⟨min w.toInt.toNat (100000 - 1), by omega⟩
/-- The node a read through an index word names: wrap, then clamp. -/
def gRow (w : BitVec 32) : Fin 100000 := clampN (wrapW w)

section Graph
variable (ei : IVec ⟨2, ![2, 800000]⟩ 32)

/-- Edge e's source word and target word. -/
def rowW (e : Fin 800000) : BitVec 32 := ei (ix2 (0 : Fin 2) e)
def colW (e : Fin 800000) : BitVec 32 := ei (ix2 (1 : Fin 2) e)
/-- The node edge e reads its message from, and the node its target word reads. -/
def src (e : Fin 800000) : Fin 100000 := gRow (rowW ei e)
def tgt (e : Fin 800000) : Fin 100000 := gRow (colW ei e)
/-- The edges accumulated into node i: those whose target word, read signed, is i. -/
def hits (i : Fin 100000) : Finset (Fin 800000) :=
  Finset.univ.filter fun e => (colW ei e).toInt = (i.val : Int)

/-- The guarded inverse square root of a degree, as both programs spell it. -/
def dinvOf (d : EReal) : EReal :=
  Scalar.select (FloatOps.cmpf (F := Ideal) (φ := .f32) .ogt d zero)
    (FloatOps.hostUnary (F := Ideal) (φ := .f32) .rsqrt (max d one)) zero

/-- The degree with the self loop added as a last summand. -/
def deg (i : Fin 100000) : EReal := (zero + ∑ _e ∈ hits ei i, one) + one
def dinv (i : Fin 100000) : EReal := dinvOf (deg ei i)

/-- One layer, self loop apart and dinv i taken out: entry (i, k). -/
def layer {C : Nat} (y : Fin 100000 → Fin C → EReal) (b : Fin C → EReal) (i : Fin 100000) (k : Fin C) : EReal :=
  dinv ei i * ((zero + ∑ e ∈ hits ei i, dinv ei (src ei e) * y (src ei e) k) + dinv ei i * y i k) + b k

end Graph

/-- A product of arrays entry by entry. -/
def mmf {M K N : Nat} (l : Fin M → Fin K → EReal) (r : Fin K → Fin N → EReal) (i : Fin M) (j : Fin N) : EReal :=
  ∑ k : Fin K, l i k * r k j

section Net
variable (x : (⟨2, ![100000, 256]⟩ : Shape).Idx → EReal) (ei : IVec ⟨2, ![2, 800000]⟩ 32)
  (W1 : (⟨2, ![256, 256]⟩ : Shape).Idx → EReal) (b1 : (⟨1, ![256]⟩ : Shape).Idx → EReal)
  (W2 : (⟨2, ![256, 128]⟩ : Shape).Idx → EReal) (b2 : (⟨1, ![128]⟩ : Shape).Idx → EReal)
  (Wp1 : (⟨2, ![256, 256]⟩ : Shape).Idx → EReal) (bp1 : (⟨1, ![256]⟩ : Shape).Idx → EReal)
  (Wp2 : (⟨2, ![256, 128]⟩ : Shape).Idx → EReal) (bp2 : (⟨1, ![128]⟩ : Shape).Idx → EReal)
  (Wc : (⟨2, ![128, 40]⟩ : Shape).Idx → EReal) (bc : (⟨1, ![40]⟩ : Shape).Idx → EReal)

/-- x W1. -/
def xw1 (i : Fin 100000) (k : Fin 256) : EReal := ∑ j : Fin 256, x (ix2 i j) * W1 (ix2 j k)
/-- The hidden layer: relu of layer 1. -/
def hid (i : Fin 100000) (k : Fin 256) : EReal :=
  max (layer ei (xw1 x W1) (fun k => b1 (ix1 k)) i k) zero
/-- h W2. -/
def xw2 (i : Fin 100000) (k : Fin 128) : EReal := ∑ j : Fin 256, hid x ei W1 b1 i j * W2 (ix2 j k)
/-- The node features: layer 2, no relu. -/
def feat (i : Fin 100000) (k : Fin 128) : EReal :=
  layer ei (xw2 x ei W1 b1 W2) (fun k => b2 (ix1 k)) i k

/-- The edge head on two rows of features, the first weight split into its two halves of rows. -/
def mlpRow (fr fc : Fin 128 → EReal) (k : Fin 128) : EReal :=
  (∑ q : Fin 256,
      max (((∑ p : Fin 128, fr p * Wp1 (ix2 (⟨p.val, by omega⟩ : Fin 256) q))
            + (∑ p : Fin 128, fc p * Wp1 (ix2 (⟨128 + p.val, by omega⟩ : Fin 256) q))) + bp1 (ix1 q)) zero
        * Wp2 (ix2 q k)) + bp2 (ix1 k)
def edge (e : Fin 800000) (k : Fin 128) : EReal :=
  mlpRow Wp1 bp1 Wp2 bp2 (feat x ei W1 b1 W2 b2 (src ei e)) (feat x ei W1 b1 W2 b2 (tgt ei e)) k
/-- The class scores. -/
def logit (i : Fin 100000) (k : Fin 40) : EReal :=
  (∑ q : Fin 128, feat x ei W1 b1 W2 b2 i q * Wc (ix2 q k)) + bc (ix1 k)

end Net

end Cert.Spec

end
-- ==== Proof.KHost.lean ====
/-
  The idealized kernel program's host stages as functions of their operands: the printed host operations
  between the regions, with each region's result a product of whole arrays.

  rows / cols: rows 0 and 1 of the edge array as vectors of index words. deg: ones accumulated along the target
  words into zeros, plus one. dinv: the guarded inverse square root. One layer: the product's rows scaled by dinv,
  the scaled rows of the source words accumulated along the target words into zeros, the scaled row itself added
  (the self loop), the sum scaled by dinv again, the bias added. The edge head reads the feature rows of both words
  of every edge; the class scores use the weight and bias padded with zeros to 128 columns and keep the first 40.
-/
import proofs.«129196_j11553462026276_2_alg».proof.KernelIdeal
import proofs.«129196_j11553462026276_2_alg».proof.Proof.Gen.KernelIdeal
import proofs.«129196_j11553462026276_2_alg».proof.Proof.LibProduct
import proofs.«129196_j11553462026276_2_alg».proof.Proof.Spec
import Idealize.ShloMosaic.PureOps.Ideal.Laws
import Idealize.ShloMosaic.Lib.ValueIdx

noncomputable section

namespace Cert.KernelIdeal.KHost

open Cert.KernelIdeal Cert.KernelIdeal.Gen
open Idealize.ShloMosaic Idealize.ShloMosaic.ValueIdx

/-- Row 0 and row 1 of the edge array as vectors of index words. -/
def rowsV (ei : IVec S2x800000 32) : IVec S800000 32 :=
  shapeCast S800000 (extractStridedSlice S1x800000 ![0, 0] ei slices_S2x800000_S1x800000_0_0) shapeCasts_S1x800000_S800000
def colsV (ei : IVec S2x800000 32) : IVec S800000 32 :=
  shapeCast S800000 (extractStridedSlice S1x800000 ![1, 0] ei slices_S2x800000_S1x800000_1_0) shapeCasts_S1x800000_S800000

/-- A vector of index words as a column. -/
def colIdx (v : IVec S800000 32) : IVec S800000x1 32 := broadcastInDim S800000x1 ![0] bcast_S800000_S800000x1_0 v
/-- The same with every negative word wrapped by 100000 first. -/
def wrapV (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 100000#32))) v)

/-- The degree: ones accumulated along the target words into zeros, plus one. -/
def degA (ei : IVec S2x800000 32) : FVec Ideal S100000 .f32 :=
  addf (Host.scatterAdd scatter_S100000_S800000x1_S800000_n_0_0_1
      (broadcastInDim S100000 ![] bcast_S_S100000 (constant S_ .f32 0x00000000#32)) (colIdx (colsV ei))
      (broadcastInDim S800000 ![] bcast_S_S800000 (constant S_ .f32 0x3F800000#32)))
    (broadcastInDim S100000 ![] bcast_S_S100000 (constant S_ .f32 0x3F800000#32))
/-- The guarded inverse square root of the degree. -/
def dinvA (ei : IVec S2x800000 32) : FVec Ideal S100000 .f32 :=
  select (cmpf .ogt (degA ei) (broadcastInDim S100000 ![] bcast_S_S100000 (constant S_ .f32 0x00000000#32)))
    (Host.rsqrt (maximumf (degA ei) (broadcastInDim S100000 ![] bcast_S_S100000 (constant S_ .f32 0x3F800000#32))))
    (broadcastInDim S100000 ![] bcast_S_S100000 (id (constant S_ .f32 0x00000000#32)))

/-- One layer at width 256 on a product xw, with bias b. -/
def layer256 (d : FVec Ideal S100000 .f32) (xw : FVec Ideal S100000x256 .f32) (rows cols : IVec S800000 32)
    (b : FVec Ideal S256 .f32) : FVec Ideal S100000x256 .f32 :=
  addf
    (mulf (broadcastInDim S100000x256 ![0, 1] bcast_S100000x1_S100000x256_0_1 (broadcastInDim S100000x1 ![0] bcast_S100000_S100000x1_0 d))
      (addf
        (Host.scatterAdd scatter_S100000x256_S800000x1_S800000x256_1_0_0_1
          (broadcastInDim S100000x256 ![] bcast_S_S100000x256 (constant S_ .f32 0x00000000#32)) (colIdx cols)
          (Host.gather gather_S100000x256_S800000x1_S800000x256_1_0_n_n_0_1_1256
            (mulf (broadcastInDim S100000x256 ![0, 1] bcast_S100000x1_S100000x256_0_1 (broadcastInDim S100000x1 ![0] bcast_S100000_S100000x1_0 d)) xw)
            (wrapV rows)))
        (mulf (broadcastInDim S100000x256 ![0, 1] bcast_S100000x1_S100000x256_0_1 (broadcastInDim S100000x1 ![0] bcast_S100000_S100000x1_0 d)) xw)))
    (broadcastInDim S100000x256 ![0, 1] bcast_S1x256_S100000x256_0_1 (broadcastInDim S1x256 ![1] bcast_S256_S1x256_1 b))
/-- relu at width 256. -/
def relu256 (x : FVec Ideal S100000x256 .f32) : FVec Ideal S100000x256 .f32 :=
  maximumf x (broadcastInDim S100000x256 ![] bcast_S_S100000x256 (constant S_ .f32 0x00000000#32))

/-- One layer at width 128. -/
def layer128 (d : FVec Ideal S100000 .f32) (xw : FVec Ideal S100000x128 .f32) (rows cols : IVec S800000 32)
    (b : FVec Ideal S128 .f32) : FVec Ideal S100000x128 .f32 :=
  addf
    (mulf (broadcastInDim S100000x128 ![0, 1] bcast_S100000x1_S100000x128_0_1 (broadcastInDim S100000x1 ![0] bcast_S100000_S100000x1_0 d))
      (addf
        (Host.scatterAdd scatter_S100000x128_S800000x1_S800000x128_1_0_0_1
          (broadcastInDim S100000x128 ![] bcast_S_S100000x128 (constant S_ .f32 0x00000000#32)) (colIdx cols)
          (Host.gather gather_S100000x128_S800000x1_S800000x128_1_0_n_n_0_1_1128
            (mulf (broadcastInDim S100000x128 ![0, 1] bcast_S100000x1_S100000x128_0_1 (broadcastInDim S100000x1 ![0] bcast_S100000_S100000x1_0 d)) xw)
            (wrapV rows)))
        (mulf (broadcastInDim S100000x128 ![0, 1] bcast_S100000x1_S100000x128_0_1 (broadcastInDim S100000x1 ![0] bcast_S100000_S100000x1_0 d)) xw)))
    (broadcastInDim S100000x128 ![0, 1] bcast_S1x128_S100000x128_0_1 (broadcastInDim S1x128 ![1] bcast_S128_S1x128_1 b))

/-- The feature rows the edges read, in the narrow format (the same extended reals). -/
def gatherF (f : FVec Ideal S100000x128 .f32) (idx : IVec S800000x1 32) : FVec Ideal S800000x128 .bf16 :=
  Host.gather gather_S100000x128_S800000x1_S800000x128_1_0_n_n_0_1_1128 (truncf .bf16 f bitsLt_bf16_f32) idx

/-- The two halves of rows of the first head weight, and the two biases as rows. -/
def w1top (Wp1 : FVec Ideal S256x256 .f32) : FVec Ideal S128x256 .f32 := extractStridedSlice S128x256 ![0, 0] Wp1 slices_S256x256_S128x256_0_0
def w1bot (Wp1 : FVec Ideal S256x256 .f32) : FVec Ideal S128x256 .f32 := extractStridedSlice S128x256 ![128, 0] Wp1 slices_S256x256_S128x256_128_0
def rowB1 (bp1 : FVec Ideal S256 .f32) : FVec Ideal S1x256 .f32 := shapeCast S1x256 bp1 shapeCasts_S256_S1x256
def rowB2 (bp2 : FVec Ideal S128 .f32) : FVec Ideal S1x128 .f32 := shapeCast S1x128 bp2 shapeCasts_S128_S1x128

/-- The class weight and bias padded with zeros to 128 columns. -/
def padW (Wc : FVec Ideal S128x40 .f32) : FVec Ideal S128x128 .f32 :=
  pad S128x128 ![0, 0] ![0, 88] ![0, 0] Wc (sitofp .f32 (constantI S_ 32 0#32)) pads_S128x40_S128x128_000_0880 h_S_
def padB (bc : FVec Ideal S40 .f32) : FVec Ideal S1x128 .f32 :=
  shapeCast S1x128 (pad S128 ![0] ![88] ![0] bc (sitofp .f32 (constantI S_ 32 0#32)) pads_S40_S128_0880 h_S_) shapeCasts_S128_S1x128
/-- The first 40 columns. -/
def sliceL (x : FVec Ideal S100000x128 .f32) : FVec Ideal S100000x40 .f32 :=
  extractStridedSlice S100000x40 ![0, 0] x slices_S100000x128_S100000x40_0_0

/-- The edge head on whole arrays: two products added, bias, relu, a third product, bias. -/
def edgeHeadA (fr fc : S800000x128.Idx → EReal) (w1t w1b : S128x256.Idx → EReal) (b1 : S1x256.Idx → EReal)
    (w2 : S256x128.Idx → EReal) (b2 : S1x128.Idx → EReal) : S800000x128.Idx → EReal :=
  fun j => (∑ q : Fin 256, max (((∑ p : Fin 128, fr (ix2 (j 0) p) * w1t (ix2 p q)) + (∑ p : Fin 128, fc (ix2 (j 0) p) * w1b (ix2 p q))) + b1 (ix2 (0 : Fin 1) q)) Cert.Spec.zero * w2 (ix2 q (j 1))) + b2 (ix2 (0 : Fin 1) (j 1))
/-- The dense product with a bias row. -/
def denseBias (f : S100000x128.Idx → EReal) (w : S128x128.Idx → EReal) (b : S1x128.Idx → EReal) : S100000x128.Idx → EReal :=
  fun j => Cert.Product.mm f w j + b (ix2 (0 : Fin 1) (j 1))

section Net
variable (x : FVec Ideal S100000x256 .f32) (ei : IVec S2x800000 32) (W1 : FVec Ideal S256x256 .f32) (b1 : FVec Ideal S256 .f32)
  (W2 : FVec Ideal S256x128 .f32) (b2 : FVec Ideal S128 .f32) (Wp1 : FVec Ideal S256x256 .f32) (bp1 : FVec Ideal S256 .f32)
  (Wp2 : FVec Ideal S256x128 .f32) (bp2 : FVec Ideal S128 .f32) (Wc : FVec Ideal S128x40 .f32) (bc : FVec Ideal S40 .f32)

/-- The hidden layer, the node features, the edge features and the class scores of the kernel program. -/
def hidA : FVec Ideal S100000x256 .f32 :=
  relu256 (layer256 (dinvA ei) (Cert.Product.mm x W1) (rowsV ei) (colsV ei) b1)
def featA : FVec Ideal S100000x128 .f32 :=
  layer128 (dinvA ei) (Cert.Product.mm (hidA x ei W1 b1) W2) (rowsV ei) (colsV ei) b2
def edgeA : S800000x128.Idx → EReal :=
  edgeHeadA (gatherF (featA x ei W1 b1 W2 b2) (wrapV (rowsV ei))) (gatherF (featA x ei W1 b1 W2 b2) (wrapV (colsV ei)))
    (w1top Wp1) (w1bot Wp1) (rowB1 bp1) Wp2 (rowB2 bp2)
def logitA : FVec Ideal S100000x40 .f32 :=
  sliceL (denseBias (featA x ei W1 b1 W2 b2) (padW Wc) (padB bc))

end Net

end Cert.KernelIdeal.KHost

end
-- ==== Proof.KStageA.lean ====
/-
  The idealized kernel program read back up to region 0's exit: the index words, the degree and its guarded inverse square root, and region 0's product x W1.
-/
import proofs.«129196_j11553462026276_2_alg».proof.Proof.Gen.KernelIdeal.Frame
import proofs.«129196_j11553462026276_2_alg».proof.Proof.KHost
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.KStage

open Cert.KernelIdeal Cert.KernelIdeal.Gen Cert.KernelIdeal.KHost
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The first stretch -/

theorem W1_v1 (c : Dev nD) : W1 m ρ c (Proc.devRef .tc main_v1) = rowsV (m ((c : Thread nD τ).loc main_arg1)) := by
  show (StableHlo.after hostOps0 (W0 m ρ c)) (Proc.devRef .tc main_v1) = _
  after_results_simp <;> rfl
theorem W1_v3 (c : Dev nD) : W1 m ρ c (Proc.devRef .tc main_v3) = colsV (m ((c : Thread nD τ).loc main_arg1)) := by
  show (StableHlo.after hostOps0 (W0 m ρ c)) (Proc.devRef .tc main_v3) = _
  after_results_simp <;> rfl
theorem W1_v11 (c : Dev nD) : W1 m ρ c (Proc.devRef .tc main_v11) =
    cmpf .ogt (degA (m ((c : Thread nD τ).loc main_arg1))) (broadcastInDim S100000 ![] bcast_S_S100000 (constant S_ .f32 0x00000000#32)) := by
  show (StableHlo.after hostOps0 (W0 m ρ c)) (Proc.devRef .tc main_v11) = _
  after_results_simp <;> rfl
theorem W1_v14 (c : Dev nD) : W1 m ρ c (Proc.devRef .tc main_v14) =
    Host.rsqrt (maximumf (degA (m ((c : Thread nD τ).loc main_arg1))) (broadcastInDim S100000 ![] bcast_S_S100000 (constant S_ .f32 0x3F800000#32))) := by
  show (StableHlo.after hostOps0 (W0 m ρ c)) (Proc.devRef .tc main_v14) = _
  after_results_simp <;> rfl
theorem W1_cst4 (c : Dev nD) : W1 m ρ c (Proc.devRef .tc main_cst_4) = (constant (F := Ideal) S_ .f32 0x00000000#32 : FVec Ideal S_ .f32) := by
  show (StableHlo.after hostOps0 (W0 m ρ c)) (Proc.devRef .tc main_cst_4) = _
  after_results_simp <;> rfl

/-! ## The call that guards the inverse square root -/

/-- The call's buffers are typed copies of @main's: reading through them changes nothing. -/
theorem sel_cast (a : IVec S100000 1) (b d : FVec Ideal S100000 .f32) :
    (TRef.of main_v15 : TRef sig ⟨S100000, .f32⟩).toBuf (Val := Elt Ideal)
      (select ((TRef.of main_v11 : TRef sig ⟨S100000, .i1⟩).ofBuf (Val := Elt Ideal) a)
        ((TRef.of main_v14 : TRef sig ⟨S100000, .f32⟩).ofBuf (Val := Elt Ideal) b) d) = (select a b d : FVec Ideal S100000 .f32) := rfl
theorem zero_cast (x : FVec Ideal S_ .f32) :
    ((TRef.of main_call0_v1 : TRef sig ⟨S100000, .f32⟩).ofBuf (Val := Elt Ideal) ((TRef.of main_call0_v1 : TRef sig ⟨S100000, .f32⟩).toBuf (Val := Elt Ideal)
      (broadcastInDim S100000 ![] bcast_S_S100000 ((TRef.of main_call0_v0 : TRef sig ⟨S_, .f32⟩).ofBuf (Val := Elt Ideal)
        ((TRef.of main_call0_v0 : TRef sig ⟨S_, .f32⟩).toBuf (Val := Elt Ideal) (id ((TRef.of main_cst_4 : TRef sig ⟨S_, .f32⟩).ofBuf (Val := Elt Ideal) x)))))) : FVec Ideal S100000 .f32)
    = broadcastInDim S100000 ![] bcast_S_S100000 (id x) := rfl
theorem W2_v15 (c : Dev nD) : W2 m ρ c (Proc.devRef .tc main_v15) = dinvA (m ((c : Thread nD τ).loc main_arg1)) := by
  show StableHlo.after hostOps0_1 (W1 m ρ c) (Proc.devRef .tc main_v15) = _
  have e11 := W1_v11 m ρ c
  have e14 := W1_v14 m ρ c
  have e4 := W1_cst4 m ρ c
  generalize W1 m ρ c = V at e11 e14 e4 ⊢
  after_results_simp
  rw [e11, e14, e4]
  exact (sel_cast _ _ _).trans (congrArg (select _ _) (zero_cast _))
theorem W2_v1 (c : Dev nD) : W2 m ρ c (Proc.devRef .tc main_v1) = rowsV (m ((c : Thread nD τ).loc main_arg1)) := by
  show (StableHlo.after hostOps0_1 (StableHlo.after hostOps0 (W0 m ρ c))) (Proc.devRef .tc main_v1) = _
  after_results_simp <;> rfl
theorem W2_v3 (c : Dev nD) : W2 m ρ c (Proc.devRef .tc main_v3) = colsV (m ((c : Thread nD τ).loc main_arg1)) := by
  show (StableHlo.after hostOps0_1 (StableHlo.after hostOps0 (W0 m ρ c))) (Proc.devRef .tc main_v3) = _
  after_results_simp <;> rfl
theorem W2_main_arg0 (c : Dev nD) : W2 m ρ c (Proc.devRef .tc main_arg0) = m ((c : Thread nD τ).loc main_arg0) := by
  show (StableHlo.after hostOps0_1 (StableHlo.after hostOps0 (W0 m ρ c))) (Proc.devRef .tc main_arg0) = _
  after_results_simp <;> rfl
theorem W2_main_arg2 (c : Dev nD) : W2 m ρ c (Proc.devRef .tc main_arg2) = m ((c : Thread nD τ).loc main_arg2) := by
  show (StableHlo.after hostOps0_1 (StableHlo.after hostOps0 (W0 m ρ c))) (Proc.devRef .tc main_arg2) = _
  after_results_simp <;> rfl
theorem W2_main_arg3 (c : Dev nD) : W2 m ρ c (Proc.devRef .tc main_arg3) = m ((c : Thread nD τ).loc main_arg3) := by
  show (StableHlo.after hostOps0_1 (StableHlo.after hostOps0 (W0 m ρ c))) (Proc.devRef .tc main_arg3) = _
  after_results_simp <;> rfl
theorem W2_main_arg4 (c : Dev nD) : W2 m ρ c (Proc.devRef .tc main_arg4) = m ((c : Thread nD τ).loc main_arg4) := by
  show (StableHlo.after hostOps0_1 (StableHlo.after hostOps0 (W0 m ρ c))) (Proc.devRef .tc main_arg4) = _
  after_results_simp <;> rfl
theorem W2_main_arg5 (c : Dev nD) : W2 m ρ c (Proc.devRef .tc main_arg5) = m ((c : Thread nD τ).loc main_arg5) := by
  show (StableHlo.after hostOps0_1 (StableHlo.after hostOps0 (W0 m ρ c))) (Proc.devRef .tc main_arg5) = _
  after_results_simp <;> rfl
theorem W2_main_arg6 (c : Dev nD) : W2 m ρ c (Proc.devRef .tc main_arg6) = m ((c : Thread nD τ).loc main_arg6) := by
  show (StableHlo.after hostOps0_1 (StableHlo.after hostOps0 (W0 m ρ c))) (Proc.devRef .tc main_arg6) = _
  after_results_simp <;> rfl
theorem W2_main_arg7 (c : Dev nD) : W2 m ρ c (Proc.devRef .tc main_arg7) = m ((c : Thread nD τ).loc main_arg7) := by
  show (StableHlo.after hostOps0_1 (StableHlo.after hostOps0 (W0 m ρ c))) (Proc.devRef .tc main_arg7) = _
  after_results_simp <;> rfl
theorem W2_main_arg8 (c : Dev nD) : W2 m ρ c (Proc.devRef .tc main_arg8) = m ((c : Thread nD τ).loc main_arg8) := by
  show (StableHlo.after hostOps0_1 (StableHlo.after hostOps0 (W0 m ρ c))) (Proc.devRef .tc main_arg8) = _
  after_results_simp <;> rfl
theorem W2_main_arg9 (c : Dev nD) : W2 m ρ c (Proc.devRef .tc main_arg9) = m ((c : Thread nD τ).loc main_arg9) := by
  show (StableHlo.after hostOps0_1 (StableHlo.after hostOps0 (W0 m ρ c))) (Proc.devRef .tc main_arg9) = _
  after_results_simp <;> rfl
theorem W2_main_arg10 (c : Dev nD) : W2 m ρ c (Proc.devRef .tc main_arg10) = m ((c : Thread nD τ).loc main_arg10) := by
  show (StableHlo.after hostOps0_1 (StableHlo.after hostOps0 (W0 m ρ c))) (Proc.devRef .tc main_arg10) = _
  after_results_simp <;> rfl
theorem W2_main_arg11 (c : Dev nD) : W2 m ρ c (Proc.devRef .tc main_arg11) = m ((c : Thread nD τ).loc main_arg11) := by
  show (StableHlo.after hostOps0_1 (StableHlo.after hostOps0 (W0 m ρ c))) (Proc.devRef .tc main_arg11) = _
  after_results_simp <;> rfl

/-! ## Region 0: the first product; every other buffer as it was -/

theorem W3_v16 (hf0 : ∀ (V : (c : Dev nD) → (b : Ref sig .tc) → Buf (Elt Ideal) ((c : Thread nD τ).loc b)) (c : Dev nD), (dat0 (F := Ideal) V c).arrAt 2 cfg0.N = Cert.Product.mm (V c main_arg0) (V c main_arg2)) (c : Dev nD) : W3 m ρ c (Proc.devRef .tc main_v16) =
    Cert.Product.mm (m ((c : Thread nD τ).loc main_arg0)) (m ((c : Thread nD τ).loc main_arg2)) := by
  refine (W3_arr m ρ c 2).trans ((hf0 (V2 m ρ) c).trans ?_)
  show Cert.Product.mm (W2 m ρ c (Proc.devRef .tc main_arg0)) (W2 m ρ c (Proc.devRef .tc main_arg2)) = _
  rw [W2_main_arg0, W2_main_arg2]
theorem W3_keep_main_v15 (c : Dev nD) : W3 m ρ c (Proc.devRef .tc main_v15) = W2 m ρ c (Proc.devRef .tc main_v15) := W3_of_ne m ρ c main_v15 (by decide)
theorem W3_keep_main_v1 (c : Dev nD) : W3 m ρ c (Proc.devRef .tc main_v1) = W2 m ρ c (Proc.devRef .tc main_v1) := W3_of_ne m ρ c main_v1 (by decide)
theorem W3_keep_main_v3 (c : Dev nD) : W3 m ρ c (Proc.devRef .tc main_v3) = W2 m ρ c (Proc.devRef .tc main_v3) := W3_of_ne m ρ c main_v3 (by decide)
theorem W3_keep_main_arg3 (c : Dev nD) : W3 m ρ c (Proc.devRef .tc main_arg3) = W2 m ρ c (Proc.devRef .tc main_arg3) := W3_of_ne m ρ c main_arg3 (by decide)
theorem W3_keep_main_arg4 (c : Dev nD) : W3 m ρ c (Proc.devRef .tc main_arg4) = W2 m ρ c (Proc.devRef .tc main_arg4) := W3_of_ne m ρ c main_arg4 (by decide)
theorem W3_keep_main_arg5 (c : Dev nD) : W3 m ρ c (Proc.devRef .tc main_arg5) = W2 m ρ c (Proc.devRef .tc main_arg5) := W3_of_ne m ρ c main_arg5 (by decide)
theorem W3_keep_main_arg6 (c : Dev nD) : W3 m ρ c (Proc.devRef .tc main_arg6) = W2 m ρ c (Proc.devRef .tc main_arg6) := W3_of_ne m ρ c main_arg6 (by decide)
theorem W3_keep_main_arg7 (c : Dev nD) : W3 m ρ c (Proc.devRef .tc main_arg7) = W2 m ρ c (Proc.devRef .tc main_arg7) := W3_of_ne m ρ c main_arg7 (by decide)
theorem W3_keep_main_arg8 (c : Dev nD) : W3 m ρ c (Proc.devRef .tc main_arg8) = W2 m ρ c (Proc.devRef .tc main_arg8) := W3_of_ne m ρ c main_arg8 (by decide)
theorem W3_keep_main_arg9 (c : Dev nD) : W3 m ρ c (Proc.devRef .tc main_arg9) = W2 m ρ c (Proc.devRef .tc main_arg9) := W3_of_ne m ρ c main_arg9 (by decide)
theorem W3_keep_main_arg10 (c : Dev nD) : W3 m ρ c (Proc.devRef .tc main_arg10) = W2 m ρ c (Proc.devRef .tc main_arg10) := W3_of_ne m ρ c main_arg10 (by decide)
theorem W3_keep_main_arg11 (c : Dev nD) : W3 m ρ c (Proc.devRef .tc main_arg11) = W2 m ρ c (Proc.devRef .tc main_arg11) := W3_of_ne m ρ c main_arg11 (by decide)

end Cert.KernelIdeal.KStage

end
-- ==== Proof.KStageB.lean ====
/-
  The idealized kernel program read back from region 0's exit to region 1's exit: layer 1, its relu, and region 1's product h W2.
-/
import proofs.«129196_j11553462026276_2_alg».proof.Proof.Gen.KernelIdeal.Frame
import proofs.«129196_j11553462026276_2_alg».proof.Proof.KHost
import proofs.«129196_j11553462026276_2_alg».proof.Proof.KStageA
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.KStage

open Cert.KernelIdeal Cert.KernelIdeal.Gen Cert.KernelIdeal.KHost
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## Layer 1 and its relu -/

theorem W4_v36 (c : Dev nD) : W4 m ρ c (Proc.devRef .tc main_v36) =
    layer256 (W3 m ρ c (Proc.devRef .tc main_v15)) (W3 m ρ c (Proc.devRef .tc main_v16)) (W3 m ρ c (Proc.devRef .tc main_v1)) (W3 m ρ c (Proc.devRef .tc main_v3)) (W3 m ρ c (Proc.devRef .tc main_arg3)) := by
  show StableHlo.after hostOps1 (W3 m ρ c) (Proc.devRef .tc main_v36) = _
  generalize W3 m ρ c = V
  after_results_simp <;> rfl
theorem W5_v37 (c : Dev nD) : W5 m ρ c (Proc.devRef .tc main_v37) = relu256 (W4 m ρ c (Proc.devRef .tc main_v36)) := by
  show StableHlo.after hostOps1_1 (W4 m ρ c) (Proc.devRef .tc main_v37) = _
  generalize W4 m ρ c = V
  after_results_simp <;> rfl
theorem W5_keep_main_v15 (c : Dev nD) : W5 m ρ c (Proc.devRef .tc main_v15) = W3 m ρ c (Proc.devRef .tc main_v15) := by
  show StableHlo.after hostOps1_1 (StableHlo.after hostOps1 (W3 m ρ c)) (Proc.devRef .tc main_v15) = _
  generalize W3 m ρ c = V
  after_results_simp
theorem W5_keep_main_v1 (c : Dev nD) : W5 m ρ c (Proc.devRef .tc main_v1) = W3 m ρ c (Proc.devRef .tc main_v1) := by
  show StableHlo.after hostOps1_1 (StableHlo.after hostOps1 (W3 m ρ c)) (Proc.devRef .tc main_v1) = _
  generalize W3 m ρ c = V
  after_results_simp
theorem W5_keep_main_v3 (c : Dev nD) : W5 m ρ c (Proc.devRef .tc main_v3) = W3 m ρ c (Proc.devRef .tc main_v3) := by
  show StableHlo.after hostOps1_1 (StableHlo.after hostOps1 (W3 m ρ c)) (Proc.devRef .tc main_v3) = _
  generalize W3 m ρ c = V
  after_results_simp
theorem W5_keep_main_arg4 (c : Dev nD) : W5 m ρ c (Proc.devRef .tc main_arg4) = W3 m ρ c (Proc.devRef .tc main_arg4) := by
  show StableHlo.after hostOps1_1 (StableHlo.after hostOps1 (W3 m ρ c)) (Proc.devRef .tc main_arg4) = _
  generalize W3 m ρ c = V
  after_results_simp
theorem W5_keep_main_arg5 (c : Dev nD) : W5 m ρ c (Proc.devRef .tc main_arg5) = W3 m ρ c (Proc.devRef .tc main_arg5) := by
  show StableHlo.after hostOps1_1 (StableHlo.after hostOps1 (W3 m ρ c)) (Proc.devRef .tc main_arg5) = _
  generalize W3 m ρ c = V
  after_results_simp
theorem W5_keep_main_arg6 (c : Dev nD) : W5 m ρ c (Proc.devRef .tc main_arg6) = W3 m ρ c (Proc.devRef .tc main_arg6) := by
  show StableHlo.after hostOps1_1 (StableHlo.after hostOps1 (W3 m ρ c)) (Proc.devRef .tc main_arg6) = _
  generalize W3 m ρ c = V
  after_results_simp
theorem W5_keep_main_arg7 (c : Dev nD) : W5 m ρ c (Proc.devRef .tc main_arg7) = W3 m ρ c (Proc.devRef .tc main_arg7) := by
  show StableHlo.after hostOps1_1 (StableHlo.after hostOps1 (W3 m ρ c)) (Proc.devRef .tc main_arg7) = _
  generalize W3 m ρ c = V
  after_results_simp
theorem W5_keep_main_arg8 (c : Dev nD) : W5 m ρ c (Proc.devRef .tc main_arg8) = W3 m ρ c (Proc.devRef .tc main_arg8) := by
  show StableHlo.after hostOps1_1 (StableHlo.after hostOps1 (W3 m ρ c)) (Proc.devRef .tc main_arg8) = _
  generalize W3 m ρ c = V
  after_results_simp
theorem W5_keep_main_arg9 (c : Dev nD) : W5 m ρ c (Proc.devRef .tc main_arg9) = W3 m ρ c (Proc.devRef .tc main_arg9) := by
  show StableHlo.after hostOps1_1 (StableHlo.after hostOps1 (W3 m ρ c)) (Proc.devRef .tc main_arg9) = _
  generalize W3 m ρ c = V
  after_results_simp
theorem W5_keep_main_arg10 (c : Dev nD) : W5 m ρ c (Proc.devRef .tc main_arg10) = W3 m ρ c (Proc.devRef .tc main_arg10) := by
  show StableHlo.after hostOps1_1 (StableHlo.after hostOps1 (W3 m ρ c)) (Proc.devRef .tc main_arg10) = _
  generalize W3 m ρ c = V
  after_results_simp
theorem W5_keep_main_arg11 (c : Dev nD) : W5 m ρ c (Proc.devRef .tc main_arg11) = W3 m ρ c (Proc.devRef .tc main_arg11) := by
  show StableHlo.after hostOps1_1 (StableHlo.after hostOps1 (W3 m ρ c)) (Proc.devRef .tc main_arg11) = _
  generalize W3 m ρ c = V
  after_results_simp

/-! ## Region 1: the second product; every other buffer as it was -/

theorem W6_v38 (hf1 : ∀ (V : (c : Dev nD) → (b : Ref sig .tc) → Buf (Elt Ideal) ((c : Thread nD τ).loc b)) (c : Dev nD), (dat1 (F := Ideal) V c).arrAt 2 cfg1.N = Cert.Product.mm (V c main_v37) (V c main_arg4)) (c : Dev nD) : W6 m ρ c (Proc.devRef .tc main_v38) =
    Cert.Product.mm (W5 m ρ c (Proc.devRef .tc main_v37)) (W5 m ρ c (Proc.devRef .tc main_arg4)) :=
  (W6_arr m ρ c 2).trans (hf1 (V5 m ρ) c)
theorem W6_keep_main_v15 (c : Dev nD) : W6 m ρ c (Proc.devRef .tc main_v15) = W5 m ρ c (Proc.devRef .tc main_v15) := W6_of_ne m ρ c main_v15 (by decide)
theorem W6_keep_main_v1 (c : Dev nD) : W6 m ρ c (Proc.devRef .tc main_v1) = W5 m ρ c (Proc.devRef .tc main_v1) := W6_of_ne m ρ c main_v1 (by decide)
theorem W6_keep_main_v3 (c : Dev nD) : W6 m ρ c (Proc.devRef .tc main_v3) = W5 m ρ c (Proc.devRef .tc main_v3) := W6_of_ne m ρ c main_v3 (by decide)
theorem W6_keep_main_arg5 (c : Dev nD) : W6 m ρ c (Proc.devRef .tc main_arg5) = W5 m ρ c (Proc.devRef .tc main_arg5) := W6_of_ne m ρ c main_arg5 (by decide)
theorem W6_keep_main_arg6 (c : Dev nD) : W6 m ρ c (Proc.devRef .tc main_arg6) = W5 m ρ c (Proc.devRef .tc main_arg6) := W6_of_ne m ρ c main_arg6 (by decide)
theorem W6_keep_main_arg7 (c : Dev nD) : W6 m ρ c (Proc.devRef .tc main_arg7) = W5 m ρ c (Proc.devRef .tc main_arg7) := W6_of_ne m ρ c main_arg7 (by decide)
theorem W6_keep_main_arg8 (c : Dev nD) : W6 m ρ c (Proc.devRef .tc main_arg8) = W5 m ρ c (Proc.devRef .tc main_arg8) := W6_of_ne m ρ c main_arg8 (by decide)
theorem W6_keep_main_arg9 (c : Dev nD) : W6 m ρ c (Proc.devRef .tc main_arg9) = W5 m ρ c (Proc.devRef .tc main_arg9) := W6_of_ne m ρ c main_arg9 (by decide)
theorem W6_keep_main_arg10 (c : Dev nD) : W6 m ρ c (Proc.devRef .tc main_arg10) = W5 m ρ c (Proc.devRef .tc main_arg10) := W6_of_ne m ρ c main_arg10 (by decide)
theorem W6_keep_main_arg11 (c : Dev nD) : W6 m ρ c (Proc.devRef .tc main_arg11) = W5 m ρ c (Proc.devRef .tc main_arg11) := W6_of_ne m ρ c main_arg11 (by decide)

/-! ## The buffers at region 1's exit, in the launch arguments -/

theorem dinv6 (c : Dev nD) : W6 m ρ c (Proc.devRef .tc main_v15) = dinvA (m ((c : Thread nD τ).loc main_arg1)) := by
  rw [W6_keep_main_v15, W5_keep_main_v15, W3_keep_main_v15, W2_v15]
theorem rows6 (c : Dev nD) : W6 m ρ c (Proc.devRef .tc main_v1) = rowsV (m ((c : Thread nD τ).loc main_arg1)) := by
  rw [W6_keep_main_v1, W5_keep_main_v1, W3_keep_main_v1, W2_v1]
theorem cols6 (c : Dev nD) : W6 m ρ c (Proc.devRef .tc main_v3) = colsV (m ((c : Thread nD τ).loc main_arg1)) := by
  rw [W6_keep_main_v3, W5_keep_main_v3, W3_keep_main_v3, W2_v3]
theorem arg6_main_arg5 (c : Dev nD) : W6 m ρ c (Proc.devRef .tc main_arg5) = m ((c : Thread nD τ).loc main_arg5) := by
  rw [W6_keep_main_arg5, W5_keep_main_arg5, W3_keep_main_arg5, W2_main_arg5]
theorem arg6_main_arg6 (c : Dev nD) : W6 m ρ c (Proc.devRef .tc main_arg6) = m ((c : Thread nD τ).loc main_arg6) := by
  rw [W6_keep_main_arg6, W5_keep_main_arg6, W3_keep_main_arg6, W2_main_arg6]
theorem arg6_main_arg7 (c : Dev nD) : W6 m ρ c (Proc.devRef .tc main_arg7) = m ((c : Thread nD τ).loc main_arg7) := by
  rw [W6_keep_main_arg7, W5_keep_main_arg7, W3_keep_main_arg7, W2_main_arg7]
theorem arg6_main_arg8 (c : Dev nD) : W6 m ρ c (Proc.devRef .tc main_arg8) = m ((c : Thread nD τ).loc main_arg8) := by
  rw [W6_keep_main_arg8, W5_keep_main_arg8, W3_keep_main_arg8, W2_main_arg8]
theorem arg6_main_arg9 (c : Dev nD) : W6 m ρ c (Proc.devRef .tc main_arg9) = m ((c : Thread nD τ).loc main_arg9) := by
  rw [W6_keep_main_arg9, W5_keep_main_arg9, W3_keep_main_arg9, W2_main_arg9]
theorem arg6_main_arg10 (c : Dev nD) : W6 m ρ c (Proc.devRef .tc main_arg10) = m ((c : Thread nD τ).loc main_arg10) := by
  rw [W6_keep_main_arg10, W5_keep_main_arg10, W3_keep_main_arg10, W2_main_arg10]
theorem arg6_main_arg11 (c : Dev nD) : W6 m ρ c (Proc.devRef .tc main_arg11) = m ((c : Thread nD τ).loc main_arg11) := by
  rw [W6_keep_main_arg11, W5_keep_main_arg11, W3_keep_main_arg11, W2_main_arg11]

theorem hid5 (hf0 : ∀ (V : (c : Dev nD) → (b : Ref sig .tc) → Buf (Elt Ideal) ((c : Thread nD τ).loc b)) (c : Dev nD), (dat0 (F := Ideal) V c).arrAt 2 cfg0.N = Cert.Product.mm (V c main_arg0) (V c main_arg2)) (c : Dev nD) : W5 m ρ c (Proc.devRef .tc main_v37) = hidA (m ((c : Thread nD τ).loc main_arg0)) (m ((c : Thread nD τ).loc main_arg1)) (m ((c : Thread nD τ).loc main_arg2)) (m ((c : Thread nD τ).loc main_arg3)) := by
  rw [W5_v37, W4_v36, W3_keep_main_v15, W3_keep_main_v1, W3_keep_main_v3, W3_keep_main_arg3, W2_v15, W2_v1, W2_v3, W2_main_arg3,
    W3_v16 m ρ hf0]
  rfl
theorem xw2_6 (hf0 : ∀ (V : (c : Dev nD) → (b : Ref sig .tc) → Buf (Elt Ideal) ((c : Thread nD τ).loc b)) (c : Dev nD), (dat0 (F := Ideal) V c).arrAt 2 cfg0.N = Cert.Product.mm (V c main_arg0) (V c main_arg2)) (hf1 : ∀ (V : (c : Dev nD) → (b : Ref sig .tc) → Buf (Elt Ideal) ((c : Thread nD τ).loc b)) (c : Dev nD), (dat1 (F := Ideal) V c).arrAt 2 cfg1.N = Cert.Product.mm (V c main_v37) (V c main_arg4)) (c : Dev nD) :
    W6 m ρ c (Proc.devRef .tc main_v38) = Cert.Product.mm (hidA (m ((c : Thread nD τ).loc main_arg0)) (m ((c : Thread nD τ).loc main_arg1)) (m ((c : Thread nD τ).loc main_arg2)) (m ((c : Thread nD τ).loc main_arg3))) (m ((c : Thread nD τ).loc main_arg4)) := by
  rw [W6_v38 m ρ hf1, hid5 m ρ hf0, W5_keep_main_arg4, W3_keep_main_arg4, W2_main_arg4]

end Cert.KernelIdeal.KStage

end
-- ==== Proof.KStageC.lean ====
/-
  The idealized kernel program read back from region 1's exit to region 2's exit: layer 2 (the node features), the feature rows the edges read, the head's weights, and region 2's edge head.
-/
import proofs.«129196_j11553462026276_2_alg».proof.Proof.Gen.KernelIdeal.Frame
import proofs.«129196_j11553462026276_2_alg».proof.Proof.KHost
import proofs.«129196_j11553462026276_2_alg».proof.Proof.KStageB
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.KStage

open Cert.KernelIdeal Cert.KernelIdeal.Gen Cert.KernelIdeal.KHost
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## Layer 2, the gathered feature rows, the head's weights -/

theorem W7_v58 (c : Dev nD) : W7 m ρ c (Proc.devRef .tc main_v58) = (layer128 (W6 m ρ c (Proc.devRef .tc main_v15)) (W6 m ρ c (Proc.devRef .tc main_v38)) (W6 m ρ c (Proc.devRef .tc main_v1)) (W6 m ρ c (Proc.devRef .tc main_v3)) (W6 m ρ c (Proc.devRef .tc main_arg5))) := by
  show StableHlo.after hostOps2 (W6 m ρ c) (Proc.devRef .tc main_v58) = _
  generalize W6 m ρ c = V
  after_results_simp <;> rfl
theorem W7_v66 (c : Dev nD) : W7 m ρ c (Proc.devRef .tc main_v66) = gatherF (layer128 (W6 m ρ c (Proc.devRef .tc main_v15)) (W6 m ρ c (Proc.devRef .tc main_v38)) (W6 m ρ c (Proc.devRef .tc main_v1)) (W6 m ρ c (Proc.devRef .tc main_v3)) (W6 m ρ c (Proc.devRef .tc main_arg5))) (wrapV (W6 m ρ c (Proc.devRef .tc main_v1))) := by
  show StableHlo.after hostOps2 (W6 m ρ c) (Proc.devRef .tc main_v66) = _
  generalize W6 m ρ c = V
  after_results_simp <;> rfl
theorem W7_v73 (c : Dev nD) : W7 m ρ c (Proc.devRef .tc main_v73) = gatherF (layer128 (W6 m ρ c (Proc.devRef .tc main_v15)) (W6 m ρ c (Proc.devRef .tc main_v38)) (W6 m ρ c (Proc.devRef .tc main_v1)) (W6 m ρ c (Proc.devRef .tc main_v3)) (W6 m ρ c (Proc.devRef .tc main_arg5))) (wrapV (W6 m ρ c (Proc.devRef .tc main_v3))) := by
  show StableHlo.after hostOps2 (W6 m ρ c) (Proc.devRef .tc main_v73) = _
  generalize W6 m ρ c = V
  after_results_simp <;> rfl
theorem W7_v74 (c : Dev nD) : W7 m ρ c (Proc.devRef .tc main_v74) = w1top (W6 m ρ c (Proc.devRef .tc main_arg6)) := by
  show StableHlo.after hostOps2 (W6 m ρ c) (Proc.devRef .tc main_v74) = _
  generalize W6 m ρ c = V
  after_results_simp <;> rfl
theorem W7_v75 (c : Dev nD) : W7 m ρ c (Proc.devRef .tc main_v75) = w1bot (W6 m ρ c (Proc.devRef .tc main_arg6)) := by
  show StableHlo.after hostOps2 (W6 m ρ c) (Proc.devRef .tc main_v75) = _
  generalize W6 m ρ c = V
  after_results_simp <;> rfl
theorem W7_v76 (c : Dev nD) : W7 m ρ c (Proc.devRef .tc main_v76) = rowB1 (W6 m ρ c (Proc.devRef .tc main_arg7)) := by
  show StableHlo.after hostOps2 (W6 m ρ c) (Proc.devRef .tc main_v76) = _
  generalize W6 m ρ c = V
  after_results_simp <;> rfl
theorem W7_v77 (c : Dev nD) : W7 m ρ c (Proc.devRef .tc main_v77) = rowB2 (W6 m ρ c (Proc.devRef .tc main_arg9)) := by
  show StableHlo.after hostOps2 (W6 m ρ c) (Proc.devRef .tc main_v77) = _
  generalize W6 m ρ c = V
  after_results_simp <;> rfl
theorem W7_keep_main_arg8 (c : Dev nD) : W7 m ρ c (Proc.devRef .tc main_arg8) = W6 m ρ c (Proc.devRef .tc main_arg8) := by
  show StableHlo.after hostOps2 (W6 m ρ c) (Proc.devRef .tc main_arg8) = _
  generalize W6 m ρ c = V
  after_results_simp
theorem W7_keep_main_arg10 (c : Dev nD) : W7 m ρ c (Proc.devRef .tc main_arg10) = W6 m ρ c (Proc.devRef .tc main_arg10) := by
  show StableHlo.after hostOps2 (W6 m ρ c) (Proc.devRef .tc main_arg10) = _
  generalize W6 m ρ c = V
  after_results_simp
theorem W7_keep_main_arg11 (c : Dev nD) : W7 m ρ c (Proc.devRef .tc main_arg11) = W6 m ρ c (Proc.devRef .tc main_arg11) := by
  show StableHlo.after hostOps2 (W6 m ρ c) (Proc.devRef .tc main_arg11) = _
  generalize W6 m ρ c = V
  after_results_simp

/-! ## Region 2: the edge head; every other buffer as it was -/

theorem W8_v78 (hf2 : ∀ (V : (c : Dev nD) → (b : Ref sig .tc) → Buf (Elt Ideal) ((c : Thread nD τ).loc b)) (c : Dev nD), (dat2 (F := Ideal) V c).arrAt 7 cfg2.N = edgeHeadA (V c main_v66) (V c main_v73) (V c main_v74) (V c main_v75) (V c main_v76) (V c main_arg8) (V c main_v77)) (c : Dev nD) : W8 m ρ c (Proc.devRef .tc main_v78) =
    edgeHeadA (W7 m ρ c (Proc.devRef .tc main_v66)) (W7 m ρ c (Proc.devRef .tc main_v73)) (W7 m ρ c (Proc.devRef .tc main_v74)) (W7 m ρ c (Proc.devRef .tc main_v75)) (W7 m ρ c (Proc.devRef .tc main_v76)) (W7 m ρ c (Proc.devRef .tc main_arg8)) (W7 m ρ c (Proc.devRef .tc main_v77)) :=
  (W8_arr m ρ c 7).trans (hf2 (V7 m ρ) c)
theorem W8_keep_main_v58 (c : Dev nD) : W8 m ρ c (Proc.devRef .tc main_v58) = W7 m ρ c (Proc.devRef .tc main_v58) := W8_of_ne m ρ c main_v58 (by decide)
theorem W8_keep_main_arg10 (c : Dev nD) : W8 m ρ c (Proc.devRef .tc main_arg10) = W7 m ρ c (Proc.devRef .tc main_arg10) := W8_of_ne m ρ c main_arg10 (by decide)
theorem W8_keep_main_arg11 (c : Dev nD) : W8 m ρ c (Proc.devRef .tc main_arg11) = W7 m ρ c (Proc.devRef .tc main_arg11) := W8_of_ne m ρ c main_arg11 (by decide)

/-! ## In the launch arguments -/

theorem feat7 (hf0 : ∀ (V : (c : Dev nD) → (b : Ref sig .tc) → Buf (Elt Ideal) ((c : Thread nD τ).loc b)) (c : Dev nD), (dat0 (F := Ideal) V c).arrAt 2 cfg0.N = Cert.Product.mm (V c main_arg0) (V c main_arg2)) (hf1 : ∀ (V : (c : Dev nD) → (b : Ref sig .tc) → Buf (Elt Ideal) ((c : Thread nD τ).loc b)) (c : Dev nD), (dat1 (F := Ideal) V c).arrAt 2 cfg1.N = Cert.Product.mm (V c main_v37) (V c main_arg4)) (c : Dev nD) :
    W7 m ρ c (Proc.devRef .tc main_v58) = featA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W7_v58, dinv6, xw2_6 m ρ hf0 hf1, rows6, cols6, arg6_main_arg5]
  rfl
theorem edge8 (hf0 : ∀ (V : (c : Dev nD) → (b : Ref sig .tc) → Buf (Elt Ideal) ((c : Thread nD τ).loc b)) (c : Dev nD), (dat0 (F := Ideal) V c).arrAt 2 cfg0.N = Cert.Product.mm (V c main_arg0) (V c main_arg2)) (hf1 : ∀ (V : (c : Dev nD) → (b : Ref sig .tc) → Buf (Elt Ideal) ((c : Thread nD τ).loc b)) (c : Dev nD), (dat1 (F := Ideal) V c).arrAt 2 cfg1.N = Cert.Product.mm (V c main_v37) (V c main_arg4)) (hf2 : ∀ (V : (c : Dev nD) → (b : Ref sig .tc) → Buf (Elt Ideal) ((c : Thread nD τ).loc b)) (c : Dev nD), (dat2 (F := Ideal) V c).arrAt 7 cfg2.N = edgeHeadA (V c main_v66) (V c main_v73) (V c main_v74) (V c main_v75) (V c main_v76) (V c main_arg8) (V c main_v77)) (c : Dev nD) :
    W8 m ρ c (Proc.devRef .tc main_v78) = edgeA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [W8_v78 m ρ hf2, W7_v66, W7_v73, W7_v74, W7_v75, W7_v76, W7_v77, W7_keep_main_arg8,
    dinv6, xw2_6 m ρ hf0 hf1, rows6, cols6, arg6_main_arg5, arg6_main_arg6, arg6_main_arg7, arg6_main_arg8, arg6_main_arg9]
  rfl

end Cert.KernelIdeal.KStage

end
-- ==== Proof.KStageD.lean ====
/-
  The idealized kernel program read back from region 2's exit to the end: the padded class weight and bias, region 3's class scores on 128 columns, the first 40 kept; and the three float results in the launch arguments.
-/
import proofs.«129196_j11553462026276_2_alg».proof.Proof.Gen.KernelIdeal.Frame
import proofs.«129196_j11553462026276_2_alg».proof.Proof.KHost
import proofs.«129196_j11553462026276_2_alg».proof.Proof.KStageC
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.KStage

open Cert.KernelIdeal Cert.KernelIdeal.Gen Cert.KernelIdeal.KHost
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The padded class weight and bias -/

theorem W13_v79 (c : Dev nD) : W13 m ρ c (Proc.devRef .tc main_v79) = padW (W8 m ρ c (Proc.devRef .tc main_arg10)) := by
  show StableHlo.after hostOps3_4 (StableHlo.after hostOps3_3 (StableHlo.after hostOps3_2 (StableHlo.after hostOps3_1 (StableHlo.after hostOps3 (W8 m ρ c))))) (Proc.devRef .tc main_v79) = _
  generalize W8 m ρ c = V
  after_results_simp <;> rfl
theorem W13_v81 (c : Dev nD) : W13 m ρ c (Proc.devRef .tc main_v81) = padB (W8 m ρ c (Proc.devRef .tc main_arg11)) := by
  show StableHlo.after hostOps3_4 (StableHlo.after hostOps3_3 (StableHlo.after hostOps3_2 (StableHlo.after hostOps3_1 (StableHlo.after hostOps3 (W8 m ρ c))))) (Proc.devRef .tc main_v81) = _
  generalize W8 m ρ c = V
  after_results_simp <;> rfl
theorem W13_keep_main_v58 (c : Dev nD) : W13 m ρ c (Proc.devRef .tc main_v58) = (W8 m ρ c (Proc.devRef .tc main_v58)) := by
  show StableHlo.after hostOps3_4 (StableHlo.after hostOps3_3 (StableHlo.after hostOps3_2 (StableHlo.after hostOps3_1 (StableHlo.after hostOps3 (W8 m ρ c))))) (Proc.devRef .tc main_v58) = _
  generalize W8 m ρ c = V
  after_results_simp
theorem W13_keep_main_v78 (c : Dev nD) : W13 m ρ c (Proc.devRef .tc main_v78) = (W8 m ρ c (Proc.devRef .tc main_v78)) := by
  show StableHlo.after hostOps3_4 (StableHlo.after hostOps3_3 (StableHlo.after hostOps3_2 (StableHlo.after hostOps3_1 (StableHlo.after hostOps3 (W8 m ρ c))))) (Proc.devRef .tc main_v78) = _
  generalize W8 m ρ c = V
  after_results_simp

/-! ## Region 3 and the last stretch -/

theorem W14_v82 (hf3 : ∀ (V : (c : Dev nD) → (b : Ref sig .tc) → Buf (Elt Ideal) ((c : Thread nD τ).loc b)) (c : Dev nD), (dat3 (F := Ideal) V c).arrAt 3 cfg3.N = denseBias (V c main_v58) (V c main_v79) (V c main_v81)) (c : Dev nD) : W14 m ρ c (Proc.devRef .tc main_v82) =
    denseBias (W13 m ρ c (Proc.devRef .tc main_v58)) (W13 m ρ c (Proc.devRef .tc main_v79)) (W13 m ρ c (Proc.devRef .tc main_v81)) :=
  (W14_arr m ρ c 3).trans (hf3 (V13 m ρ) c)
theorem W14_v58 (c : Dev nD) : W14 m ρ c (Proc.devRef .tc main_v58) = W13 m ρ c (Proc.devRef .tc main_v58) :=
  (W14_arr m ρ c 0).trans (((dat3 (V13 m ρ) c).arrAt_in 0 rfl _).trans (A_eq3 (V13 m ρ) c 0))
theorem W14_v78 (c : Dev nD) : W14 m ρ c (Proc.devRef .tc main_v78) = W13 m ρ c (Proc.devRef .tc main_v78) := W14_of_ne m ρ c main_v78 (by decide)
theorem W15_v83 (c : Dev nD) : W15 m ρ c (Proc.devRef .tc main_v83) = sliceL (W14 m ρ c (Proc.devRef .tc main_v82)) := by
  show StableHlo.after hostOps4 (W14 m ρ c) (Proc.devRef .tc main_v83) = _
  generalize W14 m ρ c = V
  after_results_simp <;> rfl
theorem W15_keep_main_v58 (c : Dev nD) : W15 m ρ c (Proc.devRef .tc main_v58) = W14 m ρ c (Proc.devRef .tc main_v58) := by
  show StableHlo.after hostOps4 (W14 m ρ c) (Proc.devRef .tc main_v58) = _
  generalize W14 m ρ c = V
  after_results_simp
theorem W15_keep_main_v78 (c : Dev nD) : W15 m ρ c (Proc.devRef .tc main_v78) = W14 m ρ c (Proc.devRef .tc main_v78) := by
  show StableHlo.after hostOps4 (W14 m ρ c) (Proc.devRef .tc main_v78) = _
  generalize W14 m ρ c = V
  after_results_simp

/-! ## The three float results -/

/-- The node features. -/
theorem k_feat (hf0 : ∀ (V : (c : Dev nD) → (b : Ref sig .tc) → Buf (Elt Ideal) ((c : Thread nD τ).loc b)) (c : Dev nD), (dat0 (F := Ideal) V c).arrAt 2 cfg0.N = Cert.Product.mm (V c main_arg0) (V c main_arg2)) (hf1 : ∀ (V : (c : Dev nD) → (b : Ref sig .tc) → Buf (Elt Ideal) ((c : Thread nD τ).loc b)) (c : Dev nD), (dat1 (F := Ideal) V c).arrAt 2 cfg1.N = Cert.Product.mm (V c main_v37) (V c main_arg4)) (c : Dev nD) :
    W15 m ρ c (Proc.devRef .tc main_v58) = featA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W15_keep_main_v58, W14_v58, W13_keep_main_v58, W8_keep_main_v58, feat7 m ρ hf0 hf1]
/-- The edge features. -/
theorem k_edge (hf0 : ∀ (V : (c : Dev nD) → (b : Ref sig .tc) → Buf (Elt Ideal) ((c : Thread nD τ).loc b)) (c : Dev nD), (dat0 (F := Ideal) V c).arrAt 2 cfg0.N = Cert.Product.mm (V c main_arg0) (V c main_arg2)) (hf1 : ∀ (V : (c : Dev nD) → (b : Ref sig .tc) → Buf (Elt Ideal) ((c : Thread nD τ).loc b)) (c : Dev nD), (dat1 (F := Ideal) V c).arrAt 2 cfg1.N = Cert.Product.mm (V c main_v37) (V c main_arg4)) (hf2 : ∀ (V : (c : Dev nD) → (b : Ref sig .tc) → Buf (Elt Ideal) ((c : Thread nD τ).loc b)) (c : Dev nD), (dat2 (F := Ideal) V c).arrAt 7 cfg2.N = edgeHeadA (V c main_v66) (V c main_v73) (V c main_v74) (V c main_v75) (V c main_v76) (V c main_arg8) (V c main_v77)) (c : Dev nD) : W15 m ρ c (Proc.devRef .tc main_v78) =
    edgeA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [W15_keep_main_v78, W14_v78, W13_keep_main_v78, edge8 m ρ hf0 hf1 hf2]
/-- The class scores. -/
theorem k_logit (hf0 : ∀ (V : (c : Dev nD) → (b : Ref sig .tc) → Buf (Elt Ideal) ((c : Thread nD τ).loc b)) (c : Dev nD), (dat0 (F := Ideal) V c).arrAt 2 cfg0.N = Cert.Product.mm (V c main_arg0) (V c main_arg2)) (hf1 : ∀ (V : (c : Dev nD) → (b : Ref sig .tc) → Buf (Elt Ideal) ((c : Thread nD τ).loc b)) (c : Dev nD), (dat1 (F := Ideal) V c).arrAt 2 cfg1.N = Cert.Product.mm (V c main_v37) (V c main_arg4)) (hf3 : ∀ (V : (c : Dev nD) → (b : Ref sig .tc) → Buf (Elt Ideal) ((c : Thread nD τ).loc b)) (c : Dev nD), (dat3 (F := Ideal) V c).arrAt 3 cfg3.N = denseBias (V c main_v58) (V c main_v79) (V c main_v81)) (c : Dev nD) : W15 m ρ c (Proc.devRef .tc main_v83) =
    logitA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  rw [W15_v83, W14_v82 m ρ hf3, W13_keep_main_v58, W8_keep_main_v58, feat7 m ρ hf0 hf1, W13_v79, W13_v81,
    W8_keep_main_arg10, W8_keep_main_arg11, W7_keep_main_arg10, W7_keep_main_arg11, arg6_main_arg10, arg6_main_arg11]
  rfl

end Cert.KernelIdeal.KStage

end
-- ==== Proof.RegionDense.lean ====
/-
  The three dense regions of the kernel, each as one function of the arrays it reads.

  Every one of these regions walks its left factor a band of rows at a time and reads its right factor whole at each
  step. A band of rows of a product is the product of that band with the whole right factor, and the bands tile the
  rows, so after the last step the output array holds the product of the two whole arrays (plus, in the third
  region, the bias row added to every row).
-/
import proofs.«129196_j11553462026276_2_alg».proof.Proof.Gen.KernelIdeal.Frame
import proofs.«129196_j11553462026276_2_alg».proof.Proof.LibProduct
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.ValueIdx Idealize.ShloMosaic.TcCoe Idealize.SL.Sem
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- The zero offset of a whole-block access. -/
theorem zero_off : (![0, 0] : Fin 2 → Nat) = fun _ => 0 := funext fun a => by fin_cases a <;> rfl

/-! ## Region 0: a [100000, 256] array times a [256, 256] array, 5000 rows at a step -/

/-- What a step stores, at an index: the product of the step's band of rows with the right factor. -/
theorem band0_apply (x0 : Vec Ideal S5000x256 .f32) (x1 : Vec Ideal S256x256 .f32) (j : S5000x256.Idx) :
    k0_pay1 x0 x1 j = Cert.Product.mm x0 x1 j := by
  unfold k0_pay1
  exact MatmulSum.matmul_zero_apply dot_S5000x256_S256x256_S5000x256_1_0_0_1_n_n rfl rfl rfl rfl rfl rfl none
    (truncf .bf16 x0 bitsLt_bf16_f32) (truncf .bf16 x1 bitsLt_bf16_f32) j

/-- If the band holds rows of A (row p of the band is row i of A) and the right factor is B, entry (p, q) of what the
    step stores is entry (i, q) of the product of A and B. -/
theorem band0_at (A : S100000x256.Idx → EReal) (B : S256x256.Idx → EReal)
    (x0 : Vec Ideal S5000x256 .f32) (x1 : Vec Ideal S256x256 .f32) (p : Fin 5000) (q : Fin 256) (i : Fin 100000)
    (hx0 : ∀ k : Fin 256, x0 (ix2 p k) = A (ix2 i k)) (hx1 : x1 = B) :
    k0_pay1 x0 x1 (ix2 p q) = Cert.Product.mm A B (ix2 i q) := by
  subst hx1
  exact (band0_apply x0 x1 (ix2 p q)).trans (Cert.Product.mm_rows A x0 x1 p i q hx0)

/-- Where the windows' blocks sit at step t: the row-blocked ones at band t, the right factor at the origin. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What step t writes back is band t of the product of the two arrays as the region finds them. -/
theorem back0_eq (c : Dev nD) (t : Fin cfg0.N) :
    (dat0 (F := Ideal) V c).flushed 2 t
      = ((cfg0.win 2).blk t).view.read (Elt Ideal) (Cert.Product.mm (V c main_arg0) (V c main_arg2)) := by
  show (cfg0.win 2).cut (grid0.coords t) ((dat0 V c).after 2 t) = _
  rw [after0_2]
  unfold out0_2
  rw [View.canon_unit_zero zero_off]
  simp only [View.ld_unit_zero (S := S5000x256) zero_off, View.ld_unit_zero (S := S256x256) zero_off]
  funext j
  obtain ⟨e0, e1, e2, e3, e4, e5⟩ := where0 t
  have ht : t.val < 20 := lt_of_lt_of_eq t.isLt N_0
  have hj0 : (j 0).val < 5000 := (j 0).isLt
  have hj1 : (j 1).val < 256 := (j 1).isLt
  show k0_pay1 (iblk0 V c 0 t) (iblk0 V c 1 t) j
    = Cert.Product.mm (V c main_arg0) (V c main_arg2) (((cfg0.win 2).blk t).view.emb j)
  have ej : (j : S5000x256.Idx) = ix2 (⟨(j 0).val, hj0⟩ : Fin 5000) (⟨(j 1).val, hj1⟩ : Fin 256) :=
    funext fun a => Fin.ext (by match a with | ⟨0, _⟩ => rfl | ⟨1, _⟩ => rfl)
  have ei : ((cfg0.win 2).blk t).view.emb j
      = ix2 (⟨t.val * 5000 + (j 0).val, by omega⟩ : Fin 100000) (⟨(j 1).val, hj1⟩ : Fin 256) :=
    funext fun a => Fin.ext (by
      match a with
      | ⟨0, _⟩ => show win0_2.index t (0 : Fin 2) * 5000 + 1 * (j 0).val = t.val * 5000 + (j 0).val; omega
      | ⟨1, _⟩ => show win0_2.index t (1 : Fin 2) * 256 + 1 * (j 1).val = (j 1).val; omega)
  refine (congrArg (k0_pay1 (iblk0 V c 0 t) (iblk0 V c 1 t)) ej).trans ?_
  rw [ei]
  refine band0_at (V c main_arg0) (V c main_arg2) (iblk0 V c 0 t) (iblk0 V c 1 t) _ _ _ (fun k => ?_) ?_
  · show V c main_arg0 (((cfg0.win 0).blk t).view.emb (ix2 (⟨(j 0).val, hj0⟩ : Fin 5000) k)) = _
    refine congrArg (V c main_arg0) (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 256 + 1 * k.val = k.val; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega

/-- An index of the output array is in step t's block iff each coordinate is in the block's range on its axis. -/
theorem in_band0 (t : Fin cfg0.N) (i : S100000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v16).slice (win0_2.rect t)).set ↔ _
  rw [View.set_slice_whole, Rect.mem_set_unit]
  exact Iff.rfl

/-- After the last step the output array holds the product of the two arrays the region finds: row r was written at
    step r / 5000, and every step writes its band of that product. -/
theorem final0 (c : Dev nD) :
    (dat0 (F := Ideal) V c).arrAt 2 cfg0.N = Cert.Product.mm (V c main_arg0) (V c main_arg2) :=
  (dat0 (F := Ideal) V c).arrAt_eq_of_cover 2 (Cert.Product.mm (V c main_arg0) (V c main_arg2))
    (fun t _ => back0_eq V c t) fun i => by
      have hi0 : (i 0).val < 100000 := (i 0).isLt
      have hi1 : (i 1).val < 256 := (i 1).isLt
      obtain ⟨t, ht⟩ : ∃ t : Fin cfg0.N, t.val = (i 0).val / 5000 :=
        ⟨⟨(i 0).val / 5000, lt_of_lt_of_eq (by omega : (i 0).val / 5000 < 20) N_0.symm⟩, rfl⟩
      obtain ⟨e0, e1, e2, e3, e4, e5⟩ := where0 t
      refine ⟨t, flush0_2 t, ?_⟩
      rw [in_band0]
      intro a
      match a with
      | ⟨0, _⟩ =>
        show win0_2.index t (0 : Fin 2) * 5000 ≤ (i 0).val ∧ (i 0).val < win0_2.index t (0 : Fin 2) * 5000 + 5000
        omega
      | ⟨1, _⟩ =>
        show win0_2.index t (1 : Fin 2) * 256 ≤ (i 1).val ∧ (i 1).val < win0_2.index t (1 : Fin 2) * 256 + 256
        omega

/-! ## Region 1: a [100000, 256] array times a [256, 128] array, 5000 rows at a step -/

/-- What a step stores, at an index: the product of the step's band of rows with the right factor. -/
theorem band1_apply (x0 : Vec Ideal S5000x256 .f32) (x1 : Vec Ideal S256x128 .f32) (j : S5000x128.Idx) :
    k1_pay1 x0 x1 j = Cert.Product.mm x0 x1 j := by
  unfold k1_pay1
  refine (MatmulSum.matmul_zero_apply dot_S5000x256_S256x128_S5000x128_1_0_0_1_n_n rfl rfl rfl rfl rfl rfl none
    (truncf .bf16 (shapeCast S5000x256 x0 shapeCasts_S5000x256_S5000x256) bitsLt_bf16_f32)
    (truncf .bf16 x1 bitsLt_bf16_f32) j).trans ?_
  rw [shapeCast_self]
  rfl

/-- If the band holds rows of A (row p of the band is row i of A) and the right factor is B, entry (p, q) of what the
    step stores is entry (i, q) of the product of A and B. -/
theorem band1_at (A : S100000x256.Idx → EReal) (B : S256x128.Idx → EReal)
    (x0 : Vec Ideal S5000x256 .f32) (x1 : Vec Ideal S256x128 .f32) (p : Fin 5000) (q : Fin 128) (i : Fin 100000)
    (hx0 : ∀ k : Fin 256, x0 (ix2 p k) = A (ix2 i k)) (hx1 : x1 = B) :
    k1_pay1 x0 x1 (ix2 p q) = Cert.Product.mm A B (ix2 i q) := by
  subst hx1
  exact (band1_apply x0 x1 (ix2 p q)).trans (Cert.Product.mm_rows A x0 x1 p i q hx0)

/-- Where the windows' blocks sit at step t: the row-blocked ones at band t, the right factor at the origin. -/
theorem where1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What step t writes back is band t of the product of the two arrays as the region finds them. -/
theorem back1_eq (c : Dev nD) (t : Fin cfg1.N) :
    (dat1 (F := Ideal) V c).flushed 2 t
      = ((cfg1.win 2).blk t).view.read (Elt Ideal) (Cert.Product.mm (V c main_v37) (V c main_arg4)) := by
  show (cfg1.win 2).cut (grid1.coords t) ((dat1 V c).after 2 t) = _
  rw [after1_2]
  unfold out1_2
  rw [View.canon_unit_zero zero_off]
  simp only [View.ld_unit_zero (S := S5000x256) zero_off, View.ld_unit_zero (S := S256x128) zero_off]
  funext j
  obtain ⟨e0, e1, e2, e3, e4, e5⟩ := where1 t
  have ht : t.val < 20 := lt_of_lt_of_eq t.isLt N_1
  have hj0 : (j 0).val < 5000 := (j 0).isLt
  have hj1 : (j 1).val < 128 := (j 1).isLt
  show k1_pay1 (iblk1 V c 0 t) (iblk1 V c 1 t) j
    = Cert.Product.mm (V c main_v37) (V c main_arg4) (((cfg1.win 2).blk t).view.emb j)
  have ej : (j : S5000x128.Idx) = ix2 (⟨(j 0).val, hj0⟩ : Fin 5000) (⟨(j 1).val, hj1⟩ : Fin 128) :=
    funext fun a => Fin.ext (by match a with | ⟨0, _⟩ => rfl | ⟨1, _⟩ => rfl)
  have ei : ((cfg1.win 2).blk t).view.emb j
      = ix2 (⟨t.val * 5000 + (j 0).val, by omega⟩ : Fin 100000) (⟨(j 1).val, hj1⟩ : Fin 128) :=
    funext fun a => Fin.ext (by
      match a with
      | ⟨0, _⟩ => show win1_2.index t (0 : Fin 2) * 5000 + 1 * (j 0).val = t.val * 5000 + (j 0).val; omega
      | ⟨1, _⟩ => show win1_2.index t (1 : Fin 2) * 128 + 1 * (j 1).val = (j 1).val; omega)
  refine (congrArg (k1_pay1 (iblk1 V c 0 t) (iblk1 V c 1 t)) ej).trans ?_
  rw [ei]
  refine band1_at (V c main_v37) (V c main_arg4) (iblk1 V c 0 t) (iblk1 V c 1 t) _ _ _ (fun k => ?_) ?_
  · show V c main_v37 (((cfg1.win 0).blk t).view.emb (ix2 (⟨(j 0).val, hj0⟩ : Fin 5000) k)) = _
    refine congrArg (V c main_v37) (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 256 + 1 * k.val = k.val; omega
  · funext y
    show V c main_arg4 (((cfg1.win 1).blk t).view.emb y) = V c main_arg4 y
    refine congrArg (V c main_arg4) (funext fun a => Fin.ext ?_)
    match a with
    | ⟨0, _⟩ => show win1_1.index t (0 : Fin 2) * 256 + 1 * (y 0).val = (y 0).val; omega
    | ⟨1, _⟩ => show win1_1.index t (1 : Fin 2) * 128 + 1 * (y 1).val = (y 1).val; omega

/-- An index of the output array is in step t's block iff each coordinate is in the block's range on its axis. -/
theorem in_band1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v38).slice (win1_2.rect t)).set ↔ _
  rw [View.set_slice_whole, Rect.mem_set_unit]
  exact Iff.rfl

/-- After the last step the output array holds the product of the two arrays the region finds: row r was written at
    step r / 5000, and every step writes its band of that product. -/
theorem final1 (c : Dev nD) :
    (dat1 (F := Ideal) V c).arrAt 2 cfg1.N = Cert.Product.mm (V c main_v37) (V c main_arg4) :=
  (dat1 (F := Ideal) V c).arrAt_eq_of_cover 2 (Cert.Product.mm (V c main_v37) (V c main_arg4))
    (fun t _ => back1_eq V c t) fun i => by
      have hi0 : (i 0).val < 100000 := (i 0).isLt
      have hi1 : (i 1).val < 128 := (i 1).isLt
      obtain ⟨t, ht⟩ : ∃ t : Fin cfg1.N, t.val = (i 0).val / 5000 :=
        ⟨⟨(i 0).val / 5000, lt_of_lt_of_eq (by omega : (i 0).val / 5000 < 20) N_1.symm⟩, rfl⟩
      obtain ⟨e0, e1, e2, e3, e4, e5⟩ := where1 t
      refine ⟨t, flush1_2 t, ?_⟩
      rw [in_band1]
      intro a
      match a with
      | ⟨0, _⟩ =>
        show win1_2.index t (0 : Fin 2) * 5000 ≤ (i 0).val ∧ (i 0).val < win1_2.index t (0 : Fin 2) * 5000 + 5000
        omega
      | ⟨1, _⟩ =>
        show win1_2.index t (1 : Fin 2) * 128 ≤ (i 1).val ∧ (i 1).val < win1_2.index t (1 : Fin 2) * 128 + 128
        omega

/-! ## Region 3: a [100000, 128] array times a [128, 128] array plus a [1, 128] bias row, 5000 rows at a step -/

/-- What a step stores, at entry (p, q): the product of the step's band of rows with the right factor there, plus the
    bias row's entry q. -/
theorem band3_apply (x0 : Vec Ideal S5000x128 .f32) (x1 : Vec Ideal S128x128 .f32) (x2 : Vec Ideal S1x128 .f32)
    (p : Fin 5000) (q : Fin 128) :
    k3_pay1 x0 x1 x2 (ix2 p q) = Cert.Product.mm x0 x1 (ix2 p q) + x2 (ix2 (0 : Fin 1) q) := by
  unfold k3_pay1
  refine congrArg₂ (fun a b : EReal => a + b) ?_ ?_
  · refine (MatmulSum.matmul_zero_apply dot_S5000x128_S128x128_S5000x128_1_0_0_1_n_n rfl rfl rfl rfl rfl rfl none
      (truncf .bf16 (shapeCast S5000x128 x0 shapeCasts_S5000x128_S5000x128) bitsLt_bf16_f32)
      (truncf .bf16 (shapeCast S128x128 x1 shapeCasts_S128x128_S128x128) bitsLt_bf16_f32) (ix2 p q)).trans ?_
    rw [shapeCast_self, shapeCast_self]
    rfl
  · refine (broadcastTo_1b_ab_apply (shapeCast S1x128 x2 shapeCasts_S1x128_S1x128) broadcasts_S1x128_S5000x128 p q).trans ?_
    rw [shapeCast_self]

/-- If the band holds rows of A (row p of the band is row i of A), the right factor is B and the bias row is b, entry
    (p, q) of what the step stores is entry (i, q) of the product of A and B plus b's entry q. -/
theorem band3_at (A : S100000x128.Idx → EReal) (B : S128x128.Idx → EReal) (b : S1x128.Idx → EReal)
    (x0 : Vec Ideal S5000x128 .f32) (x1 : Vec Ideal S128x128 .f32) (x2 : Vec Ideal S1x128 .f32)
    (p : Fin 5000) (q : Fin 128) (i : Fin 100000)
    (hx0 : ∀ k : Fin 128, x0 (ix2 p k) = A (ix2 i k)) (hx1 : x1 = B) (hx2 : x2 = b) :
    k3_pay1 x0 x1 x2 (ix2 p q) = Cert.Product.mm A B (ix2 i q) + b (ix2 (0 : Fin 1) q) := by
  subst hx1 hx2
  rw [band3_apply x0 x1 x2 p q, Cert.Product.mm_rows A x0 x1 p i q hx0]

/-- Where the windows' blocks sit at step t: the row-blocked ones at band t, the right factor and the bias row at
    the origin. -/
theorem where3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The product of the two arrays with the bias row added to every row. -/
abbrev affine3 (A : S100000x128.Idx → EReal) (B : S128x128.Idx → EReal) (b : S1x128.Idx → EReal) :
    S100000x128.Idx → EReal :=
  fun j => Cert.Product.mm A B j + b (ix2 (0 : Fin 1) (j 1))

/-- What step t writes back is band t of the product of the two arrays as the region finds them, the bias row added
    to every row. -/
theorem back3_eq (c : Dev nD) (t : Fin cfg3.N) :
    (dat3 (F := Ideal) V c).flushed 3 t
      = ((cfg3.win 3).blk t).view.read (Elt Ideal) (affine3 (V c main_v58) (V c main_v79) (V c main_v81)) := by
  show (cfg3.win 3).cut (grid3.coords t) ((dat3 V c).after 3 t) = _
  rw [after3_3]
  unfold out3_3
  rw [View.canon_unit_zero zero_off]
  simp only [View.ld_unit_zero (S := S5000x128) zero_off, View.ld_unit_zero (S := S128x128) zero_off,
    View.ld_unit_zero (S := S1x128) zero_off]
  funext j
  obtain ⟨e0, e1, e2, e3, e4, e5, e6, e7⟩ := where3 t
  have ht : t.val < 20 := lt_of_lt_of_eq t.isLt N_3
  have hj0 : (j 0).val < 5000 := (j 0).isLt
  have hj1 : (j 1).val < 128 := (j 1).isLt
  show k3_pay1 (iblk3 V c 0 t) (iblk3 V c 1 t) (iblk3 V c 2 t) j
    = affine3 (V c main_v58) (V c main_v79) (V c main_v81) (((cfg3.win 3).blk t).view.emb j)
  have ej : (j : S5000x128.Idx) = ix2 (⟨(j 0).val, hj0⟩ : Fin 5000) (⟨(j 1).val, hj1⟩ : Fin 128) :=
    funext fun a => Fin.ext (by match a with | ⟨0, _⟩ => rfl | ⟨1, _⟩ => rfl)
  have ei : ((cfg3.win 3).blk t).view.emb j
      = ix2 (⟨t.val * 5000 + (j 0).val, by omega⟩ : Fin 100000) (⟨(j 1).val, hj1⟩ : Fin 128) :=
    funext fun a => Fin.ext (by
      match a with
      | ⟨0, _⟩ => show win3_3.index t (0 : Fin 2) * 5000 + 1 * (j 0).val = t.val * 5000 + (j 0).val; omega
      | ⟨1, _⟩ => show win3_3.index t (1 : Fin 2) * 128 + 1 * (j 1).val = (j 1).val; omega)
  refine (congrArg (k3_pay1 (iblk3 V c 0 t) (iblk3 V c 1 t) (iblk3 V c 2 t)) ej).trans ?_
  rw [ei]
  refine band3_at (V c main_v58) (V c main_v79) (V c main_v81) (iblk3 V c 0 t) (iblk3 V c 1 t) (iblk3 V c 2 t)
    _ _ _ (fun k => ?_) ?_ ?_
  · show V c main_v58 (((cfg3.win 0).blk t).view.emb (ix2 (⟨(j 0).val, hj0⟩ : Fin 5000) k)) = _
    refine congrArg (V c main_v58) (funext fun a => Fin.ext ?_)
    match a with
    | ⟨0, _⟩ => show win3_0.index t (0 : Fin 2) * 5000 + 1 * (j 0).val = t.val * 5000 + (j 0).val; omega
    | ⟨1, _⟩ => show win3_0.index t (1 : Fin 2) * 128 + 1 * k.val = k.val; omega
  · funext y
    show V c main_v79 (((cfg3.win 1).blk t).view.emb y) = V c main_v79 y
    refine congrArg (V c main_v79) (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  · funext y
    show V c main_v81 (((cfg3.win 2).blk t).view.emb y) = V c main_v81 y
    refine congrArg (V c main_v81) (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega

/-- An index of the output array is in step t's block iff each coordinate is in the block's range on its axis. -/
theorem in_band3 (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v82).slice (win3_3.rect t)).set ↔ _
  rw [View.set_slice_whole, Rect.mem_set_unit]
  exact Iff.rfl

/-- After the last step the output array holds the product of the two arrays the region finds with the bias row
    added to every row: row r was written at step r / 5000, and every step writes its band of that array. -/
theorem final3 (c : Dev nD) :
    (dat3 (F := Ideal) V c).arrAt 3 cfg3.N
      = fun j : S100000x128.Idx => Cert.Product.mm (V c main_v58) (V c main_v79) j + V c main_v81 (ix2 (0 : Fin 1) (j 1)) :=
  (dat3 (F := Ideal) V c).arrAt_eq_of_cover 3 (affine3 (V c main_v58) (V c main_v79) (V c main_v81))
    (fun t _ => back3_eq V c t) fun i => by
      have hi0 : (i 0).val < 100000 := (i 0).isLt
      have hi1 : (i 1).val < 128 := (i 1).isLt
      obtain ⟨t, ht⟩ : ∃ t : Fin cfg3.N, t.val = (i 0).val / 5000 :=
        ⟨⟨(i 0).val / 5000, lt_of_lt_of_eq (by omega : (i 0).val / 5000 < 20) N_3.symm⟩, rfl⟩
      obtain ⟨e0, e1, e2, e3, e4, e5, e6, e7⟩ := where3 t
      refine ⟨t, flush3_3 t, ?_⟩
      rw [in_band3]
      intro a
      match a with
      | ⟨0, _⟩ =>
        show win3_3.index t (0 : Fin 2) * 5000 ≤ (i 0).val ∧ (i 0).val < win3_3.index t (0 : Fin 2) * 5000 + 5000
        omega
      | ⟨1, _⟩ =>
        show win3_3.index t (1 : Fin 2) * 128 ≤ (i 1).val ∧ (i 1).val < win3_3.index t (1 : Fin 2) * 128 + 128
        omega

end Cert.KernelIdeal.Regions

end
-- ==== Proof.RegionEdge.lean ====
/-
  The edge head of the graph encoder, as one function of its input arrays.

  Every edge e has two feature rows of 128 entries (one read at its source node, one at its target node). The head
  multiplies the first by the upper half of a [256, 256]-shaped weight (given here as two [128, 256] arrays), the second
  by the lower half, adds the two products and a bias row, clamps at zero from below, multiplies the result by a
  [256, 128] weight and adds a second bias row. The program computes it 4000 edges at a time: the 200 bands of 4000
  rows tile the 800000 rows, each band's rows depend on the same rows of the two feature arrays only, and the weights
  and biases are the same whole arrays at every band. So the array the program leaves is the head of the whole input
  arrays, entry by entry.
-/
import proofs.«129196_j11553462026276_2_alg».proof.Proof.Gen.KernelIdeal.Frame
import proofs.«129196_j11553462026276_2_alg».proof.Proof.LibProduct
import proofs.«129196_j11553462026276_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Regions

open Idealize.ShloMosaic Idealize.ShloMosaic.ValueIdx Idealize.ShloMosaic.TcCoe Idealize.SL.Sem
open Idealize.ShloMosaic.Pipeline (Dat)

/-- The edge head at entry (e, k): the clamped hidden row of edge e (256 entries, each the two 128-term products
    plus the bias, clamped at zero) times column k of the second weight, plus the second bias. -/
def edgeHead (fr fc : S800000x128.Idx → EReal) (w1t w1b : S128x256.Idx → EReal) (b1 : S1x256.Idx → EReal)
    (w2 : S256x128.Idx → EReal) (b2 : S1x128.Idx → EReal) : S800000x128.Idx → EReal :=
  fun j => (∑ q : Fin 256, max (((∑ p : Fin 128, fr (ix2 (j 0) p) * w1t (ix2 p q))
      + (∑ p : Fin 128, fc (ix2 (j 0) p) * w1b (ix2 p q))) + b1 (ix2 (0 : Fin 1) q)) Cert.Spec.zero * w2 (ix2 q (j 1)))
    + b2 (ix2 (0 : Fin 1) (j 1))

/-- One band's payload at entry (p, k): the head's formula over the band's rows. -/
theorem band_apply (x0 x1 : FVec Ideal S4000x128 .bf16) (x2 x3 : FVec Ideal S128x256 .f32) (x4 : FVec Ideal S1x256 .f32)
    (x5 : FVec Ideal S256x128 .f32) (x6 : FVec Ideal S1x128 .f32) (p : Fin 4000) (k : Fin 128) :
    (Gen.k2_pay1 (F := Ideal) x0 x1 x2 x3 x4 x5 x6 (ix2 p k) : EReal)
      = (∑ q : Fin 256, max (((∑ r : Fin 128, (x0 (ix2 p r) : EReal) * (x2 (ix2 r q) : EReal))
          + (∑ r : Fin 128, (x1 (ix2 p r) : EReal) * (x3 (ix2 r q) : EReal))) + (x4 (ix2 (0 : Fin 1) q) : EReal)) Cert.Spec.zero
            * (x5 (ix2 q k) : EReal))
        + (x6 (ix2 (0 : Fin 1) k) : EReal) := by
  unfold Gen.k2_pay1
  simp only [shapeCast_self]
  -- the last sum: the product into the zero accumulator at (p, k), plus the bias row at k
  refine congrArg₂ (fun a b : EReal => a + b) ?_ (broadcastTo_1b_ab_apply x6 Gen.broadcasts_S1x128_S4000x128 p k)
  refine (MatmulSum.matmul_zero_apply dot_S4000x256_S256x128_S4000x128_1_0_0_1_n_n rfl rfl rfl rfl rfl rfl none _ _
    (ix2 p k)).trans ?_
  refine Finset.sum_congr rfl fun q _ => ?_
  -- the hidden entry (p, q): two products, the bias row at q, clamped at zero
  refine congrArg₂ (fun a b : EReal => a * b) ?_ rfl
  refine congrArg₂ (fun a b : EReal => max a b) ?_ rfl
  refine congrArg₂ (fun a b : EReal => a + b) (congrArg₂ (fun a b : EReal => a + b) ?_ ?_)
    (broadcastTo_1b_ab_apply x4 Gen.broadcasts_S1x256_S4000x256 p q)
  · exact MatmulSum.matmul_zero_apply dot_S4000x128_S128x256_S4000x256_1_0_0_1_n_n rfl rfl rfl rfl rfl rfl none x0
      (truncf .bf16 x2 Gen.bitsLt_bf16_f32) (ix2 p q)
  · exact MatmulSum.matmul_zero_apply dot_S4000x128_S128x256_S4000x256_1_0_0_1_n_n rfl rfl rfl rfl rfl rfl none x1
      (truncf .bf16 x3 Gen.bitsLt_bf16_f32) (ix2 p q)

section
variable (V : (c : Dev nD) → (b : Ref sig .tc) → Buf (Elt Ideal) ((c : Thread nD τ).loc b))

theorem hz : (![0, 0] : Fin 2 → Nat) = fun _ => 0 := funext fun a => by fin_cases a <;> rfl

/-- The printed index maps over the 200 points: the row-blocked windows are at block (t, 0), the weights and biases at (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The band formula over a band whose feature rows are rows of the whole feature arrays is the head there. -/
theorem band_eq_head (fr fc : S800000x128.Idx → EReal) (w1t w1b : S128x256.Idx → EReal) (b1 : S1x256.Idx → EReal)
    (w2 : S256x128.Idx → EReal) (b2 : S1x128.Idx → EReal)
    (x0 x1 : FVec Ideal S4000x128 .bf16) (x2 x3 : FVec Ideal S128x256 .f32) (x4 : FVec Ideal S1x256 .f32)
    (x5 : FVec Ideal S256x128 .f32) (x6 : FVec Ideal S1x128 .f32) (p : Fin 4000) (i : Fin 800000) (k : Fin 128)
    (h0 : ∀ r : Fin 128, x0 (ix2 p r) = fr (ix2 i r)) (h1 : ∀ r : Fin 128, x1 (ix2 p r) = fc (ix2 i r))
    (h2 : ∀ (r : Fin 128) (q : Fin 256), x2 (ix2 r q) = w1t (ix2 r q))
    (h3 : ∀ (r : Fin 128) (q : Fin 256), x3 (ix2 r q) = w1b (ix2 r q))
    (h4 : ∀ q : Fin 256, x4 (ix2 (0 : Fin 1) q) = b1 (ix2 (0 : Fin 1) q))
    (h5 : ∀ (q : Fin 256) (k : Fin 128), x5 (ix2 q k) = w2 (ix2 q k))
    (h6 : ∀ k : Fin 128, x6 (ix2 (0 : Fin 1) k) = b2 (ix2 (0 : Fin 1) k)) :
    (Gen.k2_pay1 (F := Ideal) x0 x1 x2 x3 x4 x5 x6 (ix2 p k) : EReal) = edgeHead fr fc w1t w1b b1 w2 b2 (ix2 i k) := by
  rw [band_apply]
  show _ = (∑ q : Fin 256, max (((∑ r : Fin 128, fr (ix2 i r) * w1t (ix2 r q))
      + (∑ r : Fin 128, fc (ix2 i r) * w1b (ix2 r q))) + b1 (ix2 (0 : Fin 1) q)) Cert.Spec.zero * w2 (ix2 q k))
    + b2 (ix2 (0 : Fin 1) k)
  simp only [h0, h1, h2, h3, h4, h5, h6]

/-- A row-blocked feature window's block at point t holds rows 4000 t … 4000 t + 3999 of its array. -/
theorem rows0 (c : Dev nD) (t : Fin cfg2.N) (p : Fin 4000) (r : Fin 128) (i : Fin 800000) (hi : i.val = t.val * 4000 + p.val) :
    (Gen.iblk2 V c 0 t : FVec Ideal S4000x128 .bf16) (ix2 p r) = V c main_v66 (ix2 i r) := by
  obtain ⟨e0, e1, -⟩ := idx_facts t
  show V c main_v66 (((cfg2.win 0).blk t).view.emb (ix2 p r)) = V c main_v66 (ix2 i r)
  refine congrArg _ (funext fun a => Fin.ext ?_)
  match a with
  | ⟨0, _⟩ => show win2_0.index t (0 : Fin 2) * 4000 + 1 * p.val = i.val; omega
  | ⟨1, _⟩ => show win2_0.index t (1 : Fin 2) * 128 + 1 * r.val = r.val; omega

theorem rows1 (c : Dev nD) (t : Fin cfg2.N) (p : Fin 4000) (r : Fin 128) (i : Fin 800000) (hi : i.val = t.val * 4000 + p.val) :
    (Gen.iblk2 V c 1 t : FVec Ideal S4000x128 .bf16) (ix2 p r) = V c main_v73 (ix2 i r) := by
  obtain ⟨-, -, e0, e1, -⟩ := idx_facts t
  show V c main_v73 (((cfg2.win 1).blk t).view.emb (ix2 p r)) = V c main_v73 (ix2 i r)
  refine congrArg _ (funext fun a => Fin.ext ?_)
  match a with
  | ⟨0, _⟩ => show win2_1.index t (0 : Fin 2) * 4000 + 1 * p.val = i.val; omega
  | ⟨1, _⟩ => show win2_1.index t (1 : Fin 2) * 128 + 1 * r.val = r.val; omega

/-- A weight or bias window's block is its whole array at every point. -/
theorem whole2 (c : Dev nD) (t : Fin cfg2.N) (r : Fin 128) (q : Fin 256) :
    (Gen.iblk2 V c 2 t : FVec Ideal S128x256 .f32) (ix2 r q) = V c main_v74 (ix2 r q) := by
  obtain ⟨-, -, -, -, e0, e1, -⟩ := idx_facts t
  show V c main_v74 (((cfg2.win 2).blk t).view.emb (ix2 r q)) = V c main_v74 (ix2 r q)
  refine congrArg _ (funext fun a => Fin.ext ?_)
  match a with
  | ⟨0, _⟩ => show win2_2.index t (0 : Fin 2) * 128 + 1 * r.val = r.val; omega
  | ⟨1, _⟩ => show win2_2.index t (1 : Fin 2) * 256 + 1 * q.val = q.val; omega

theorem whole3 (c : Dev nD) (t : Fin cfg2.N) (r : Fin 128) (q : Fin 256) :
    (Gen.iblk2 V c 3 t : FVec Ideal S128x256 .f32) (ix2 r q) = V c main_v75 (ix2 r q) := by
  obtain ⟨-, -, -, -, -, -, e0, e1, -⟩ := idx_facts t
  show V c main_v75 (((cfg2.win 3).blk t).view.emb (ix2 r q)) = V c main_v75 (ix2 r q)
  refine congrArg _ (funext fun a => Fin.ext ?_)
  match a with
  | ⟨0, _⟩ => show win2_3.index t (0 : Fin 2) * 128 + 1 * r.val = r.val; omega
  | ⟨1, _⟩ => show win2_3.index t (1 : Fin 2) * 256 + 1 * q.val = q.val; omega

theorem whole4 (c : Dev nD) (t : Fin cfg2.N) (q : Fin 256) :
    (Gen.iblk2 V c 4 t : FVec Ideal S1x256 .f32) (ix2 (0 : Fin 1) q) = V c main_v76 (ix2 (0 : Fin 1) q) := by
  obtain ⟨-, -, -, -, -, -, -, -, e0, e1, -⟩ := idx_facts t
  show V c main_v76 (((cfg2.win 4).blk t).view.emb (ix2 (0 : Fin 1) q)) = V c main_v76 (ix2 (0 : Fin 1) q)
  refine congrArg _ (funext fun a => Fin.ext ?_)
  match a with
  | ⟨0, _⟩ => show win2_4.index t (0 : Fin 2) * 1 + 1 * 0 = 0; omega
  | ⟨1, _⟩ => show win2_4.index t (1 : Fin 2) * 256 + 1 * q.val = q.val; omega

theorem whole5 (c : Dev nD) (t : Fin cfg2.N) (q : Fin 256) (k : Fin 128) :
    (Gen.iblk2 V c 5 t : FVec Ideal S256x128 .f32) (ix2 q k) = V c main_arg8 (ix2 q k) := by
  obtain ⟨-, -, -, -, -, -, -, -, -, -, e0, e1, -⟩ := idx_facts t
  show V c main_arg8 (((cfg2.win 5).blk t).view.emb (ix2 q k)) = V c main_arg8 (ix2 q k)
  refine congrArg _ (funext fun a => Fin.ext ?_)
  match a with
  | ⟨0, _⟩ => show win2_5.index t (0 : Fin 2) * 256 + 1 * q.val = q.val; omega
  | ⟨1, _⟩ => show win2_5.index t (1 : Fin 2) * 128 + 1 * k.val = k.val; omega

theorem whole6 (c : Dev nD) (t : Fin cfg2.N) (k : Fin 128) :
    (Gen.iblk2 V c 6 t : FVec Ideal S1x128 .f32) (ix2 (0 : Fin 1) k) = V c main_v77 (ix2 (0 : Fin 1) k) := by
  obtain ⟨-, -, -, -, -, -, -, -, -, -, -, -, e0, e1, -⟩ := idx_facts t
  show V c main_v77 (((cfg2.win 6).blk t).view.emb (ix2 (0 : Fin 1) k)) = V c main_v77 (ix2 (0 : Fin 1) k)
  refine congrArg _ (funext fun a => Fin.ext ?_)
  match a with
  | ⟨0, _⟩ => show win2_6.index t (0 : Fin 2) * 1 + 1 * 0 = 0; omega
  | ⟨1, _⟩ => show win2_6.index t (1 : Fin 2) * 128 + 1 * k.val = k.val; omega

/-- What point t writes back is band t of the head of the arrays as the region finds them. -/
theorem flushed_eq (c : Dev nD) (t : Fin cfg2.N) :
    (Gen.dat2 (F := Ideal) V c).flushed 7 t = ((cfg2.win 7).blk t).view.read (Elt Ideal)
      (edgeHead (V c main_v66) (V c main_v73) (V c main_v74) (V c main_v75) (V c main_v76) (V c main_arg8) (V c main_v77)) := by
  show (cfg2.win 7).cut (grid2.coords t) ((Gen.dat2 V c).after 7 t) = _
  rw [Gen.after2_7]
  unfold Gen.out2_7
  rw [View.canon_unit_zero hz]
  simp only [View.ld_unit_zero (S := S4000x128) hz, View.ld_unit_zero (S := S128x256) hz, View.ld_unit_zero (S := S1x256) hz, View.ld_unit_zero (S := S256x128) hz, View.ld_unit_zero (S := S1x128) hz]
  funext j
  have hj0 : (j 0).val < 4000 := (j 0).isLt
  have hj1 : (j 1).val < 128 := (j 1).isLt
  have ht : t.val < 200 := by have h := t.isLt; have hN : cfg2.N = 200 := Gen.N_2; omega
  obtain ⟨-, -, -, -, -, -, -, -, -, -, -, -, -, -, e0, e1⟩ := idx_facts t
  have hemb : ((cfg2.win 7).blk t).view.emb j
      = (ix2 (⟨t.val * 4000 + (j 0).val, by omega⟩ : Fin 800000) (⟨(j 1).val, hj1⟩ : Fin 128) : S800000x128.Idx) := by
    funext a; apply Fin.ext
    match a with
    | ⟨0, _⟩ => show win2_7.index t (0 : Fin 2) * 4000 + 1 * (j 0).val = t.val * 4000 + (j 0).val; omega
    | ⟨1, _⟩ => show win2_7.index t (1 : Fin 2) * 128 + 1 * (j 1).val = (j 1).val; omega
  have hx : ((cfg2.win 7).xinj (grid2.coords t) j : S4000x128.Idx)
      = ix2 (⟨(j 0).val, hj0⟩ : Fin 4000) (⟨(j 1).val, hj1⟩ : Fin 128) := by
    funext a; apply Fin.ext
    match a with
    | ⟨0, _⟩ => rfl
    | ⟨1, _⟩ => rfl
  show (Gen.k2_pay1 (F := Ideal) (Gen.iblk2 V c 0 t) (Gen.iblk2 V c 1 t) (Gen.iblk2 V c 2 t) (Gen.iblk2 V c 3 t) (Gen.iblk2 V c 4 t)
      (Gen.iblk2 V c 5 t) (Gen.iblk2 V c 6 t) ((cfg2.win 7).xinj (grid2.coords t) j) : EReal)
    = edgeHead (V c main_v66) (V c main_v73) (V c main_v74) (V c main_v75) (V c main_v76) (V c main_arg8) (V c main_v77)
        (((cfg2.win 7).blk t).view.emb j)
  rw [hx, hemb]
  exact band_eq_head _ _ _ _ _ _ _ _ _ _ _ _ _ _ _ _ _
    (fun r => rows0 V c t _ r _ rfl) (fun r => rows1 V c t _ r _ rfl)
    (fun r q => whole2 V c t r q) (fun r q => whole3 V c t r q) (fun q => whole4 V c t q)
    (fun q k => whole5 V c t q k) (fun k => whole6 V c t k)

/-- An entry of the array is in point t's block iff each coordinate is in the block's range on its axis. -/
theorem mem_blk (t : Fin cfg2.N) (i : S800000x128.Idx) :
    i ∈ ((cfg2.win 7).blk t).view.set ↔ ∀ a : Fin 2, win2_7.index t a * S4000x128.size a ≤ (i a).val
      ∧ (i a).val < win2_7.index t a * S4000x128.size a + S4000x128.size a := by
  show i ∈ ((View.whole main_v78).slice (win2_7.rect t)).set ↔ _
  rw [View.set_slice_whole, Rect.mem_set_unit]
  exact Iff.rfl

/-- Row r is in the block of point r / 4000: the 200 bands tile the array. -/
theorem covered (i : S800000x128.Idx) :
    ∃ t : Fin cfg2.N, (cfg2.win 7).flush t = true ∧ i ∈ ((cfg2.win 7).blk t).view.set := by
  have hi0 : (i 0).val < 800000 := (i 0).isLt
  have hi1 : (i 1).val < 128 := (i 1).isLt
  have hN : cfg2.N = 200 := Gen.N_2
  let t : Fin cfg2.N := ⟨(i 0).val / 4000, by rw [hN]; omega⟩
  obtain ⟨-, -, -, -, -, -, -, -, -, -, -, -, -, -, e0, e1⟩ := idx_facts t
  have htv : t.val = (i 0).val / 4000 := rfl
  refine ⟨t, Gen.flush2_7 t, ?_⟩
  rw [mem_blk]
  intro a
  match a with
  | ⟨0, _⟩ => show win2_7.index t (0 : Fin 2) * 4000 ≤ (i 0).val ∧ (i 0).val < win2_7.index t (0 : Fin 2) * 4000 + 4000; omega
  | ⟨1, _⟩ => show win2_7.index t (1 : Fin 2) * 128 ≤ (i 1).val ∧ (i 1).val < win2_7.index t (1 : Fin 2) * 128 + 128; omega

/-- The array the region leaves: the edge head of the arrays as the region finds them. -/
theorem final2 (c : Dev nD) : (Gen.dat2 (F := Ideal) V c).arrAt 7 cfg2.N
    = edgeHead (V c main_v66) (V c main_v73) (V c main_v74) (V c main_v75) (V c main_v76) (V c main_arg8) (V c main_v77) :=
  (Gen.dat2 (F := Ideal) V c).arrAt_eq_of_cover 7 _ (fun t _ => flushed_eq V c t) covered

end

end Cert.KernelIdeal.Regions

end
-- ==== Proof.SpecX.lean ====
/-
  The reference's form of the graph encoder, entry by entry, over the extended reals.

  The reference appends one self loop per node to the edge list: its 900000 edges are the 800000 given ones followed
  by the loops (k, k) for k = 0 … 99999, the loop words being the node numbers. Every accumulation runs over that
  longer list, and a message is scaled by dinv (source) * dinv (target) before it is accumulated. The edge head
  multiplies the two feature rows laid side by side (256 entries) with the whole first weight.
-/
import proofs.«129196_j11553462026276_2_alg».proof.Proof.Spec

noncomputable section

namespace Cert.SpecX

open Idealize.ShloMosaic Idealize.ShloMosaic.ValueIdx Cert.Spec

section Graph
variable (ei : IVec ⟨2, ![2, 800000]⟩ 32)

/-- Source and target word of edge e' of the longer list: a given edge's words, or the loop's node number. -/
def rowsX (e' : Fin 900000) : BitVec 32 :=
  if h : e'.val < 800000 then rowW ei ⟨e'.val, h⟩ else BitVec.ofNat 32 (e'.val - 800000)
def colsX (e' : Fin 900000) : BitVec 32 :=
  if h : e'.val < 800000 then colW ei ⟨e'.val, h⟩ else BitVec.ofNat 32 (e'.val - 800000)
/-- The edges of the longer list accumulated into node i. -/
def hitsX (i : Fin 100000) : Finset (Fin 900000) :=
  Finset.univ.filter fun e' => (colsX ei e').toInt = (i.val : Int)
/-- Degree and guarded inverse square root, counted over the longer list. -/
def degX (i : Fin 100000) : EReal := zero + ∑ _e ∈ hitsX ei i, one
def dinvX (i : Fin 100000) : EReal := dinvOf (degX ei i)
/-- The scale of edge e' of the longer list. -/
def normX (e' : Fin 900000) : EReal := dinvX ei (gRow (rowsX ei e')) * dinvX ei (gRow (colsX ei e'))
/-- One layer in the reference's form: entry (i, k). -/
def layerX {C : Nat} (y : Fin 100000 → Fin C → EReal) (b : Fin C → EReal) (i : Fin 100000) (k : Fin C) : EReal :=
  (zero + ∑ e' ∈ hitsX ei i, normX ei e' * y (gRow (rowsX ei e')) k) + b k

end Graph

section Net
variable (x : (⟨2, ![100000, 256]⟩ : Shape).Idx → EReal) (ei : IVec ⟨2, ![2, 800000]⟩ 32)
  (W1 : (⟨2, ![256, 256]⟩ : Shape).Idx → EReal) (b1 : (⟨1, ![256]⟩ : Shape).Idx → EReal)
  (W2 : (⟨2, ![256, 128]⟩ : Shape).Idx → EReal) (b2 : (⟨1, ![128]⟩ : Shape).Idx → EReal)
  (Wp1 : (⟨2, ![256, 256]⟩ : Shape).Idx → EReal) (bp1 : (⟨1, ![256]⟩ : Shape).Idx → EReal)
  (Wp2 : (⟨2, ![256, 128]⟩ : Shape).Idx → EReal) (bp2 : (⟨1, ![128]⟩ : Shape).Idx → EReal)
  (Wc : (⟨2, ![128, 40]⟩ : Shape).Idx → EReal) (bc : (⟨1, ![40]⟩ : Shape).Idx → EReal)

def hidX (i : Fin 100000) (k : Fin 256) : EReal :=
  max (layerX ei (xw1 x W1) (fun k => b1 (ix1 k)) i k) zero
def xw2X (i : Fin 100000) (k : Fin 128) : EReal := ∑ j : Fin 256, hidX x ei W1 b1 i j * W2 (ix2 j k)
def featX (i : Fin 100000) (k : Fin 128) : EReal :=
  layerX ei (xw2X x ei W1 b1 W2) (fun k => b2 (ix1 k)) i k

/-- Two feature rows laid side by side. -/
def sideBySide (fr fc : Fin 128 → EReal) (q : Fin 256) : EReal :=
  if h : q.val < 128 then fr ⟨q.val, h⟩ else fc ⟨q.val - 128, by omega⟩
/-- The edge head on the two rows side by side, the whole first weight. -/
def mlpRowX (fr fc : Fin 128 → EReal) (k : Fin 128) : EReal :=
  (∑ q : Fin 256, max ((∑ p : Fin 256, sideBySide fr fc p * Wp1 (ix2 p q)) + bp1 (ix1 q)) zero * Wp2 (ix2 q k))
    + bp2 (ix1 k)
def edgeX (e : Fin 800000) (k : Fin 128) : EReal :=
  mlpRowX Wp1 bp1 Wp2 bp2 (featX x ei W1 b1 W2 b2 (src ei e)) (featX x ei W1 b1 W2 b2 (tgt ei e)) k
def logitX (i : Fin 100000) (k : Fin 40) : EReal :=
  (∑ q : Fin 128, featX x ei W1 b1 W2 b2 i q * Wc (ix2 q k)) + bc (ix1 k)

end Net

end Cert.SpecX

end
-- ==== Proof.LibRowScatter.lean ====
/-
  A gather of rows and a scatter-add of rows, read at an index, at the ideal values.

  Let `x` be an `N × C` array and `idx` a column of `E` integers (an `E × 1` array of words read as signed integers).

  The ROW GATHER of `x` at `idx` is the `E × C` array whose row `e` is row `idx e` of `x`, the integer first
  clamped into `[0, N − 1]`: entry `(e, c)` is `x (rowOf idx e, c)`, where the row `rowOf idx e` depends on the index
  column and on `e` only — not on the column `c`, nor on `x`.

  The ROW SCATTER-ADD of an `E × C` array `upd` into `x` along `idx` adds row `e` of `upd` to row `idx e` of `x`,
  for every `e`; a row whose integer is outside `[0, N − 1]` is dropped, not clamped. The update entry `(e, c')`
  lands on the entry `(n, c)` exactly when `idx e = n` as integers and `c' = c`. At the ideal values the colliding
  updates are summed exactly, so entry `(n, c)` of the result is `x (n, c)` plus the sum of `upd (e, c)` over the
  `e` with `idx e = n`.

  Scattering the constant `1` into zeros counts the updates that land on each entry: the result is a natural number.
-/
import Idealize.ShloMosaic.PureOps.Ideal.Laws
import Idealize.ShloMosaic.Lib.ValueIdx

noncomputable section

namespace Cert.LibRowScatter

open Idealize.ShloMosaic Idealize.ShloMosaic.ValueIdx

variable {N E C w : Nat}

/-! ### The row scatter -/

section Scatter

variable (d : ScatterDims ⟨2, ![N, C]⟩ ⟨2, ![E, 1]⟩ ⟨2, ![E, C]⟩)

/-- On the row axis the window starts at the update row's integer, read signed. -/
theorem start_row (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) : d.start j idx 0 = (idx (ix2 (j 0) (0 : Fin 1))).toInt := by
  obtain ⟨uw, iw, sd, iv, wf⟩ := d
  dsimp only at huw hiw hsd hiv
  subst huw hiw hsd hiv
  unfold ScatterDims.start
  rw [dif_pos (List.mem_singleton.mpr rfl)]
  congr 2
  funext b
  refine Fin.ext ?_
  match b with
  | ⟨0, _⟩ => rfl
  | ⟨1, _⟩ => rfl

/-- On the column axis the window starts at `0`: the scatter index names the row axis only. -/
theorem start_col (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) : d.start j idx 1 = 0 := by
  obtain ⟨uw, iw, sd, iv, wf⟩ := d
  dsimp only at huw hiw hsd hiv
  subst huw hiw hsd hiv
  unfold ScatterDims.start
  rw [dif_neg (show (1 : Fin 2) ∉ ([0] : List (Fin 2)) by decide)]

/-- The row axis is inserted: no window coordinate on it. -/
theorem window_row (huw : d.updateWindowDims = [1]) (hiw : d.insertedWindowDims = [0])
    (hsd : d.scatterDimsToOperandDims = [0]) (hiv : d.indexVectorDim = 1)
    (j : (⟨2, ![E, C]⟩ : Shape).Idx) : d.window j 0 = 0 := by
  obtain ⟨uw, iw, sd, iv, wf⟩ := d
  dsimp only at huw hiw hsd hiv
  subst huw hiw hsd hiv
  unfold ScatterDims.window
  exact dif_neg (show (0 : Fin 2) ∉ ([1] : List (Fin 2)) by decide)

/-- On the column axis the window coordinate is the update's column. -/
theorem window_col (huw : d.updateWindowDims = [1]) (hiw : d.insertedWindowDims = [0])
    (hsd : d.scatterDimsToOperandDims = [0]) (hiv : d.indexVectorDim = 1)
    (j : (⟨2, ![E, C]⟩ : Shape).Idx) : d.window j 1 = (j 1).val := by
  obtain ⟨uw, iw, sd, iv, wf⟩ := d
  dsimp only at huw hiw hsd hiv
  subst huw hiw hsd hiv
  unfold ScatterDims.window
  exact (dif_pos (show (1 : Fin 2) ∈ ([1] : List (Fin 2)) by decide)).trans rfl

/-- Update entry `j` lands on entry `i` exactly when its row's integer is `i`'s row and the columns agree. -/
theorem rowScatter_resultIdx?_eq_some_iff (huw : d.updateWindowDims = [1]) (hiw : d.insertedWindowDims = [0])
    (hsd : d.scatterDimsToOperandDims = [0]) (hiv : d.indexVectorDim = 1) (idx : IVec ⟨2, ![E, 1]⟩ w)
    (j : (⟨2, ![E, C]⟩ : Shape).Idx) (i : (⟨2, ![N, C]⟩ : Shape).Idx) :
    d.resultIdx? j idx = some i ↔
      (idx (ix2 (j 0) (0 : Fin 1))).toInt = ((i 0).val : Int) ∧ (j 1).val = (i 1).val := by
  have hs0 := start_row d huw hiw hsd hiv idx j
  have hs1 := start_col d huw hiw hsd hiv idx j
  have hw0 := window_row d huw hiw hsd hiv j
  have hw1 := window_col d huw hiw hsd hiv j
  have hi0 := idx2_lt0 i
  have hi1 := idx2_lt1 i
  have hj1 := idx2_lt1 j
  unfold ScatterDims.resultIdx?
  constructor
  · intro h
    split at h
    · rename_i hr
      have hi := Option.some.inj h
      have e0 := congrArg (fun f => (f 0).val) hi
      have e1 := congrArg (fun f => (f 1).val) hi
      have r0 := hr 0
      simp only [hs0, hs1, hw0, hw1] at e0 e1 r0
      omega
    · exact absurd h (by simp)
  · rintro ⟨h0, h1⟩
    have hr : ∀ a, 0 ≤ d.start j idx a + d.window j a ∧
        d.start j idx a + d.window j a < (⟨2, ![N, C]⟩ : Shape).size a := by
      intro a
      match a with
      | ⟨0, _⟩ =>
        show 0 ≤ d.start j idx 0 + d.window j 0 ∧ d.start j idx 0 + d.window j 0 < ((N : Nat) : Int)
        rw [hs0, hw0]; omega
      | ⟨1, _⟩ =>
        show 0 ≤ d.start j idx 1 + d.window j 1 ∧ d.start j idx 1 + d.window j 1 < ((C : Nat) : Int)
        rw [hs1, hw1]; omega
    rw [dif_pos hr]
    congr 1
    funext a
    refine Fin.ext ?_
    match a with
    | ⟨0, _⟩ =>
      show (d.start j idx 0 + d.window j 0).toNat = (i 0).val
      rw [hs0, hw0]; omega
    | ⟨1, _⟩ =>
      show (d.start j idx 1 + d.window j 1).toNat = (i 1).val
      rw [hs1, hw1]; omega

/-- THE ROW SCATTER-ADD READ AT `(n, c)`: the operand's entry plus the sum, over the update rows `e` whose integer is
    `n`, of the update's entry `(e, c)`. -/
theorem hostScatterAdd_rows_apply (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c) = x (ix2 n c) +
      ∑ e ∈ Finset.univ.filter (fun e : Fin E => (idx (ix2 e (0 : Fin 1))).toInt = (n.val : Int)), upd (ix2 e c) := by
  unfold Ideal.hostScatterAdd
  congr 1
  -- both sums as sums of indicator terms; the left one split into rows and columns
  rw [Finset.sum_filter, Finset.sum_filter, sum_idx2]
  refine Finset.sum_congr rfl fun e _ => ?_
  simp only [rowScatter_resultIdx?_eq_some_iff d huw hiw hsd hiv]
  -- in row `e` only the column `c` can contribute
  by_cases hA : (idx (ix2 e (0 : Fin 1))).toInt = (n.val : Int)
  · rw [if_pos hA, Finset.sum_eq_single c]
    · exact if_pos ⟨hA, rfl⟩
    · intro b _ hb
      exact if_neg fun h => hb (Fin.ext h.2)
    · intro h
      exact absurd (Finset.mem_univ c) h
  · rw [if_neg hA]
    exact Finset.sum_eq_zero fun b _ => if_neg fun h => hA h.1

end Scatter

/-! ### Counting the updates -/

/-- Scattering ones into zeros, with an `add` body, gives at every entry a natural number: how many updates land
    there. For any shapes and any dimension numbers. -/
theorem hostScatterAdd_zero_one_nat {s si u : Shape} (d : ScatterDims s si u) {w : Nat} (idx : IVec si w) (i : s.Idx) :
    ∃ k : ℕ, Ideal.hostScatterAdd d (fun _ => (0 : EReal)) idx (fun _ => (1 : EReal)) i = (k : EReal) := by
  refine ⟨(Finset.univ.filter (fun j => d.resultIdx? j idx = some i)).card, ?_⟩
  unfold Ideal.hostScatterAdd
  rw [zero_add, Finset.sum_const, nsmul_one]

/-! ### The row gather -/

/-- The row of the operand that row `e` of a gather reads: the integer `idx e`, clamped into `[0, N − 1]`. -/
def rowOf (hN : 0 < N) (idx : IVec ⟨2, ![E, 1]⟩ w) (e : Fin E) : Fin N :=
  ⟨min (idx (ix2 e (0 : Fin 1))).toInt.toNat (N - 1), by omega⟩

theorem rowOf_val (hN : 0 < N) (idx : IVec ⟨2, ![E, 1]⟩ w) (e : Fin E) :
    (rowOf hN idx e).val = min (idx (ix2 e (0 : Fin 1))).toInt.toNat (N - 1) := rfl

section Gather

variable {α : Type} (g : GatherDims ⟨2, ![N, C]⟩ ⟨2, ![E, 1]⟩ ⟨2, ![E, C]⟩)

/-- On the row axis the slice starts at the result row's integer, read signed and clamped into `[0, N − 1]`. -/
theorem gather_start_row (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (idx : IVec ⟨2, ![E, 1]⟩ w)
    (j : (⟨2, ![E, C]⟩ : Shape).Idx) :
    g.start j idx 0 = min (idx (ix2 (j 0) (0 : Fin 1))).toInt.toNat (N - 1) := by
  obtain ⟨od, cd, ob, sb, sm, iv, ss, wf⟩ := g
  dsimp only at hod hcd hob hsb hsm hiv hss
  subst hod hcd hob hsb hsm hiv hss
  unfold GatherDims.start
  rw [dif_pos (List.mem_singleton.mpr rfl)]
  refine congrArg₂ min (congrArg (fun v => (idx v).toInt.toNat) ?_) rfl
  funext b
  refine Fin.ext ?_
  match b with
  | ⟨0, _⟩ => rfl
  | ⟨1, _⟩ => rfl

/-- On the column axis the slice starts at `0`: the start index names the row axis only. -/
theorem gather_start_col (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (idx : IVec ⟨2, ![E, 1]⟩ w)
    (j : (⟨2, ![E, C]⟩ : Shape).Idx) : g.start j idx 1 = 0 := by
  obtain ⟨od, cd, ob, sb, sm, iv, ss, wf⟩ := g
  dsimp only at hod hcd hob hsb hsm hiv hss
  subst hod hcd hob hsb hsm hiv hss
  unfold GatherDims.start
  exact dif_neg (show (1 : Fin 2) ∉ ([0] : List (Fin 2)) by decide)

/-- The row axis is collapsed: no offset coordinate on it. -/
theorem gather_off_row (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C])
    (j : (⟨2, ![E, C]⟩ : Shape).Idx) : g.offCoord j 0 = 0 := by
  obtain ⟨od, cd, ob, sb, sm, iv, ss, wf⟩ := g
  dsimp only at hod hcd hob hsb hsm hiv hss
  subst hod hcd hob hsb hsm hiv hss
  unfold GatherDims.offCoord
  exact dif_neg (show (0 : Fin 2) ∉ ([1] : List (Fin 2)) by decide)

/-- On the column axis the offset coordinate is the result's column. -/
theorem gather_off_col (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C])
    (j : (⟨2, ![E, C]⟩ : Shape).Idx) : g.offCoord j 1 = (j 1).val := by
  obtain ⟨od, cd, ob, sb, sm, iv, ss, wf⟩ := g
  dsimp only at hod hcd hob hsb hsm hiv hss
  subst hod hcd hob hsb hsm hiv hss
  unfold GatherDims.offCoord
  exact (dif_pos (show (1 : Fin 2) ∈ ([1] : List (Fin 2)) by decide)).trans rfl

/-- THE ROW GATHER READ AT `(e, c)`: the operand at row `rowOf idx e`, column `c`. -/
theorem gather_rows_apply (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (hN : 0 < N)
    (x : (⟨2, ![N, C]⟩ : Shape).Idx → α) (idx : IVec ⟨2, ![E, 1]⟩ w) (e : Fin E) (c : Fin C) :
    Host.gather g x idx (ix2 e c) = x (ix2 (rowOf hN idx e) c) := by
  have hb : ∀ a, g.batchCoord (ix2 e c) a = 0 := fun a =>
    g.batchCoord_eq_zero _ a (by rw [hob]; exact List.not_mem_nil)
  unfold Host.gather
  congr 1
  funext a
  refine Fin.ext ?_
  match a with
  | ⟨0, _⟩ =>
    show g.start (ix2 e c) idx 0 + g.batchCoord (ix2 e c) 0 + g.offCoord (ix2 e c) 0 = _
    rw [hb, gather_start_row g hod hcd hob hsb hsm hiv hss, gather_off_row g hod hcd hob hsb hsm hiv hss]
    rfl
  | ⟨1, _⟩ =>
    show g.start (ix2 e c) idx 1 + g.batchCoord (ix2 e c) 1 + g.offCoord (ix2 e c) 1 = _
    rw [hb, gather_start_col g hod hcd hob hsb hsm hiv hss, gather_off_col g hod hcd hob hsb hsm hiv hss]
    show 0 + 0 + c.val = c.val
    omega

/-- The same, with the clamped row written out. -/
theorem gather_rows_apply_min (hod : g.offsetDims = [1]) (hcd : g.collapsedSliceDims = [0])
    (hob : g.operandBatchingDims = []) (hsb : g.startIndicesBatchingDims = []) (hsm : g.startIndexMap = [0])
    (hiv : g.indexVectorDim = 1) (hss : g.sliceSizes = ![1, C]) (hN : 0 < N)
    (x : (⟨2, ![N, C]⟩ : Shape).Idx → α) (idx : IVec ⟨2, ![E, 1]⟩ w) (e : Fin E) (c : Fin C) :
    Host.gather g x idx (ix2 e c)
      = x (ix2 (⟨min (idx (ix2 e (0 : Fin 1))).toInt.toNat (N - 1), by omega⟩ : Fin N) c) :=
  gather_rows_apply g hod hcd hob hsb hsm hiv hss hN x idx e c

end Gather

end Cert.LibRowScatter

end
-- ==== Proof.LibScatterAdd.lean ====
import Mathlib
import Idealize.ShloMosaic.PureOps.ShapeOps
import Idealize.ShloMosaic.Lib.ValueIdx

/-!
# A scatter whose body is addition is a sum

`Host.scatter d f x idx upd` is a left fold over the update indices in row-major order, each
update index `j` replacing the element at its result index `d.resultIdx? j idx` (when there
is one) by `f` of that element and the update's. When `f` is the addition of an additive
commutative monoid, the element of the result at `i` is the operand's element at `i` plus the
sum of the updates whose result index is `i`:

  `Host.scatter d f x idx upd i = x i + ∑ j, if d.resultIdx? j idx = some i then upd j else 0`.

The proof is an induction on the list of update numbers with the accumulator generalised, then
the bridge from the sum of a list over `List.finRange` to the sum over `Fin`, and last the
re-indexing of that sum along the row-major numbering `u.rowMajor : u.Idx ≃ Fin u.numel`.

## The flat `x.at[idx].add(v)`

For an operand `[B]`, scatter indices `[N, 1]` and updates `[N]`, with no update window axes, the
operand's one axis inserted, the one start component going to that axis and the index vector on
axis `1`, the result index of update `[n]` is the index word `idx [n, 0]` read as a signed
integer, when that lies in `[0, B)`, and the update is dropped otherwise
(`ScatterDims.resultIdx?_addAt`). Hence element `i` of the result is `x i` plus the sum of the
updates `upd [n]` over the `n` with `(idx [n, 0]).toInt = i 0` (`Host.scatter_addAt_eq_sum`,
`Host.scatter_addAt_eq_sum_fin`).
-/

namespace Idealize.ShloMosaic

open scoped BigOperators

section ScatterAdd
variable {s si u : Shape} {α : Type} [AddCommMonoid α] {w : Nat}

/-- The fold of the scatter's step over ANY list `l` of update numbers, from ANY accumulator
    `r`, when the body `f` is addition: at `i` it is `r i` plus the sum, over the list, of the
    updates whose result index is `i`. -/
theorem Host.scatter_foldl_add (d : ScatterDims s si u) (f : α → α → α) (hf : ∀ a b, f a b = a + b)
    (idx : IVec si w) (upd : u.Idx → α) (l : List (Fin u.numel)) (r : s.Idx → α) (i : s.Idx) :
    l.foldl (fun r n =>
        match d.resultIdx? (u.rowMajor.symm n) idx with
        | some i => fun i' => if i' = i then f (r i) (upd (u.rowMajor.symm n)) else r i'
        | none => r) r i
      = r i + (l.map fun n =>
          if d.resultIdx? (u.rowMajor.symm n) idx = some i then upd (u.rowMajor.symm n) else 0).sum := by
  induction l generalizing r with
  | nil => simp
  | cons n l ih =>
    rw [List.foldl_cons, ih, List.map_cons, List.sum_cons, ← add_assoc]
    congr 1
    cases h : d.resultIdx? (u.rowMajor.symm n) idx with
    | none => simp
    | some i0 =>
      by_cases hi : i = i0
      · subst hi; simp [hf]
      · have hi' : ¬ i0 = i := fun h => hi h.symm
        simp [hi, hi']

/-- The scatter with an additive body, as a sum over the update NUMBERS `n : Fin u.numel`
    (update index `u.rowMajor.symm n`). -/
theorem Host.scatter_add_eq_sum_fin (d : ScatterDims s si u) (f : α → α → α) (hf : ∀ a b, f a b = a + b)
    (x : s.Idx → α) (idx : IVec si w) (upd : u.Idx → α) (i : s.Idx) :
    Host.scatter d f x idx upd i
      = x i + ∑ n : Fin u.numel,
          (if d.resultIdx? (u.rowMajor.symm n) idx = some i then upd (u.rowMajor.symm n) else 0) := by
  rw [Fin.sum_univ_def]
  exact Host.scatter_foldl_add d f hf idx upd (List.finRange u.numel) x i

/-- **A scatter whose body is addition is a sum.** The element at `i` of
    `Host.scatter d f x idx upd`, when `f a b = a + b` in an additive commutative monoid, is the
    operand's element `x i` plus the sum of the updates `upd j` over the update indices `j` whose
    result index `d.resultIdx? j idx` is `i` (an update whose result index leaves the operand is
    dropped). -/
theorem Host.scatter_add_eq_sum (d : ScatterDims s si u) (f : α → α → α) (hf : ∀ a b, f a b = a + b)
    (x : s.Idx → α) (idx : IVec si w) (upd : u.Idx → α) (i : s.Idx) :
    Host.scatter d f x idx upd i
      = x i + ∑ j : u.Idx, (if d.resultIdx? j idx = some i then upd j else 0) := by
  rw [Host.scatter_add_eq_sum_fin d f hf]
  congr 1
  exact Equiv.sum_comp u.rowMajor.symm
    (fun j : u.Idx => if d.resultIdx? j idx = some i then upd j else 0)

/-- The instance at 32-bit words: the integer addition `IntOp.addi` is `+` on `BitVec`, so the
    scatter with that body is the sum above, in the commutative ring of `w'`-bit words. -/
theorem Host.scatter_addi_eq_sum {w' : Nat} (d : ScatterDims s si u)
    (x : s.Idx → BitVec w') (idx : IVec si w) (upd : u.Idx → BitVec w') (i : s.Idx) :
    Host.scatter d IntOp.addi x idx upd i
      = x i + ∑ j : u.Idx, (if d.resultIdx? j idx = some i then upd j else 0) :=
  Host.scatter_add_eq_sum d IntOp.addi (fun _ _ => rfl) x idx upd i

end ScatterAdd

section AddAt
variable {B N w : Nat}

/-- The scatter-indices index `[n, 0]` that update index `[n]` reads its one start component at:
    row `n`, column `0` of the `N × 1` array of scatter indices. -/
abbrev addAtIdx (j : (⟨1, ![N]⟩ : Shape).Idx) : (⟨2, ![N, 1]⟩ : Shape).Idx :=
  fun a => match a with | ⟨0, _⟩ => ⟨(j 0).val, (j 0).isLt⟩ | ⟨1, _⟩ => ⟨0, Nat.one_pos⟩

/-- **The result index of `x.at[idx].add(v)` on a flat array.** For an operand `[B]`, scatter
    indices `[N, 1]` and updates `[N]` with no update window axes, the operand's one axis inserted,
    the start component going to that axis and the index vector on axis `1`: update index `j`
    lands at `i` exactly when the index word at row `j 0`, column `0`, read SIGNED, is the
    number `i 0` (a word that is negative or at least `B` drops the update). -/
theorem ScatterDims.resultIdx?_addAt (d : ScatterDims ⟨1, ![B]⟩ ⟨2, ![N, 1]⟩ ⟨1, ![N]⟩)
    (h1 : d.updateWindowDims = []) (h2 : d.insertedWindowDims = [0])
    (h3 : d.scatterDimsToOperandDims = [0]) (h4 : d.indexVectorDim = 1)
    (idx : IVec ⟨2, ![N, 1]⟩ w) (j : (⟨1, ![N]⟩ : Shape).Idx) (i : (⟨1, ![B]⟩ : Shape).Idx) :
    d.resultIdx? j idx = some i ↔ (idx (addAtIdx j)).toInt = ((i 0).val : Int) := by
  obtain ⟨uw, iw, sd, iv, wf⟩ := d
  simp only at h1 h2 h3 h4
  subst h1 h2 h3 h4
  generalize hd : (⟨[], [0], [0], 1, wf⟩ : ScatterDims ⟨1, ![B]⟩ ⟨2, ![N, 1]⟩ ⟨1, ![N]⟩) = d
  have hstart : ∀ a, d.start j idx a = (idx (addAtIdx j)).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  have hwin : ∀ a, d.window j a = 0 := by
    intro a
    obtain rfl : a = 0 := Subsingleton.elim _ _
    subst hd
    unfold ScatterDims.window
    rw [dif_neg]
    simp [ScatterDims.sKept, Shape.kept]
  have hB : ((i 0).val : Int) < ((⟨1, ![B]⟩ : Shape).size 0 : Nat) := by
    have := (i 0).isLt; omega
  unfold ScatterDims.resultIdx?
  split_ifs with h
  · rw [Option.some.injEq]
    constructor
    · intro e
      have e0 : (d.start j idx 0 + (d.window j 0 : Int)).toNat = (i 0).val :=
        congrArg (fun k : (⟨1, ![B]⟩ : Shape).Idx => (k 0).val) e
      have h0 := h 0
      rw [hstart, hwin] at e0 h0
      omega
    · intro e
      funext a
      obtain rfl : a = 0 := Subsingleton.elim _ _
      refine Fin.ext ?_
      show (d.start j idx 0 + (d.window j 0 : Int)).toNat = (i 0).val
      rw [hstart, hwin]; omega
  · constructor
    · intro e; cases e
    · intro e
      exfalso; apply h
      intro a
      obtain rfl : a = 0 := Subsingleton.elim _ _
      rw [hstart, hwin]
      omega

end AddAt

section AddAtSum
variable {B N w : Nat} {α : Type} [AddCommMonoid α]

open ValueIdx in
/-- A rank-1 index is its one coordinate: the bijection a sum over the update indices `[N]` is
    re-indexed through. -/
def idxEquiv1 : (⟨1, ![N]⟩ : Shape).Idx ≃ Fin N where
  toFun j := j 0
  invFun n := ix1 n
  left_inv j := (eq_ix1 j).symm
  right_inv _ := rfl

open ValueIdx in
/-- The scatter-indices index of update index `[n]` is `[n, 0]`. -/
theorem addAtIdx_ix1 (n : Fin N) : addAtIdx (ix1 n) = ix2 n (0 : Fin 1) := by
  funext a
  match a with
  | ⟨0, _⟩ => rfl
  | ⟨1, _⟩ => rfl

/-- **`x.at[idx].add(v)` on a flat array is a sum over the updates that name the element.** With
    the dimension numbers of `ScatterDims.resultIdx?_addAt` and an additive body, element `i` of
    the result is `x i` plus the sum of the updates `upd j` over the update indices `j` whose index
    word, read signed, is the number `i 0`. -/
theorem Host.scatter_addAt_eq_sum (d : ScatterDims ⟨1, ![B]⟩ ⟨2, ![N, 1]⟩ ⟨1, ![N]⟩)
    (h1 : d.updateWindowDims = []) (h2 : d.insertedWindowDims = [0])
    (h3 : d.scatterDimsToOperandDims = [0]) (h4 : d.indexVectorDim = 1)
    (f : α → α → α) (hf : ∀ a b, f a b = a + b)
    (x : (⟨1, ![B]⟩ : Shape).Idx → α) (idx : IVec ⟨2, ![N, 1]⟩ w) (upd : (⟨1, ![N]⟩ : Shape).Idx → α)
    (i : (⟨1, ![B]⟩ : Shape).Idx) :
    Host.scatter d f x idx upd i
      = x i + ∑ j : (⟨1, ![N]⟩ : Shape).Idx,
          (if (idx (addAtIdx j)).toInt = ((i 0).val : Int) then upd j else 0) := by
  rw [Host.scatter_add_eq_sum d f hf]
  congr 1
  refine Finset.sum_congr rfl fun j _ => ?_
  simp only [ScatterDims.resultIdx?_addAt d h1 h2 h3 h4]

open ValueIdx in
/-- The same sum over the update NUMBERS `n : Fin N`: element `i` of the result is `x i` plus the
    sum of `upd [n]` over the `n` whose index word `idx [n, 0]`, read signed, is `i 0`. -/
theorem Host.scatter_addAt_eq_sum_fin (d : ScatterDims ⟨1, ![B]⟩ ⟨2, ![N, 1]⟩ ⟨1, ![N]⟩)
    (h1 : d.updateWindowDims = []) (h2 : d.insertedWindowDims = [0])
    (h3 : d.scatterDimsToOperandDims = [0]) (h4 : d.indexVectorDim = 1)
    (f : α → α → α) (hf : ∀ a b, f a b = a + b)
    (x : (⟨1, ![B]⟩ : Shape).Idx → α) (idx : IVec ⟨2, ![N, 1]⟩ w) (upd : (⟨1, ![N]⟩ : Shape).Idx → α)
    (i : (⟨1, ![B]⟩ : Shape).Idx) :
    Host.scatter d f x idx upd i
      = x i + ∑ n : Fin N,
          (if (idx (ix2 n (0 : Fin 1))).toInt = ((i 0).val : Int) then upd (ix1 n) else 0) := by
  rw [Host.scatter_addAt_eq_sum d h1 h2 h3 h4 f hf, ← Equiv.sum_comp (idxEquiv1 (N := N)).symm]
  congr 1
  refine Finset.sum_congr rfl fun n _ => ?_
  show (if (idx (addAtIdx (ix1 n))).toInt = ((i 0).val : Int) then upd (ix1 n) else 0) = _
  rw [addAtIdx_ix1]

end AddAtSum

end Idealize.ShloMosaic
-- ==== Proof.LibGather1.lean ====
/-
  A gather of single entries of a vector, read at an index.

  Let x be a vector of N entries and idx a column of E integers (an E × 1 array of words read as signed integers).
  The gather of single entries of x along idx — no offset axis, the one operand axis collapsed, slices of size 1 —
  is the vector of E entries whose entry e is x at the integer idx e, first clamped into [0, N − 1]: the entry
  rowOf idx e depends on the index column and on e only, not on x.
-/
import Idealize.ShloMosaic.PureOps.Ideal.Laws
import Idealize.ShloMosaic.Lib.ValueIdx
import proofs.«129196_j11553462026276_2_alg».proof.Proof.LibRowScatter

noncomputable section

namespace Cert.LibGather1

open Idealize.ShloMosaic Idealize.ShloMosaic.ValueIdx Cert.LibRowScatter

variable {N E w : Nat} {α : Type} (g1 : GatherDims ⟨1, ![N]⟩ ⟨2, ![E, 1]⟩ ⟨1, ![E]⟩)

/-- On the one axis of the vector the slice starts at the result entry's integer, read signed and clamped into
    [0, N − 1]. -/
theorem gather1_start (hod : g1.offsetDims = []) (hcd : g1.collapsedSliceDims = [0])
    (hob : g1.operandBatchingDims = []) (hsb : g1.startIndicesBatchingDims = []) (hsm : g1.startIndexMap = [0])
    (hiv : g1.indexVectorDim = 1) (hss : g1.sliceSizes = ![1]) (idx : IVec ⟨2, ![E, 1]⟩ w)
    (j : (⟨1, ![E]⟩ : Shape).Idx) :
    g1.start j idx 0 = min (idx (ix2 (j 0) (0 : Fin 1))).toInt.toNat (N - 1) := by
  obtain ⟨od, cd, ob, sb, sm, iv, ss, wf⟩ := g1
  dsimp only at hod hcd hob hsb hsm hiv hss
  subst hod hcd hob hsb hsm hiv hss
  unfold GatherDims.start
  rw [dif_pos (List.mem_singleton.mpr rfl)]
  refine congrArg₂ min (congrArg (fun v => (idx v).toInt.toNat) ?_) rfl
  funext b
  refine Fin.ext ?_
  match b with
  | ⟨0, _⟩ => rfl
  | ⟨1, _⟩ => rfl

/-- THE GATHER OF ENTRIES READ AT e: the vector at the integer of e clamped into [0, N − 1]. -/
theorem gather1_apply (hod : g1.offsetDims = []) (hcd : g1.collapsedSliceDims = [0])
    (hob : g1.operandBatchingDims = []) (hsb : g1.startIndicesBatchingDims = []) (hsm : g1.startIndexMap = [0])
    (hiv : g1.indexVectorDim = 1) (hss : g1.sliceSizes = ![1]) (hN : 0 < N)
    (x : (⟨1, ![N]⟩ : Shape).Idx → α) (idx : IVec ⟨2, ![E, 1]⟩ w) (e : Fin E) :
    Host.gather g1 x idx (ix1 e) = x (ix1 (rowOf hN idx e)) := by
  unfold Host.gather
  congr 1
  funext a
  obtain rfl : a = 0 := Subsingleton.elim _ _
  refine Fin.ext ?_
  show g1.start (ix1 e) idx 0 + g1.batchCoord (ix1 e) 0 + g1.offCoord (ix1 e) 0 = _
  rw [g1.batchCoord_eq_zero _ _ (by rw [hob]; exact List.not_mem_nil),
    g1.offCoord_eq_zero _ _ (fun h => ((g1.mem_sKept _).mp h).1 (by rw [hcd]; exact List.mem_singleton.mpr rfl)),
    gather1_start g1 hod hcd hob hsb hsm hiv hss]
  rfl

end Cert.LibGather1

end
-- ==== Proof.RefFeat.lean ====
/-
  The reference's node features, read entry by entry.

  The reference lists 900000 edges: the 800000 given ones followed by one loop (k, k) per node. Its source and target
  words at e' are the given words below 800000 and the node number e' - 800000 after. Every gather reads through a
  word with 100000 added when it is negative, clamped into [0, 99999]; every accumulation lands on node i exactly the
  edges whose target word, read signed, is i. The degree is the number of such edges (each contributes the word 1.0
  to a sum started at 0.0), the scale of an edge is the product of the guarded inverse square roots of the degrees
  of its two ends, and a layer accumulates into node i the scaled rows of the sources of the edges into i and adds
  the bias. Two layers, the first followed by a maximum with 0.0, give the node features.
-/
import proofs.«129196_j11553462026276_2_alg».proof.Proof.RefRead
import proofs.«129196_j11553462026276_2_alg».proof.Proof.SpecX
import proofs.«129196_j11553462026276_2_alg».proof.Proof.LibRowScatter
import proofs.«129196_j11553462026276_2_alg».proof.Proof.LibScatterAdd
import proofs.«129196_j11553462026276_2_alg».proof.Proof.LibGather1

noncomputable section

namespace Cert.RefRead

open Cert.ReferenceIdeal Cert.ReferenceIdeal.Gen Idealize.ShloMosaic Idealize.ShloMosaic.ValueIdx Idealize.ShloMosaic.TcCoe
  Idealize.SL.Sem Cert.Spec Cert.SpecX Cert.LibRowScatter Cert.LibGather1

/-! ### Three general reads -/

/-- The flat scatter-add read at n: the operand's entry plus the sum of the updates whose index word, read signed,
    is n. -/
theorem hostScatterAdd_flat_apply {B N w : Nat} (d : ScatterDims ⟨1, ![B]⟩ ⟨2, ![N, 1]⟩ ⟨1, ![N]⟩)
    (h1 : d.updateWindowDims = []) (h2 : d.insertedWindowDims = [0])
    (h3 : d.scatterDimsToOperandDims = [0]) (h4 : d.indexVectorDim = 1)
    (x : (⟨1, ![B]⟩ : Shape).Idx → EReal) (idx : IVec ⟨2, ![N, 1]⟩ w)
    (upd : (⟨1, ![N]⟩ : Shape).Idx → EReal) (n : Fin B) :
    Ideal.hostScatterAdd d x idx upd (ix1 n) = x (ix1 n) +
      ∑ e ∈ Finset.univ.filter (fun e : Fin N => (idx (ix2 e (0 : Fin 1))).toInt = (n.val : Int)), upd (ix1 e) := by
  unfold Ideal.hostScatterAdd
  congr 1
  rw [Finset.sum_filter, Finset.sum_filter, ← Equiv.sum_comp (idxEquiv1 (N := N)).symm]
  refine Finset.sum_congr rfl fun e _ => ?_
  show (if d.resultIdx? (ix1 e) idx = some (ix1 n) then upd (ix1 e) else 0) = _
  simp only [ScatterDims.resultIdx?_addAt d h1 h2 h3 h4, addAtIdx_ix1]
  rfl

/-- A concatenation of a vector of 800000 entries and one of 100000 read at e: the first below 800000, the second
    after. -/
theorem cat_apply {α : Type} (hc : Shape.Concatenates [(⟨1, ![800000]⟩ : Shape), ⟨1, ![100000]⟩] ⟨1, ![900000]⟩ 0)
    (y : (⟨1, ![800000]⟩ : Shape).Idx → α) (z : (⟨1, ![100000]⟩ : Shape).Idx → α) (e : Fin 900000) :
    concatenate ⟨1, ![900000]⟩ 0 [⟨⟨1, ![800000]⟩, y⟩, ⟨⟨1, ![100000]⟩, z⟩] hc (ix1 e)
      = if h : e.val < 800000 then y (ix1 ⟨e.val, h⟩) else z (ix1 ⟨e.val - 800000, by omega⟩) := by
  by_cases h : e.val < 800000
  · rw [dif_pos h]
    exact concatenate_pair_apply_left 0 y z hc (ix1 e) rfl (ix1 ⟨e.val, h⟩) (fun b => by
      match b with
      | ⟨0, _⟩ => rfl)
  · rw [dif_neg h]
    exact concatenate_pair_apply_right 0 y z hc (ix1 e) rfl rfl (ix1 ⟨e.val - 800000, by omega⟩)
      (fun b hb => by
        match b with
        | ⟨0, _⟩ => exact absurd rfl hb)
      (by show (e.val - 800000) + 800000 = e.val; omega)

/-- The row a gather reads through a wrapped index column is the node the word names. -/
theorem rowOf_eq_gRow {E : Nat} (idx : IVec ⟨2, ![E, 1]⟩ 32) (e : Fin E) (w : BitVec 32)
    (h : idx (ix2 e (0 : Fin 1)) = wrapW w) :
    rowOf (N := 100000) (by omega) idx e = gRow w := by
  refine Fin.ext ?_
  rw [rowOf_val, h]
  rfl

/-- The row scatter-add into zeros along the target words, read at (i, k): a sum over the edges into i. Generic in
    the width C. -/
theorem scatter_rows_hits {C : Nat} (d : ScatterDims ⟨2, ![100000, C]⟩ ⟨2, ![900000, 1]⟩ ⟨2, ![900000, C]⟩)
    (huw : d.updateWindowDims = [1]) (hiw : d.insertedWindowDims = [0])
    (hsd : d.scatterDimsToOperandDims = [0]) (hiv : d.indexVectorDim = 1)
    (ei : IVec ⟨2, ![2, 800000]⟩ 32)
    (zs : (⟨2, ![100000, C]⟩ : Shape).Idx → EReal) (hz : ∀ i k, zs (ix2 i k) = zero)
    (cidx : IVec ⟨2, ![900000, 1]⟩ 32) (hcx : ∀ e, cidx (ix2 e (0 : Fin 1)) = colsX ei e)
    (upd : (⟨2, ![900000, C]⟩ : Shape).Idx → EReal) (m : Fin 900000 → Fin C → EReal)
    (hu : ∀ e c, upd (ix2 e c) = m e c) (i : Fin 100000) (k : Fin C) :
    Ideal.hostScatterAdd d zs cidx upd (ix2 i k) = zero + ∑ e' ∈ hitsX ei i, m e' k := by
  rw [hostScatterAdd_rows_apply d huw hiw hsd hiv, hz]
  simp only [hcx, hu]
  rfl

/-! ### The words of the longer edge list -/

/-- The source word of edge e' of the longer list. -/
theorem ref_rows (x1 : (⟨S2x800000, .i32⟩ : BufTy).Contents (Elt Ideal)) (e' : Fin 900000) :
    Read.val_main_v3 (F := Ideal) x1 (ix1 e') = rowsX x1 e' := by
  unfold Read.val_main_v3
  refine (cat_apply concatenates_S800000_S100000_S900000_d0 _ _ e').trans ?_
  unfold rowsX
  by_cases h : e'.val < 800000
  · rw [dif_pos h, dif_pos h, Read.val_main_v2_apply, Read.val_main_v1_apply]
    unfold rowW
    refine congrArg x1 (funext fun a => Fin.ext ?_)
    match a with
    | ⟨0, _⟩ => rfl
    | ⟨1, _⟩ => exact Nat.mod_eq_of_lt h
  · rw [dif_neg h, dif_neg h]
    rfl

/-- The target word of edge e' of the longer list. -/
theorem ref_cols (x1 : (⟨S2x800000, .i32⟩ : BufTy).Contents (Elt Ideal)) (e' : Fin 900000) :
    Read.val_main_v6 (F := Ideal) x1 (ix1 e') = colsX x1 e' := by
  unfold Read.val_main_v6
  refine (cat_apply concatenates_S800000_S100000_S900000_d0 _ _ e').trans ?_
  unfold colsX
  by_cases h : e'.val < 800000
  · rw [dif_pos h, dif_pos h, Read.val_main_v5_apply, Read.val_main_v4_apply]
    unfold colW
    refine congrArg x1 (funext fun a => Fin.ext ?_)
    match a with
    | ⟨0, _⟩ => rfl
    | ⟨1, _⟩ => exact Nat.mod_eq_of_lt h
  · rw [dif_neg h, dif_neg h]
    rfl

/-! ### The index columns: the target words as they are, the words read through wrapped -/

theorem col9 (x1 : (⟨S2x800000, .i32⟩ : BufTy).Contents (Elt Ideal)) (e' : Fin 900000) :
    Read.val_main_v9 (F := Ideal) x1 (ix2 e' (0 : Fin 1)) = colsX x1 e' := by
  rw [Read.val_main_v9_apply, show Read.idx_main_v9 (ix2 e' (0 : Fin 1)) = ix1 e' from funext fun a => Fin.ext (by match a with | ⟨0, _⟩ => rfl)]
  exact ref_cols x1 e'

theorem col44 (x1 : (⟨S2x800000, .i32⟩ : BufTy).Contents (Elt Ideal)) (e' : Fin 900000) :
    Read.val_main_v44 (F := Ideal) x1 (ix2 e' (0 : Fin 1)) = colsX x1 e' := by
  rw [Read.val_main_v44_apply, show Read.idx_main_v44 (ix2 e' (0 : Fin 1)) = ix1 e' from funext fun a => Fin.ext (by match a with | ⟨0, _⟩ => rfl)]
  exact ref_cols x1 e'

theorem col62 (x1 : (⟨S2x800000, .i32⟩ : BufTy).Contents (Elt Ideal)) (e' : Fin 900000) :
    Read.val_main_v62 (F := Ideal) x1 (ix2 e' (0 : Fin 1)) = colsX x1 e' := by
  rw [Read.val_main_v62_apply, show Read.idx_main_v62 (ix2 e' (0 : Fin 1)) = ix1 e' from funext fun a => Fin.ext (by match a with | ⟨0, _⟩ => rfl)]
  exact ref_cols x1 e'

theorem wrap21 (x1 : (⟨S2x800000, .i32⟩ : BufTy).Contents (Elt Ideal)) (e' : Fin 900000) :
    Read.val_main_v21 (F := Ideal) x1 (ix1 e') = wrapW (rowsX x1 e') := by
  rw [Read.val_main_v21_apply, Read.val_main_v18_apply, Read.val_main_v20_apply, Read.val_main_v17_apply,
    Read.val_main_v19_apply, ref_rows]
  rfl

theorem wrap28 (x1 : (⟨S2x800000, .i32⟩ : BufTy).Contents (Elt Ideal)) (e' : Fin 900000) :
    Read.val_main_v28 (F := Ideal) x1 (ix1 e') = wrapW (colsX x1 e') := by
  rw [Read.val_main_v28_apply, Read.val_main_v25_apply, Read.val_main_v27_apply, Read.val_main_v24_apply,
    Read.val_main_v26_apply, ref_cols]
  rfl

theorem wrap38 (x1 : (⟨S2x800000, .i32⟩ : BufTy).Contents (Elt Ideal)) (e' : Fin 900000) :
    Read.val_main_v38 (F := Ideal) x1 (ix1 e') = wrapW (rowsX x1 e') := by
  rw [Read.val_main_v38_apply, Read.val_main_v35_apply, Read.val_main_v37_apply, Read.val_main_v34_apply,
    Read.val_main_v36_apply, ref_rows]
  rfl

theorem wrap56 (x1 : (⟨S2x800000, .i32⟩ : BufTy).Contents (Elt Ideal)) (e' : Fin 900000) :
    Read.val_main_v56 (F := Ideal) x1 (ix1 e') = wrapW (rowsX x1 e') := by
  rw [Read.val_main_v56_apply, Read.val_main_v53_apply, Read.val_main_v55_apply, Read.val_main_v52_apply,
    Read.val_main_v54_apply, ref_rows]
  rfl

theorem col22 (x1 : (⟨S2x800000, .i32⟩ : BufTy).Contents (Elt Ideal)) (e' : Fin 900000) :
    Read.val_main_v22 (F := Ideal) x1 (ix2 e' (0 : Fin 1)) = wrapW (rowsX x1 e') := by
  rw [Read.val_main_v22_apply, show Read.idx_main_v22 (ix2 e' (0 : Fin 1)) = ix1 e' from funext fun a => Fin.ext (by match a with | ⟨0, _⟩ => rfl)]
  exact wrap21 x1 e'

theorem col29 (x1 : (⟨S2x800000, .i32⟩ : BufTy).Contents (Elt Ideal)) (e' : Fin 900000) :
    Read.val_main_v29 (F := Ideal) x1 (ix2 e' (0 : Fin 1)) = wrapW (colsX x1 e') := by
  rw [Read.val_main_v29_apply, show Read.idx_main_v29 (ix2 e' (0 : Fin 1)) = ix1 e' from funext fun a => Fin.ext (by match a with | ⟨0, _⟩ => rfl)]
  exact wrap28 x1 e'

theorem col39 (x1 : (⟨S2x800000, .i32⟩ : BufTy).Contents (Elt Ideal)) (e' : Fin 900000) :
    Read.val_main_v39 (F := Ideal) x1 (ix2 e' (0 : Fin 1)) = wrapW (rowsX x1 e') := by
  rw [Read.val_main_v39_apply, show Read.idx_main_v39 (ix2 e' (0 : Fin 1)) = ix1 e' from funext fun a => Fin.ext (by match a with | ⟨0, _⟩ => rfl)]
  exact wrap38 x1 e'

theorem col57 (x1 : (⟨S2x800000, .i32⟩ : BufTy).Contents (Elt Ideal)) (e' : Fin 900000) :
    Read.val_main_v57 (F := Ideal) x1 (ix2 e' (0 : Fin 1)) = wrapW (rowsX x1 e') := by
  rw [Read.val_main_v57_apply, show Read.idx_main_v57 (ix2 e' (0 : Fin 1)) = ix1 e' from funext fun a => Fin.ext (by match a with | ⟨0, _⟩ => rfl)]
  exact wrap56 x1 e'

/-! ### Degree, inverse square root, scale -/

/-- At the ideal values the host's accumulating scatter is the exact sum. -/
theorem scatterAdd_eq {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The flat scatter-add of the reference, read at n. -/
theorem scatterAdd_flat_apply {B N w : Nat} (d : ScatterDims ⟨1, ![B]⟩ ⟨2, ![N, 1]⟩ ⟨1, ![N]⟩)
    (h1 : d.updateWindowDims = []) (h2 : d.insertedWindowDims = [0])
    (h3 : d.scatterDimsToOperandDims = [0]) (h4 : d.indexVectorDim = 1)
    (x : (⟨1, ![B]⟩ : Shape).Idx → EReal) (idx : IVec ⟨2, ![N, 1]⟩ w)
    (upd : (⟨1, ![N]⟩ : Shape).Idx → EReal) (n : Fin B) :
    Host.scatterAdd (F := Ideal) (φ := .f32) d x idx upd (ix1 n) = x (ix1 n) +
      ∑ e ∈ Finset.univ.filter (fun e : Fin N => (idx (ix2 e (0 : Fin 1))).toInt = (n.val : Int)), upd (ix1 e) := by
  rw [scatterAdd_eq]
  exact hostScatterAdd_flat_apply d h1 h2 h3 h4 x idx upd n

/-- The degree written out: the word 0.0 plus one word 1.0 per edge of the longer list into i. -/
theorem degX_eq (ei : IVec ⟨2, ![2, 800000]⟩ 32) (i : Fin 100000) :
    degX ei i = Ideal.ofBits .f32 0x00000000#32
      + ∑ _e ∈ Finset.univ.filter (fun e' : Fin 900000 => (colsX ei e').toInt = (i.val : Int)),
          Ideal.ofBits .f32 0x3F800000#32 := rfl

/-- The degree of node i: the count of the edges of the longer list into i. -/
theorem deg_at (x1 : (⟨S2x800000, .i32⟩ : BufTy).Contents (Elt Ideal)) (i : Fin 100000) :
    Read.val_main_v10 (F := Ideal) x1 (ix1 i) = degX x1 i := by
  unfold Read.val_main_v10
  rw [scatterAdd_flat_apply scatter_S100000_S900000x1_S900000_n_0_0_1 rfl rfl rfl rfl, Read.val_main_v8_apply, degX_eq]
  simp only [col9, Read.val_main_v7_apply, Read.val_main_cst_0_apply, Read.val_main_cst_apply, Ideal.ofBits_def]

theorem ref_dinv (x1 : (⟨S2x800000, .i32⟩ : BufTy).Contents (Elt Ideal)) (i : Fin 100000) :
    Read.val_main_v16 (F := Ideal) x1 (ix1 i) = dinvX x1 i := by
  rw [Read.val_main_v16_apply, Read.val_main_v12_apply, Read.val_main_v15_apply, Read.val_main_v14_apply, deg_at,
    Read.val_main_v11_apply, Read.val_main_v13_apply, Read.val_main_call0_v1_apply]
  unfold dinvX
  generalize degX x1 i = d
  rfl

/-- The scale of edge e' of the longer list. -/
theorem ref_norm (x1 : (⟨S2x800000, .i32⟩ : BufTy).Contents (Elt Ideal)) (e' : Fin 900000) :
    Read.val_main_v31 (F := Ideal) x1 (ix1 e') = normX x1 e' := by
  rw [Read.val_main_v31_apply]
  unfold Read.val_main_v23 Read.val_main_v30 normX
  rw [gather1_apply gather_S100000_S900000x1_S900000_n_0_n_n_0_1_1 rfl rfl rfl rfl rfl rfl rfl (by norm_num),
    gather1_apply gather_S100000_S900000x1_S900000_n_0_n_n_0_1_1 rfl rfl rfl rfl rfl rfl rfl (by norm_num),
    rowOf_eq_gRow _ _ _ (col22 x1 e'), rowOf_eq_gRow _ _ _ (col29 x1 e'), ref_dinv, ref_dinv]
  generalize dinvX x1 (gRow (rowsX x1 e')) = a
  generalize dinvX x1 (gRow (colsX x1 e')) = b
  rfl

end Cert.RefRead

end
-- ==== Proof.HostRead.lean ====
/-
  Host layout operations of the graph encoder read at an index: a vector laid as a column, a column or a row
  repeated across a matrix, a scalar repeated everywhere, a row of the edge array as a column of index words,
  and the wrap of a negative index word, each at explicit coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Cert.HostRead

open Idealize.ShloMosaic Idealize.ShloMosaic.ValueIdx

variable {α : Type} {N C : Nat}

/-- A scalar repeated over any shape reads the scalar. -/
theorem bcast_scalar {t : Shape} (h : (⟨0, ![]⟩ : Shape).BroadcastsInDim t ![]) (x : (⟨0, ![]⟩ : Shape).Idx → α) (j : t.Idx) :
    broadcastInDim t ![] h x j = x ix0 :=
  broadcastInDim_apply _ h x j ix0 (fun a => a.elim0)

/-- A vector laid as a column: entry (i, 0) is entry i. -/
theorem bcast_col (h : (⟨1, ![N]⟩ : Shape).BroadcastsInDim ⟨2, ![N, 1]⟩ ![0]) (x : (⟨1, ![N]⟩ : Shape).Idx → α)
    (i : Fin N) (z : Fin 1) : broadcastInDim ⟨2, ![N, 1]⟩ ![0] h x (ix2 i z) = x (ix1 i) :=
  broadcastInDim_apply _ h x _ (ix1 i) (fun a => by
    match a with
    | ⟨0, _⟩ =>
      show i.val = if N = 1 then 0 else i.val
      split_ifs with h1
      · have := i.isLt; omega
      · rfl)

/-- A column repeated across the columns of a matrix: entry (i, k) is the column's entry i. -/
theorem bcast_cols (h : (⟨2, ![N, 1]⟩ : Shape).BroadcastsInDim ⟨2, ![N, C]⟩ ![0, 1])
    (x : (⟨2, ![N, 1]⟩ : Shape).Idx → α) (i : Fin N) (k : Fin C) :
    broadcastInDim ⟨2, ![N, C]⟩ ![0, 1] h x (ix2 i k) = x (ix2 i (0 : Fin 1)) :=
  broadcastInDim_apply _ h x _ (ix2 i (0 : Fin 1)) (fun a => by
    match a with
    | ⟨0, _⟩ =>
      show i.val = if N = 1 then 0 else i.val
      split_ifs with h1
      · have := i.isLt; omega
      · rfl
    | ⟨1, _⟩ =>
      show (0 : Nat) = if (1 : Nat) = 1 then 0 else k.val
      rw [if_pos rfl])

/-- A vector laid as a row: entry (0, k) is entry k. -/
theorem bcast_rowv (h : (⟨1, ![C]⟩ : Shape).BroadcastsInDim ⟨2, ![1, C]⟩ ![1]) (x : (⟨1, ![C]⟩ : Shape).Idx → α)
    (z : Fin 1) (k : Fin C) : broadcastInDim ⟨2, ![1, C]⟩ ![1] h x (ix2 z k) = x (ix1 k) :=
  broadcastInDim_apply _ h x _ (ix1 k) (fun a => by
    match a with
    | ⟨0, _⟩ =>
      show k.val = if C = 1 then 0 else k.val
      split_ifs with h1
      · have := k.isLt; omega
      · rfl)

/-- A row repeated down the rows of a matrix: entry (i, k) is the row's entry k. -/
theorem bcast_rows (h : (⟨2, ![1, C]⟩ : Shape).BroadcastsInDim ⟨2, ![N, C]⟩ ![0, 1])
    (x : (⟨2, ![1, C]⟩ : Shape).Idx → α) (i : Fin N) (k : Fin C) :
    broadcastInDim ⟨2, ![N, C]⟩ ![0, 1] h x (ix2 i k) = x (ix2 (0 : Fin 1) k) :=
  broadcastInDim_apply _ h x _ (ix2 (0 : Fin 1) k) (fun a => by
    match a with
    | ⟨0, _⟩ =>
      show (0 : Nat) = if (1 : Nat) = 1 then 0 else i.val
      rw [if_pos rfl]
    | ⟨1, _⟩ =>
      show k.val = if C = 1 then 0 else k.val
      split_ifs with h1
      · have := k.isLt; omega
      · rfl)

/-- A vector through a column and then across a matrix: entry (i, k) is the vector's entry i. -/
theorem bcast_vec_cols (h1 : (⟨1, ![N]⟩ : Shape).BroadcastsInDim ⟨2, ![N, 1]⟩ ![0])
    (h2 : (⟨2, ![N, 1]⟩ : Shape).BroadcastsInDim ⟨2, ![N, C]⟩ ![0, 1]) (x : (⟨1, ![N]⟩ : Shape).Idx → α)
    (i : Fin N) (k : Fin C) :
    broadcastInDim ⟨2, ![N, C]⟩ ![0, 1] h2 (broadcastInDim ⟨2, ![N, 1]⟩ ![0] h1 x) (ix2 i k) = x (ix1 i) :=
  (bcast_cols h2 _ i k).trans (bcast_col h1 x i 0)

/-- A vector through a row and then down a matrix: entry (i, k) is the vector's entry k. -/
theorem bcast_vec_rows (h1 : (⟨1, ![C]⟩ : Shape).BroadcastsInDim ⟨2, ![1, C]⟩ ![1])
    (h2 : (⟨2, ![1, C]⟩ : Shape).BroadcastsInDim ⟨2, ![N, C]⟩ ![0, 1]) (x : (⟨1, ![C]⟩ : Shape).Idx → α)
    (i : Fin N) (k : Fin C) :
    broadcastInDim ⟨2, ![N, C]⟩ ![0, 1] h2 (broadcastInDim ⟨2, ![1, C]⟩ ![1] h1 x) (ix2 i k) = x (ix1 k) :=
  (bcast_rows h2 _ i k).trans (bcast_rowv h1 x 0 k)

/-- Row r of a two-row array, as a vector: entry e is entry (r, e). -/
theorem row_of_pair {E : Nat} (r : Fin 2) (hs : (⟨2, ![2, E]⟩ : Shape).Slices ![r.val, 0] ⟨2, ![1, E]⟩)
    (hc : (⟨2, ![1, E]⟩ : Shape).ShapeCasts ⟨1, ![E]⟩) (x : (⟨2, ![2, E]⟩ : Shape).Idx → α) (e : Fin E) :
    shapeCast ⟨1, ![E]⟩ (extractStridedSlice ⟨2, ![1, E]⟩ ![r.val, 0] x hs) hc (ix1 e) = x (ix2 r e) := by
  rw [shapeCast_1a_a_apply]
  refine extractStridedSlice_apply _ x hs _ (ix2 r e) (fun a => ?_)
  match a with
  | ⟨0, _⟩ => show r.val = r.val + 0; omega
  | ⟨1, _⟩ => show e.val = 0 + e.val; omega

end Cert.HostRead

end
-- ==== Proof.RefLayer1.lean ====
/-
  The reference's first layer and its relu, read at an index.

  The reference multiplies the input by the first weight, gathers the product's row of every source word of the
  longer edge list (a negative word wrapped by 100000, then clamped into [0, 99999]), scales row e' by the edge's
  scale, accumulates the scaled rows along the target words into zeros (a row scatter-add), adds the bias and takes
  the maximum with zero. Read at (i, k): the scatter-add is the zero word plus the sum, over the edges e' of the
  longer list whose target word read signed is i, of scale e' times the product at (node of the source word of e', k).
  Given that the stages before are the source words, the target words and the scales of the longer list, this is the
  hidden layer in the reference's form.
-/
import proofs.«129196_j11553462026276_2_alg».proof.Proof.RefRead
import proofs.«129196_j11553462026276_2_alg».proof.Proof.SpecX
import proofs.«129196_j11553462026276_2_alg».proof.Proof.LibRowScatter
import proofs.«129196_j11553462026276_2_alg».proof.Proof.HostRead

noncomputable section

namespace Cert.RefRead1

open Cert.ReferenceIdeal Cert.ReferenceIdeal.Gen Cert.ReferenceIdeal.Read
open Idealize.ShloMosaic Idealize.ShloMosaic.ValueIdx

/-! ## The arithmetic skeletons -/

/-- A maximum of a sum with a third array, at an index. -/
theorem r1_shape (S B Z : FVec Ideal S100000x256 .f32) (j : S100000x256.Idx) :
    maximumf (addf S B) Z j = max (S j + B j) (Z j) := rfl

/-- A product of two arrays at an index. -/
theorem r1_mul_shape (A B : FVec Ideal S900000x256 .f32) (j : S900000x256.Idx) : mulf A B j = A j * B j := rfl

/-! ## The product -/

/-- The input times the first weight at (n, k). -/
theorem r1_v32_apply (x0 : (⟨S100000x256, .f32⟩ : BufTy).Contents (Elt Ideal))
    (x2 : (⟨S256x256, .f32⟩ : BufTy).Contents (Elt Ideal)) (n : Fin 100000) (k : Fin 256) :
    val_main_v32 (F := Ideal) x0 x2 (ix2 n k) = Spec.xw1 x0 x2 n k := by
  refine (val_main_v32_apply x0 x2 (ix2 n k)).trans ?_
  unfold Spec.xw1
  refine Finset.sum_congr rfl fun j _ => ?_
  have hl : lidx_main_v32 (ix2 n k) j = ix2 n j :=
    funext fun a => Fin.ext (by match a with | ⟨0, _⟩ => rfl | ⟨1, _⟩ => rfl)
  have hr : ridx_main_v32 (ix2 n k) j = ix2 j k :=
    funext fun a => Fin.ext (by match a with | ⟨0, _⟩ => rfl | ⟨1, _⟩ => rfl)
  rw [hl, hr]

/-! ## The index words -/

section Words
variable (x1 : (⟨S2x800000, .i32⟩ : BufTy).Contents (Elt Ideal))

/-- The wrapped source-word column at (e, 0) is the wrap of source word e. -/
theorem r1_v39_apply (e : Fin 900000) :
    val_main_v39 (F := Ideal) x1 (ix2 e (0 : Fin 1)) = Spec.wrapW (val_main_v3 (F := Ideal) x1 (ix1 e)) := by
  have h0 : val_main_v34 (F := Ideal) (ix1 e) = 0#32 := by
    unfold val_main_v34
    exact Cert.HostRead.bcast_scalar bcast_S_S900000 _ _
  have h1 : val_main_v36 (F := Ideal) (ix1 e) = 100000#32 := by
    unfold val_main_v36
    exact Cert.HostRead.bcast_scalar bcast_S_S900000 _ _
  unfold val_main_v39
  refine (Cert.HostRead.bcast_col bcast_S900000_S900000x1_0 _ e 0).trans ?_
  show Scalar.select
      (IntOp.cmpi .slt (val_main_v3 (F := Ideal) x1 (ix1 e)) (val_main_v34 (F := Ideal) (ix1 e)))
      (IntOp.addi (val_main_v3 (F := Ideal) x1 (ix1 e)) (val_main_v36 (F := Ideal) (ix1 e)))
      (val_main_v3 (F := Ideal) x1 (ix1 e)) = _
  rw [h0, h1]
  rfl

/-- The row the gather reads in row e is the node source word e names. -/
theorem r1_rowOf_v39 (e : Fin 900000) :
    Cert.LibRowScatter.rowOf (by decide : 0 < 100000) (val_main_v39 (F := Ideal) x1) e
      = Spec.gRow (val_main_v3 (F := Ideal) x1 (ix1 e)) := by
  apply Fin.ext
  show min ((val_main_v39 (F := Ideal) x1) (ix2 e (0 : Fin 1))).toInt.toNat (100000 - 1)
    = min (Spec.wrapW (val_main_v3 (F := Ideal) x1 (ix1 e))).toInt.toNat (100000 - 1)
  rw [r1_v39_apply]

/-- The target-word column at (e, 0) is target word e. -/
theorem r1_v44_apply (e : Fin 900000) :
    val_main_v44 (F := Ideal) x1 (ix2 e (0 : Fin 1)) = val_main_v6 (F := Ideal) x1 (ix1 e) := by
  unfold val_main_v44
  exact Cert.HostRead.bcast_col bcast_S900000_S900000x1_0 _ e 0

/-- The scale column repeated across 256 columns: entry (e, k) is scale e. -/
theorem r1_v41_apply (e : Fin 900000) (k : Fin 256) :
    val_main_v41 (F := Ideal) x1 (ix2 e k) = val_main_v31 (F := Ideal) x1 (ix1 e) := by
  unfold val_main_v41 val_main_v33
  exact Cert.HostRead.bcast_vec_cols bcast_S900000_S900000x1_0 bcast_S900000x1_S900000x256_0_1 _ e k

/-- The edges of the longer list the scatter-add accumulates into node i. -/
theorem r1_filter_hitsX (hcols : ∀ e' : Fin 900000, val_main_v6 (F := Ideal) x1 (ix1 e') = SpecX.colsX x1 e')
    (i : Fin 100000) :
    Finset.univ.filter (fun e : Fin 900000 => (val_main_v44 (F := Ideal) x1 (ix2 e (0 : Fin 1))).toInt = (i.val : Int))
      = SpecX.hitsX x1 i := by
  unfold SpecX.hitsX
  refine Finset.filter_congr fun e _ => ?_
  rw [r1_v44_apply, hcols]

end Words

/-! ## The gather, the scatter-add, the splats and the bias -/

/-- The row gather at (e, k): row e is the product's row of the node source word e names. -/
theorem r1_v40_apply (x0 : (⟨S100000x256, .f32⟩ : BufTy).Contents (Elt Ideal))
    (x1 : (⟨S2x800000, .i32⟩ : BufTy).Contents (Elt Ideal)) (x2 : (⟨S256x256, .f32⟩ : BufTy).Contents (Elt Ideal))
    (e : Fin 900000) (k : Fin 256) :
    val_main_v40 (F := Ideal) x0 x1 x2 (ix2 e k)
      = val_main_v32 (F := Ideal) x0 x2 (ix2 (Spec.gRow (val_main_v3 (F := Ideal) x1 (ix1 e))) k) := by
  unfold val_main_v40
  refine (Cert.LibRowScatter.gather_rows_apply gather_S100000x256_S900000x1_S900000x256_1_0_n_n_0_1_1256
    rfl rfl rfl rfl rfl rfl rfl (by decide) _ (val_main_v39 (F := Ideal) x1) e k).trans ?_
  rw [r1_rowOf_v39]

/-- The row scatter-add at (i, k): the operand's entry plus the sum, over the update rows whose index word read
    signed is i, of the update's entry (e, k). -/
theorem r1_scatter_apply (X : FVec Ideal S100000x256 .f32) (idx : IVec S900000x1 32) (upd : FVec Ideal S900000x256 .f32)
    (i : Fin 100000) (k : Fin 256) :
    Host.scatterAdd scatter_S100000x256_S900000x1_S900000x256_1_0_0_1 X idx upd (ix2 i k)
      = X (ix2 i k)
        + ∑ e ∈ Finset.univ.filter (fun e : Fin 900000 => (idx (ix2 e (0 : Fin 1))).toInt = (i.val : Int)), upd (ix2 e k) :=
  Cert.LibRowScatter.hostScatterAdd_rows_apply scatter_S100000x256_S900000x1_S900000x256_1_0_0_1 rfl rfl rfl rfl
    X idx upd i k

/-- The zero splats read the zero word. -/
theorem r1_v43_apply (j : S100000x256.Idx) : val_main_v43 (F := Ideal) j = Spec.zero := by
  unfold val_main_v43
  exact Cert.HostRead.bcast_scalar bcast_S_S100000x256 _ j
theorem r1_relu_zero_apply (j : S100000x256.Idx) : val_main_call1_v0 (F := Ideal) j = Spec.zero := by
  unfold val_main_call1_v0
  exact Cert.HostRead.bcast_scalar bcast_S_S100000x256 _ j

/-- The bias laid as a row and repeated down the rows: entry (i, k) is entry k. -/
theorem r1_v47_apply (x3 : (⟨S256, .f32⟩ : BufTy).Contents (Elt Ideal)) (i : Fin 100000) (k : Fin 256) :
    val_main_v47 (F := Ideal) x3 (ix2 i k) = x3 (ix1 k) := by
  unfold val_main_v47 val_main_v46
  exact Cert.HostRead.bcast_vec_rows bcast_S256_S1x256_1 bcast_S1x256_S100000x256_0_1 x3 i k

/-! ## The layer -/

/-- The reference's hidden layer at (i, k), given the source words, the target words and the scales of the longer
    edge list. -/
theorem ref_layer1 (x0 : (⟨S100000x256, .f32⟩ : BufTy).Contents (Elt Ideal))
    (x1 : (⟨S2x800000, .i32⟩ : BufTy).Contents (Elt Ideal)) (x2 : (⟨S256x256, .f32⟩ : BufTy).Contents (Elt Ideal))
    (x3 : (⟨S256, .f32⟩ : BufTy).Contents (Elt Ideal))
    (hrows : ∀ e' : Fin 900000, val_main_v3 (F := Ideal) x1 (ix1 e') = SpecX.rowsX x1 e')
    (hcols : ∀ e' : Fin 900000, val_main_v6 (F := Ideal) x1 (ix1 e') = SpecX.colsX x1 e')
    (hnorm : ∀ e' : Fin 900000, val_main_v31 (F := Ideal) x1 (ix1 e') = SpecX.normX x1 e')
    (i : Fin 100000) (k : Fin 256) :
    val_main_v49 (F := Ideal) x0 x1 x2 x3 (ix2 i k) = SpecX.hidX x0 x1 x2 x3 i k := by
  unfold val_main_v49 val_main_v48
  refine (r1_shape _ _ _ _).trans ?_
  unfold SpecX.hidX SpecX.layerX
  refine congrArg₂ max (congrArg₂ (· + ·) ?_ (r1_v47_apply x3 i k)) (r1_relu_zero_apply _)
  unfold val_main_v45
  refine (r1_scatter_apply _ _ _ i k).trans ?_
  refine congrArg₂ (· + ·) (r1_v43_apply _) ?_
  refine Finset.sum_congr (r1_filter_hitsX x1 hcols i) fun e _ => ?_
  unfold val_main_v42
  refine (r1_mul_shape _ _ _).trans ?_
  refine congrArg₂ (· * ·) ((r1_v41_apply x1 e k).trans (hnorm e)) ?_
  refine (r1_v40_apply x0 x1 x2 e k).trans ?_
  rw [hrows e]
  exact r1_v32_apply x0 x2 _ k

end Cert.RefRead1

end
-- ==== Proof.RefLayer2.lean ====
/-
  The reference's second graph layer, entry by entry.

  The reference multiplies the hidden rows by the second weight (h W2), reads for every edge e' of the longer edge list
  the row of h W2 at the edge's source node — the source word wrapped if negative and clamped into the node range —,
  scales that row by the edge's scale, adds the scaled rows into zeros at the rows named by the target words (a word
  outside the node range drops its row), and adds the bias row. So entry (i, k) of the result is

      (0 + the sum over the edges e' whose target word, read signed, is i of scale e' * (h W2)(source e', k)) + b2 k,

  which is the layer in the reference's form applied to h W2. The earlier stages (the two word columns, the scale and
  the hidden rows) are hypotheses here.
-/
import proofs.«129196_j11553462026276_2_alg».proof.Proof.RefRead
import proofs.«129196_j11553462026276_2_alg».proof.Proof.SpecX
import proofs.«129196_j11553462026276_2_alg».proof.Proof.LibRowScatter
import proofs.«129196_j11553462026276_2_alg».proof.Proof.HostRead

noncomputable section

namespace Cert.RefRead2

open Cert.ReferenceIdeal Cert.ReferenceIdeal.Read Idealize.ShloMosaic Idealize.ShloMosaic.ValueIdx

variable (x0 : (⟨S100000x256, .f32⟩ : BufTy).Contents (Elt Ideal)) (x1 : (⟨S2x800000, .i32⟩ : BufTy).Contents (Elt Ideal))
  (x2 : (⟨S256x256, .f32⟩ : BufTy).Contents (Elt Ideal)) (x3 : (⟨S256, .f32⟩ : BufTy).Contents (Elt Ideal))
  (x4 : (⟨S256x128, .f32⟩ : BufTy).Contents (Elt Ideal)) (x5 : (⟨S128, .f32⟩ : BufTy).Contents (Elt Ideal))

/-- The bias row repeated down the rows: entry (i, k) is b2 k. -/
theorem bias_apply (i : Fin 100000) (k : Fin 128) : val_main_v65 (F := Ideal) x5 (ix2 i k) = x5 (ix1 k) := by
  rw [val_main_v65_apply, val_main_v64_apply]
  exact congrArg x5 (funext fun a => Fin.ext (by match a with | ⟨0, _⟩ => rfl))

/-- The array the rows are added into is zero everywhere. -/
theorem zeros_apply (i : Fin 100000) (k : Fin 128) : val_main_v61 (F := Ideal) (ix2 i k) = Cert.Spec.zero := by
  rw [val_main_v61_apply]
  rfl

/-- The column of target words: entry (e', 0) is the target word of edge e'. -/
theorem tgt_col_apply (hcols : ∀ e' : Fin 900000, val_main_v6 (F := Ideal) x1 (ix1 e') = SpecX.colsX x1 e')
    (e : Fin 900000) : val_main_v62 (F := Ideal) x1 (ix2 e (0 : Fin 1)) = SpecX.colsX x1 e := by
  rw [val_main_v62_apply, ← hcols e]
  exact congrArg _ (funext fun a => Fin.ext (by match a with | ⟨0, _⟩ => rfl))

/-- The scale repeated across the columns: entry (e', k) is the scale of edge e'. -/
theorem scale_apply (hnorm : ∀ e' : Fin 900000, val_main_v31 (F := Ideal) x1 (ix1 e') = SpecX.normX x1 e')
    (e : Fin 900000) (k : Fin 128) : val_main_v59 (F := Ideal) x1 (ix2 e k) = SpecX.normX x1 e := by
  rw [val_main_v59_apply, val_main_v51_apply, ← hnorm e]
  exact congrArg _ (funext fun a => Fin.ext (by match a with | ⟨0, _⟩ => rfl))

/-- The column of wrapped source words: entry (e', 0) is the source word of edge e', 100000 added if it is negative. -/
theorem src_col_apply (hrows : ∀ e' : Fin 900000, val_main_v3 (F := Ideal) x1 (ix1 e') = SpecX.rowsX x1 e')
    (e : Fin 900000) : val_main_v57 (F := Ideal) x1 (ix2 e (0 : Fin 1)) = Cert.Spec.wrapW (SpecX.rowsX x1 e) := by
  have hi : idx_main_v57 (ix2 e (0 : Fin 1)) = ix1 e := funext fun a => Fin.ext (by match a with | ⟨0, _⟩ => rfl)
  rw [val_main_v57_apply, hi, val_main_v56_apply, val_main_v53_apply, val_main_v55_apply, val_main_v52_apply,
    val_main_v54_apply, hrows e]
  rfl

/-- The row a gather through the wrapped source word reads: the node the source word names for a read. -/
theorem src_row (hrows : ∀ e' : Fin 900000, val_main_v3 (F := Ideal) x1 (ix1 e') = SpecX.rowsX x1 e') (e : Fin 900000) :
    Cert.LibRowScatter.rowOf (N := 100000) (by decide) (val_main_v57 (F := Ideal) x1) e = Cert.Spec.gRow (SpecX.rowsX x1 e) :=
  Fin.ext (by rw [Cert.LibRowScatter.rowOf_val, src_col_apply x1 hrows e]; rfl)

/-- h W2 at entry (r, k), from the hidden rows. -/
theorem hw2_apply
    (hhid : ∀ (i : Fin 100000) (k : Fin 256), val_main_v49 (F := Ideal) x0 x1 x2 x3 (ix2 i k) = SpecX.hidX x0 x1 x2 x3 i k)
    (r : Fin 100000) (k : Fin 128) :
    val_main_v50 (F := Ideal) x0 x1 x2 x3 x4 (ix2 r k) = SpecX.xw2X x0 x1 x2 x3 x4 r k := by
  rw [val_main_v50_apply]
  unfold SpecX.xw2X
  refine Finset.sum_congr rfl fun j _ => ?_
  rw [← hhid r j]
  exact congrArg₂ (fun a b : EReal => a * b)
    (congrArg _ (funext fun a => Fin.ext (by match a with | ⟨0, _⟩ => rfl | ⟨1, _⟩ => rfl)))
    (congrArg _ (funext fun a => Fin.ext (by match a with | ⟨0, _⟩ => rfl | ⟨1, _⟩ => rfl)))

/-- The gathered rows: entry (e', k) is h W2 at the source node of edge e'. -/
theorem gathered_apply (hrows : ∀ e' : Fin 900000, val_main_v3 (F := Ideal) x1 (ix1 e') = SpecX.rowsX x1 e')
    (hhid : ∀ (i : Fin 100000) (k : Fin 256), val_main_v49 (F := Ideal) x0 x1 x2 x3 (ix2 i k) = SpecX.hidX x0 x1 x2 x3 i k)
    (e : Fin 900000) (k : Fin 128) :
    val_main_v58 (F := Ideal) x0 x1 x2 x3 x4 (ix2 e k)
      = SpecX.xw2X x0 x1 x2 x3 x4 (Cert.Spec.gRow (SpecX.rowsX x1 e)) k := by
  unfold val_main_v58
  refine (Cert.LibRowScatter.gather_rows_apply (N := 100000) (E := 900000) (C := 128)
    gather_S100000x128_S900000x1_S900000x128_1_0_n_n_0_1_1128 rfl rfl rfl rfl rfl rfl rfl (by decide) _ _ e k).trans ?_
  rw [src_row x1 hrows e]
  exact hw2_apply x0 x1 x2 x3 x4 hhid _ k

/-- A row scatter-add into an array read at (n, c), with its three ingredients named: the operand's entry there is z,
    the update rows whose index word read signed is n are the rows in S, and the update's entry (e, c) is f e. Then
    the result's entry is z plus the sum of f over S. Stated for any sizes. -/
theorem scatterAdd_rows_eq {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : FVec Ideal ⟨2, ![N, C]⟩ .f32) (idx : IVec ⟨2, ![E, 1]⟩ w) (upd : FVec Ideal ⟨2, ![E, C]⟩ .f32)
    (n : Fin N) (c : Fin C) (z : EReal) (S : Finset (Fin E)) (f : Fin E → EReal)
    (hz : x (ix2 n c) = z)
    (hS : ∀ e : Fin E, e ∈ S ↔ (idx (ix2 e (0 : Fin 1))).toInt = (n.val : Int))
    (hf : ∀ e : Fin E, upd (ix2 e c) = f e) :
    (Host.scatterAdd (F := Ideal) d x idx upd (ix2 n c) : EReal) = z + ∑ e ∈ S, f e :=
  (Cert.LibRowScatter.hostScatterAdd_rows_apply d huw hiw hsd hiv x idx upd n c).trans
    (congrArg₂ (fun a b : EReal => a + b) hz
      (Finset.sum_congr
        (Finset.ext fun e => (Finset.mem_filter.trans (and_iff_right (Finset.mem_univ e))).trans (hS e).symm)
        fun e _ => hf e))

/-- The scaled rows added into zeros: entry (i, k) is zero plus the sum, over the edges e' whose target word read signed
    is i, of the scale of e' times h W2 at the source node of e'. -/
theorem scattered_apply
    (hrows : ∀ e' : Fin 900000, val_main_v3 (F := Ideal) x1 (ix1 e') = SpecX.rowsX x1 e')
    (hcols : ∀ e' : Fin 900000, val_main_v6 (F := Ideal) x1 (ix1 e') = SpecX.colsX x1 e')
    (hnorm : ∀ e' : Fin 900000, val_main_v31 (F := Ideal) x1 (ix1 e') = SpecX.normX x1 e')
    (hhid : ∀ (i : Fin 100000) (k : Fin 256), val_main_v49 (F := Ideal) x0 x1 x2 x3 (ix2 i k) = SpecX.hidX x0 x1 x2 x3 i k)
    (i : Fin 100000) (k : Fin 128) :
    (val_main_v63 (F := Ideal) x0 x1 x2 x3 x4 (ix2 i k) : EReal)
      = Cert.Spec.zero + ∑ e' ∈ SpecX.hitsX x1 i,
          SpecX.normX x1 e' * SpecX.xw2X x0 x1 x2 x3 x4 (Cert.Spec.gRow (SpecX.rowsX x1 e')) k := by
  have h60 : ∀ e : Fin 900000, (val_main_v60 (F := Ideal) x0 x1 x2 x3 x4 (ix2 e k) : EReal)
      = SpecX.normX x1 e * SpecX.xw2X x0 x1 x2 x3 x4 (Cert.Spec.gRow (SpecX.rowsX x1 e)) k := fun e => by
    rw [val_main_v60_apply]
    exact congrArg₂ (fun a b : EReal => a * b) (scale_apply x1 hnorm e k) (gathered_apply x0 x1 x2 x3 x4 hrows hhid e k)
  have hS : ∀ e : Fin 900000, e ∈ SpecX.hitsX x1 i
      ↔ (val_main_v62 (F := Ideal) x1 (ix2 e (0 : Fin 1))).toInt = (i.val : Int) := fun e => by
    rw [tgt_col_apply x1 hcols e]
    exact Finset.mem_filter.trans (and_iff_right (Finset.mem_univ e))
  unfold val_main_v63
  exact scatterAdd_rows_eq scatter_S100000x128_S900000x1_S900000x128_1_0_0_1 rfl rfl rfl rfl _ _ _ i k _ _ _
    (zeros_apply i k) hS h60

/-- THE SECOND LAYER of the reference at entry (i, k): the layer in the reference's form applied to h W2. -/
theorem ref_layer2
    (hrows : ∀ e' : Fin 900000, val_main_v3 (F := Ideal) x1 (ix1 e') = SpecX.rowsX x1 e')
    (hcols : ∀ e' : Fin 900000, val_main_v6 (F := Ideal) x1 (ix1 e') = SpecX.colsX x1 e')
    (hnorm : ∀ e' : Fin 900000, val_main_v31 (F := Ideal) x1 (ix1 e') = SpecX.normX x1 e')
    (hhid : ∀ (i : Fin 100000) (k : Fin 256), val_main_v49 (F := Ideal) x0 x1 x2 x3 (ix2 i k) = SpecX.hidX x0 x1 x2 x3 i k)
    (i : Fin 100000) (k : Fin 128) :
    val_main_v66 (F := Ideal) x0 x1 x2 x3 x4 x5 (ix2 i k) = SpecX.featX x0 x1 x2 x3 x4 x5 i k := by
  rw [val_main_v66_apply]
  show (val_main_v63 (F := Ideal) x0 x1 x2 x3 x4 (ix2 i k) : EReal) + (val_main_v65 (F := Ideal) x5 (ix2 i k) : EReal)
    = (Cert.Spec.zero + ∑ e' ∈ SpecX.hitsX x1 i,
        SpecX.normX x1 e' * SpecX.xw2X x0 x1 x2 x3 x4 (Cert.Spec.gRow (SpecX.rowsX x1 e')) k) + x5 (ix1 k)
  rw [bias_apply x5 i k, scattered_apply x0 x1 x2 x3 x4 hrows hcols hnorm hhid i k]

end Cert.RefRead2

end
-- ==== Proof.RefHead.lean ====
/-
  The reference's edge head and class scores, read entry by entry from the node features.

  The node features are an array of 100000 rows of 128 entries; here they are an arbitrary such array, never opened.

  The class scores: entry (i, k) is the product of feature row i with column k of the [128, 40] weight, plus the bias.

  The edge head: an edge e has a source word and a target word (rows 0 and 1 of the edge array). Each word is wrapped
  (100000 is added to a negative word) and names, after the clamp into [0, 99999], a feature row. The two rows are laid
  side by side (256 entries), multiplied with the [256, 256] weight, a bias row is added, the result is clamped at zero
  from below, multiplied with the [256, 128] weight, and a second bias row is added.
-/
import proofs.«129196_j11553462026276_2_alg».proof.Proof.RefRead
import proofs.«129196_j11553462026276_2_alg».proof.Proof.SpecX
import proofs.«129196_j11553462026276_2_alg».proof.Proof.LibRowScatter

noncomputable section

namespace Cert.RefRead

open Cert.ReferenceIdeal Cert.ReferenceIdeal.Gen Idealize.ShloMosaic Idealize.ShloMosaic.ValueIdx
  Idealize.ShloMosaic.TcCoe Idealize.SL.Sem

/-! ## The class scores -/

/-- Entry (i, k) of the class scores: feature row i times column k of the weight, plus the bias. -/
theorem ref_logit_of_feat (x0 : (⟨S100000x256, .f32⟩ : BufTy).Contents (Elt Ideal))
    (x1 : (⟨S2x800000, .i32⟩ : BufTy).Contents (Elt Ideal)) (x2 : (⟨S256x256, .f32⟩ : BufTy).Contents (Elt Ideal))
    (x3 : (⟨S256, .f32⟩ : BufTy).Contents (Elt Ideal)) (x4 : (⟨S256x128, .f32⟩ : BufTy).Contents (Elt Ideal))
    (x5 : (⟨S128, .f32⟩ : BufTy).Contents (Elt Ideal)) (x10 : (⟨S128x40, .f32⟩ : BufTy).Contents (Elt Ideal))
    (x11 : (⟨S40, .f32⟩ : BufTy).Contents (Elt Ideal)) (i : Fin 100000) (k : Fin 40) :
    Read.val_main_v98 (F := Ideal) x0 x1 x2 x3 x4 x5 x10 x11 (ix2 i k)
      = (∑ q : Fin 128, Read.val_main_v66 (F := Ideal) x0 x1 x2 x3 x4 x5 (ix2 i q) * x10 (ix2 q k)) + x11 (ix1 k) := by
  rw [Read.val_main_v98_apply, Read.val_main_v95_apply, Read.val_main_v97_apply, Read.val_main_v96_apply]
  generalize Read.val_main_v66 (F := Ideal) x0 x1 x2 x3 x4 x5 = f
  have hl : ∀ q : Fin 128, Read.lidx_main_v95 (ix2 i k) q = ix2 i q := fun q => funext fun a => by
    match a with
    | ⟨0, _⟩ => rfl
    | ⟨1, _⟩ => rfl
  have hr : ∀ q : Fin 128, Read.ridx_main_v95 (ix2 i k) q = ix2 q k := fun q => funext fun a => by
    match a with
    | ⟨0, _⟩ => rfl
    | ⟨1, _⟩ => rfl
  have hb : Read.idx_main_v96 (Read.idx_main_v97 (ix2 i k)) = ix1 k := funext fun a => by
    match a with
    | ⟨0, _⟩ => rfl
  simp only [hl, hr, hb]
  rfl

/-! ## The edge head -/

namespace Head

/-- The column of words the first row gather reads: at edge e the wrapped source word. -/
theorem wrapped_src (x1 : (⟨S2x800000, .i32⟩ : BufTy).Contents (Elt Ideal)) (e : Fin 800000) :
    Read.val_main_v76 (F := Ideal) x1 (ix2 e (0 : Fin 1)) = Spec.wrapW (Spec.rowW x1 e) := by
  rw [Read.val_main_v76_apply, Read.val_main_v75_apply, Read.val_main_v72_apply, Read.val_main_v74_apply,
    Read.val_main_v71_apply, Read.val_main_v73_apply, Read.val_main_c_13_apply, Read.val_main_c_14_apply,
    Read.val_main_v68_apply, Read.val_main_v67_apply]
  have h : Read.idx_main_v67 (Read.idx_main_v68 (Read.idx_main_v76 (ix2 e (0 : Fin 1)))) = ix2 (0 : Fin 2) e :=
    funext fun a => Fin.ext (by
      match a with
      | ⟨0, _⟩ => rfl
      | ⟨1, _⟩ => exact Nat.mod_eq_of_lt e.isLt)
  rw [h]
  rfl

/-- The column of words the second row gather reads: at edge e the wrapped target word. -/
theorem wrapped_tgt (x1 : (⟨S2x800000, .i32⟩ : BufTy).Contents (Elt Ideal)) (e : Fin 800000) :
    Read.val_main_v83 (F := Ideal) x1 (ix2 e (0 : Fin 1)) = Spec.wrapW (Spec.colW x1 e) := by
  rw [Read.val_main_v83_apply, Read.val_main_v82_apply, Read.val_main_v79_apply, Read.val_main_v81_apply,
    Read.val_main_v78_apply, Read.val_main_v80_apply, Read.val_main_c_15_apply, Read.val_main_c_16_apply,
    Read.val_main_v70_apply, Read.val_main_v69_apply]
  have h : Read.idx_main_v69 (Read.idx_main_v70 (Read.idx_main_v83 (ix2 e (0 : Fin 1)))) = ix2 (1 : Fin 2) e :=
    funext fun a => Fin.ext (by
      match a with
      | ⟨0, _⟩ => rfl
      | ⟨1, _⟩ => exact Nat.mod_eq_of_lt e.isLt)
  rw [h]
  rfl

/-- The row the first gather reads for edge e is the node the source word names. -/
theorem row_src (x1 : (⟨S2x800000, .i32⟩ : BufTy).Contents (Elt Ideal)) (e : Fin 800000) :
    LibRowScatter.rowOf (N := 100000) (by omega) (Read.val_main_v76 (F := Ideal) x1) e = Spec.src x1 e :=
  Fin.ext (by rw [LibRowScatter.rowOf_val, wrapped_src]; rfl)

/-- The row the second gather reads for edge e is the node the target word names. -/
theorem row_tgt (x1 : (⟨S2x800000, .i32⟩ : BufTy).Contents (Elt Ideal)) (e : Fin 800000) :
    LibRowScatter.rowOf (N := 100000) (by omega) (Read.val_main_v83 (F := Ideal) x1) e = Spec.tgt x1 e :=
  Fin.ext (by rw [LibRowScatter.rowOf_val, wrapped_tgt]; rfl)

/-- Row e of the first gathered array is the feature row of edge e's source node. -/
theorem gathered_src (x0 : (⟨S100000x256, .f32⟩ : BufTy).Contents (Elt Ideal))
    (x1 : (⟨S2x800000, .i32⟩ : BufTy).Contents (Elt Ideal)) (x2 : (⟨S256x256, .f32⟩ : BufTy).Contents (Elt Ideal))
    (x3 : (⟨S256, .f32⟩ : BufTy).Contents (Elt Ideal)) (x4 : (⟨S256x128, .f32⟩ : BufTy).Contents (Elt Ideal))
    (x5 : (⟨S128, .f32⟩ : BufTy).Contents (Elt Ideal)) (e : Fin 800000) (r : Fin 128) :
    Read.val_main_v77 (F := Ideal) x0 x1 x2 x3 x4 x5 (ix2 e r)
      = Read.val_main_v66 (F := Ideal) x0 x1 x2 x3 x4 x5 (ix2 (Spec.src x1 e) r) := by
  unfold Read.val_main_v77
  generalize Read.val_main_v66 (F := Ideal) x0 x1 x2 x3 x4 x5 = f
  refine (LibRowScatter.gather_rows_apply (N := 100000) (E := 800000) (C := 128) (w := 32)
    gather_S100000x128_S800000x1_S800000x128_1_0_n_n_0_1_1128 rfl rfl rfl rfl rfl rfl rfl (by omega) f
    (Read.val_main_v76 (F := Ideal) x1) e r).trans ?_
  rw [row_src]

/-- Row e of the second gathered array is the feature row of edge e's target node. -/
theorem gathered_tgt (x0 : (⟨S100000x256, .f32⟩ : BufTy).Contents (Elt Ideal))
    (x1 : (⟨S2x800000, .i32⟩ : BufTy).Contents (Elt Ideal)) (x2 : (⟨S256x256, .f32⟩ : BufTy).Contents (Elt Ideal))
    (x3 : (⟨S256, .f32⟩ : BufTy).Contents (Elt Ideal)) (x4 : (⟨S256x128, .f32⟩ : BufTy).Contents (Elt Ideal))
    (x5 : (⟨S128, .f32⟩ : BufTy).Contents (Elt Ideal)) (e : Fin 800000) (r : Fin 128) :
    Read.val_main_v84 (F := Ideal) x0 x1 x2 x3 x4 x5 (ix2 e r)
      = Read.val_main_v66 (F := Ideal) x0 x1 x2 x3 x4 x5 (ix2 (Spec.tgt x1 e) r) := by
  unfold Read.val_main_v84
  generalize Read.val_main_v66 (F := Ideal) x0 x1 x2 x3 x4 x5 = f
  refine (LibRowScatter.gather_rows_apply (N := 100000) (E := 800000) (C := 128) (w := 32)
    gather_S100000x128_S800000x1_S800000x128_1_0_n_n_0_1_1128 rfl rfl rfl rfl rfl rfl rfl (by omega) f
    (Read.val_main_v83 (F := Ideal) x1) e r).trans ?_
  rw [row_tgt]

/-- Row e of the concatenated array is the two gathered rows of edge e side by side. -/
theorem side_by_side (x0 : (⟨S100000x256, .f32⟩ : BufTy).Contents (Elt Ideal))
    (x1 : (⟨S2x800000, .i32⟩ : BufTy).Contents (Elt Ideal)) (x2 : (⟨S256x256, .f32⟩ : BufTy).Contents (Elt Ideal))
    (x3 : (⟨S256, .f32⟩ : BufTy).Contents (Elt Ideal)) (x4 : (⟨S256x128, .f32⟩ : BufTy).Contents (Elt Ideal))
    (x5 : (⟨S128, .f32⟩ : BufTy).Contents (Elt Ideal)) (e : Fin 800000) (p : Fin 256) :
    Read.val_main_v85 (F := Ideal) x0 x1 x2 x3 x4 x5 (ix2 e p)
      = SpecX.sideBySide (fun r => Read.val_main_v77 (F := Ideal) x0 x1 x2 x3 x4 x5 (ix2 e r))
          (fun r => Read.val_main_v84 (F := Ideal) x0 x1 x2 x3 x4 x5 (ix2 e r)) p := by
  unfold Read.val_main_v85 SpecX.sideBySide
  generalize Read.val_main_v77 (F := Ideal) x0 x1 x2 x3 x4 x5 = a
  generalize Read.val_main_v84 (F := Ideal) x0 x1 x2 x3 x4 x5 = b
  by_cases h : p.val < 128
  · rw [dif_pos h]
    exact concatenate_pair_apply_left (t := S800000x256) (s₁ := S800000x128) (s₂ := S800000x128) (1 : Fin 2) a b
      concatenates_S800000x128_S800000x128_S800000x256_d1 (ix2 e p) rfl (ix2 e (⟨p.val, h⟩ : Fin 128)) (by
        intro c
        match c with
        | ⟨0, _⟩ => rfl
        | ⟨1, _⟩ => rfl)
  · rw [dif_neg h]
    exact concatenate_pair_apply_right (t := S800000x256) (s₁ := S800000x128) (s₂ := S800000x128) (1 : Fin 2) a b
      concatenates_S800000x128_S800000x128_S800000x256_d1 (ix2 e p) rfl rfl (ix2 e (⟨p.val - 128, by omega⟩ : Fin 128)) (by
        intro c hc
        match c with
        | ⟨0, _⟩ => rfl
        | ⟨1, _⟩ => exact absurd rfl hc) (by
        show p.val - 128 + 128 = p.val
        omega)

/-- Entry (e, q) of the hidden array: row e of the concatenated array times column q of the first weight, plus the
    bias, clamped at zero from below. -/
theorem hidden_apply (x0 : (⟨S100000x256, .f32⟩ : BufTy).Contents (Elt Ideal))
    (x1 : (⟨S2x800000, .i32⟩ : BufTy).Contents (Elt Ideal)) (x2 : (⟨S256x256, .f32⟩ : BufTy).Contents (Elt Ideal))
    (x3 : (⟨S256, .f32⟩ : BufTy).Contents (Elt Ideal)) (x4 : (⟨S256x128, .f32⟩ : BufTy).Contents (Elt Ideal))
    (x5 : (⟨S128, .f32⟩ : BufTy).Contents (Elt Ideal))
    (x6 : (⟨S256x256, .f32⟩ : BufTy).Contents (Elt Ideal)) (x7 : (⟨S256, .f32⟩ : BufTy).Contents (Elt Ideal)) (e : Fin 800000) (q : Fin 256) :
    Read.val_main_v90 (F := Ideal) x0 x1 x2 x3 x4 x5 x6 x7 (ix2 e q)
      = max ((∑ p : Fin 256, Read.val_main_v85 (F := Ideal) x0 x1 x2 x3 x4 x5 (ix2 e p) * x6 (ix2 p q)) + x7 (ix1 q))
          Spec.zero := by
  rw [Read.val_main_v90_apply, Read.val_main_v89_apply, Read.val_main_v86_apply, Read.val_main_v88_apply,
    Read.val_main_v87_apply, Read.val_main_call2_v0_apply, Read.val_main_call2_cst_apply]
  generalize Read.val_main_v85 (F := Ideal) x0 x1 x2 x3 x4 x5 = y
  have hl : ∀ p : Fin 256, Read.lidx_main_v86 (ix2 e q) p = ix2 e p := fun p => funext fun a => by
    match a with
    | ⟨0, _⟩ => rfl
    | ⟨1, _⟩ => rfl
  have hr : ∀ p : Fin 256, Read.ridx_main_v86 (ix2 e q) p = ix2 p q := fun p => funext fun a => by
    match a with
    | ⟨0, _⟩ => rfl
    | ⟨1, _⟩ => rfl
  have hb : Read.idx_main_v87 (Read.idx_main_v88 (ix2 e q)) = ix1 q := funext fun a => by
    match a with
    | ⟨0, _⟩ => rfl
  simp only [hl, hr, hb]
  rfl

end Head

open Head in
/-- Entry (e, k) of the edge head, from the feature rows of edge e's two nodes. -/
theorem ref_edge_of_feat (x0 : (⟨S100000x256, .f32⟩ : BufTy).Contents (Elt Ideal))
    (x1 : (⟨S2x800000, .i32⟩ : BufTy).Contents (Elt Ideal)) (x2 : (⟨S256x256, .f32⟩ : BufTy).Contents (Elt Ideal))
    (x3 : (⟨S256, .f32⟩ : BufTy).Contents (Elt Ideal)) (x4 : (⟨S256x128, .f32⟩ : BufTy).Contents (Elt Ideal))
    (x5 : (⟨S128, .f32⟩ : BufTy).Contents (Elt Ideal))
    (x6 : (⟨S256x256, .f32⟩ : BufTy).Contents (Elt Ideal)) (x7 : (⟨S256, .f32⟩ : BufTy).Contents (Elt Ideal))
    (x8 : (⟨S256x128, .f32⟩ : BufTy).Contents (Elt Ideal)) (x9 : (⟨S128, .f32⟩ : BufTy).Contents (Elt Ideal)) (e : Fin 800000) (k : Fin 128) :
    Read.val_main_v94 (F := Ideal) x0 x1 x2 x3 x4 x5 x6 x7 x8 x9 (ix2 e k)
      = SpecX.mlpRowX x6 x7 x8 x9
          (fun p => Read.val_main_v66 (F := Ideal) x0 x1 x2 x3 x4 x5 (ix2 (Spec.src x1 e) p))
          (fun p => Read.val_main_v66 (F := Ideal) x0 x1 x2 x3 x4 x5 (ix2 (Spec.tgt x1 e) p)) k := by
  rw [Read.val_main_v94_apply, Read.val_main_v91_apply, Read.val_main_v93_apply, Read.val_main_v92_apply]
  have hl : ∀ q : Fin 256, Read.lidx_main_v91 (ix2 e k) q = ix2 e q := fun q => funext fun a => by
    match a with
    | ⟨0, _⟩ => rfl
    | ⟨1, _⟩ => rfl
  have hr : ∀ q : Fin 256, Read.ridx_main_v91 (ix2 e k) q = ix2 q k := fun q => funext fun a => by
    match a with
    | ⟨0, _⟩ => rfl
    | ⟨1, _⟩ => rfl
  have hb : Read.idx_main_v92 (Read.idx_main_v93 (ix2 e k)) = ix1 k := funext fun a => by
    match a with
    | ⟨0, _⟩ => rfl
  simp only [hl, hr, hb, hidden_apply, side_by_side, gathered_src, gathered_tgt]
  generalize Read.val_main_v66 (F := Ideal) x0 x1 x2 x3 x4 x5 = f
  unfold SpecX.mlpRowX
  rfl

end Cert.RefRead

end
-- ==== Proof.LibERealSum.lean ====
/-
  A finite sum of extended reals times a finite factor that is not negative.

  Multiplication on the extended reals does not distribute over addition in general (`⊤ + ⊥` is `⊥`, and a
  product with `0` is `0`).  It does when the common factor `D` is finite and not negative: `D = 0` makes both
  sides `0`, and a positive real `D` keeps every infinity an infinity of the same sign, so
  `(y + z) * D = y * D + z * D` whatever `y` and `z` are.  By induction on the finite index set,
  `(∑ e ∈ S, a e) * D = ∑ e ∈ S, a e * D` whatever the summands `a e` are; likewise with `D` on the left.
-/
import Mathlib.Data.EReal.Operations
import Mathlib.Algebra.BigOperators.Group.Finset.Basic

namespace Cert.LibERealSum

/-- A finite sum of extended reals may be multiplied through, on the right, by a finite factor that is not negative,
    whatever the summands are. -/
theorem sum_mul_of_nonneg_of_ne_top {ι : Type*} (S : Finset ι) (a : ι → EReal) {D : EReal} (h0 : 0 ≤ D)
    (hT : D ≠ ⊤) : (∑ e ∈ S, a e) * D = ∑ e ∈ S, a e * D := by
  classical
  induction S using Finset.induction_on with
  | empty => simp
  | insert e S he ih =>
    rw [Finset.sum_insert he, Finset.sum_insert he, EReal.right_distrib_of_nonneg_of_ne_top h0 hT, ih]

/-- The same with the factor on the left. -/
theorem mul_sum_of_nonneg_of_ne_top {ι : Type*} (S : Finset ι) (a : ι → EReal) {D : EReal} (h0 : 0 ≤ D)
    (hT : D ≠ ⊤) : D * ∑ e ∈ S, a e = ∑ e ∈ S, D * a e := by
  rw [EReal.mul_comm, sum_mul_of_nonneg_of_ne_top S a h0 hT]
  exact Finset.sum_congr rfl fun e _ => EReal.mul_comm _ _

end Cert.LibERealSum
-- ==== Proof.Bridge.lean ====
/-
  The algebra that joins the two forms of the graph encoder, over the extended reals.

  The reference's form runs every accumulation over 900000 edges: the 800000 given ones, then one loop (k, k) per
  node. A sum over the edges of that longer list whose target word, read signed, is i splits into the sum over the
  given edges into i and the one loop of node i (the loop word of node k is k itself, and k < 100000 < 2^31).
  Every edge into i reads node i through its target word, so every term of the reference's layer carries the
  factor dinv i; that factor is finite and not negative, so it may be taken out of the sum although multiplication
  does not distribute over addition on the extended reals in general.
-/
import proofs.«129196_j11553462026276_2_alg».proof.Proof.SpecX
import proofs.«129196_j11553462026276_2_alg».proof.Proof.LibERealSum
import Idealize.ShloMosaic.Lib.IdealHost
import Mathlib.Algebra.BigOperators.Fin

noncomputable section

namespace Cert.Bridge

open Idealize.ShloMosaic Idealize.ShloMosaic.ValueIdx Cert.Spec Cert.SpecX

/-! ## The two constants -/

/-- The word 0.0 is the extended real 0. -/
theorem zero_eq : Spec.zero = 0 := Ideal.ofBits_zero_f32

/-- The word 1.0 is the extended real 1. -/
theorem one_eq : Spec.one = 1 := Ideal.ofBits_one_f32

/-! ## The edge head: a sum over 256 entries side by side is the sum over each half -/

/-- A sum over the 256 entries of two rows laid side by side, each entry times a weight, is the sum over the first
    row against the first 128 weights plus the sum over the second row against the last 128. -/
theorem sum_sideBySide (fr fc : Fin 128 → EReal) (g : Fin 256 → EReal) :
    ∑ p : Fin 256, sideBySide fr fc p * g p
      = (∑ p : Fin 128, fr p * g (⟨p.val, by omega⟩ : Fin 256))
        + ∑ p : Fin 128, fc p * g (⟨128 + p.val, by omega⟩ : Fin 256) := by
  refine (Fin.sum_univ_add (a := 128) (b := 128) (fun p : Fin 256 => sideBySide fr fc p * g p)).trans ?_
  refine congrArg₂ (· + ·) ?_ ?_
  · refine Finset.sum_congr rfl fun p _ => ?_
    have h : sideBySide fr fc (Fin.castAdd 128 p) = fr p := by
      unfold sideBySide
      rw [dif_pos (show (Fin.castAdd 128 p).val < 128 from p.isLt)]
      rfl
    rw [h]; rfl
  · refine Finset.sum_congr rfl fun p _ => ?_
    have h : sideBySide fr fc (Fin.natAdd 128 p) = fc p := by
      unfold sideBySide
      rw [dif_neg (show ¬ (Fin.natAdd 128 p).val < 128 by simp)]
      exact congrArg fc (Fin.ext (by simp))
    rw [h]; rfl

theorem mlpRowX_eq (Wp1 : (⟨2, ![256, 256]⟩ : Shape).Idx → EReal) (bp1 : (⟨1, ![256]⟩ : Shape).Idx → EReal)
    (Wp2 : (⟨2, ![256, 128]⟩ : Shape).Idx → EReal) (bp2 : (⟨1, ![128]⟩ : Shape).Idx → EReal)
    (fr fc : Fin 128 → EReal) (k : Fin 128) :
    SpecX.mlpRowX Wp1 bp1 Wp2 bp2 fr fc k = Spec.mlpRow Wp1 bp1 Wp2 bp2 fr fc k := by
  unfold SpecX.mlpRowX Spec.mlpRow
  refine congrArg (· + bp2 (ix1 k)) (Finset.sum_congr rfl fun q _ => ?_)
  rw [sum_sideBySide fr fc (fun p => Wp1 (ix2 p q))]

/-! ## Index words -/

/-- The word of a node number k < 100000, read signed, is k. -/
theorem toInt_ofNat_node (k : Nat) (hk : k < 100000) : (BitVec.ofNat 32 k).toInt = (k : Int) := by
  have h1 : (BitVec.ofNat 32 k).toNat = k := by
    rw [BitVec.toNat_ofNat]; exact Nat.mod_eq_of_lt (by omega)
  rw [BitVec.toInt_eq_toNat_of_lt (by rw [h1]; omega), h1]

/-- A word that, read signed, is the number of node i names node i for a read: it is not negative, so it is not
    wrapped, and it is already inside [0, 99999]. -/
theorem gRow_of_toInt {w : BitVec 32} {i : Fin 100000} (h : w.toInt = (i.val : Int)) : gRow w = i := by
  have hs : w.slt 0#32 = false := by
    rw [BitVec.slt_eq_decide, h, BitVec.toInt_zero]
    exact decide_eq_false (by omega)
  have hw : wrapW w = w := by
    show Scalar.select (BitVec.ofBool (w.slt 0#32)) _ _ = w
    rw [hs]
    exact select_zero _ _
  unfold gRow
  rw [hw]
  apply Fin.ext
  show min w.toInt.toNat (100000 - 1) = i.val
  rw [h]
  have := i.isLt
  omega

/-- The loop word of node k names node k for a read. -/
theorem gRow_ofNat_node (k : Fin 100000) : gRow (BitVec.ofNat 32 k.val) = k :=
  gRow_of_toInt (toInt_ofNat_node k.val k.isLt)

/-! ## The longer edge list: the given edges, then the loops -/

/-- A filtered sum over the first a + b numbers is the filtered sum over the first a plus the filtered sum over the
    last b. -/
theorem sum_filter_fin_add {a b : Nat} (P : Fin (a + b) → Prop) [DecidablePred P] (F : Fin (a + b) → EReal) :
    ∑ e' ∈ Finset.univ.filter P, F e'
      = (∑ e ∈ (Finset.univ : Finset (Fin a)).filter (fun e => P (Fin.castAdd b e)), F (Fin.castAdd b e))
        + ∑ k ∈ (Finset.univ : Finset (Fin b)).filter (fun k => P (Fin.natAdd a k)), F (Fin.natAdd a k) := by
  rw [Finset.sum_filter, Finset.sum_filter, Finset.sum_filter, Fin.sum_univ_add]

/-- The given edge e as an edge of the longer list, and the loop of node k in it. -/
def given (e : Fin 800000) : Fin 900000 := ⟨e.val, by omega⟩
def loop (k : Fin 100000) : Fin 900000 := ⟨800000 + k.val, by omega⟩

section Graph
variable (ei : IVec ⟨2, ![2, 800000]⟩ 32)

theorem rowsX_given (e : Fin 800000) : rowsX ei (given e) = rowW ei e := by
  unfold rowsX; exact dif_pos e.isLt
theorem colsX_given (e : Fin 800000) : colsX ei (given e) = colW ei e := by
  unfold colsX; exact dif_pos e.isLt
theorem rowsX_loop (k : Fin 100000) : rowsX ei (loop k) = BitVec.ofNat 32 k.val := by
  unfold rowsX
  rw [dif_neg (show ¬ (loop k).val < 800000 by show ¬ 800000 + k.val < 800000; omega)]
  show BitVec.ofNat 32 (800000 + k.val - 800000) = _
  rw [Nat.add_sub_cancel_left]
theorem colsX_loop (k : Fin 100000) : colsX ei (loop k) = BitVec.ofNat 32 k.val := by
  unfold colsX
  rw [dif_neg (show ¬ (loop k).val < 800000 by show ¬ 800000 + k.val < 800000; omega)]
  show BitVec.ofNat 32 (800000 + k.val - 800000) = _
  rw [Nat.add_sub_cancel_left]

/-- A sum over the edges of the longer list into node i is the sum over the given edges into i plus the term of the
    loop of node i: among the loops only that of node i has target word i. -/
theorem sum_hitsX (i : Fin 100000) (F : Fin 900000 → EReal) :
    ∑ e' ∈ hitsX ei i, F e' = (∑ e ∈ hits ei i, F (given e)) + F (loop i) := by
  unfold hitsX
  refine (sum_filter_fin_add (a := 800000) (b := 100000)
    (fun e' : Fin 900000 => (colsX ei e').toInt = (i.val : Int)) F).trans ?_
  refine congrArg₂ (· + ·) ?_ ?_
  · unfold hits
    refine Finset.sum_congr (Finset.filter_congr fun e _ => ?_) fun e _ => rfl
    rw [show Fin.castAdd 100000 e = given e from rfl, colsX_given]
  · have hf : (Finset.univ : Finset (Fin 100000)).filter
        (fun k => (colsX ei (Fin.natAdd 800000 k)).toInt = (i.val : Int)) = {i} := by
      ext k
      rw [Finset.mem_filter, Finset.mem_singleton, show Fin.natAdd 800000 k = loop k from rfl, colsX_loop,
        toInt_ofNat_node k.val k.isLt]
      constructor
      · rintro ⟨_, h⟩; exact Fin.ext (by exact_mod_cast h)
      · rintro rfl; exact ⟨Finset.mem_univ _, rfl⟩
    rw [hf, Finset.sum_singleton]
    rfl

/-- An edge into node i reads node i through its target word. -/
theorem tgt_of_mem_hits {i : Fin 100000} {e : Fin 800000} (he : e ∈ hits ei i) : gRow (colW ei e) = i :=
  gRow_of_toInt (Finset.mem_filter.mp he).2

/-! ## The degree -/

theorem degX_eq (i : Fin 100000) : SpecX.degX ei i = Spec.deg ei i := by
  unfold SpecX.degX Spec.deg
  rw [sum_hitsX ei i (fun _ => Spec.one), add_assoc]

theorem dinvX_eq (i : Fin 100000) : SpecX.dinvX ei i = Spec.dinv ei i := by
  unfold SpecX.dinvX Spec.dinv
  rw [degX_eq]

end Graph

/-! ## The guarded inverse square root is finite and not negative -/

/-- The inverse square root of an extended real that is at least 1 is the inverse of a real square root, or 0 at ⊤:
    not negative, and not ⊤. -/
theorem rsqrt_nonneg_ne_top {y : EReal} (hy : 1 ≤ y) : 0 ≤ Ideal.rsqrt y ∧ Ideal.rsqrt y ≠ ⊤ := by
  induction y using EReal.rec with
  | bot => exact absurd hy (not_le.mpr (EReal.bot_lt_coe 1))
  | top => rw [Ideal.rsqrt_top]; exact ⟨le_refl _, EReal.zero_ne_top⟩
  | coe r =>
    have hr : (1 : ℝ) ≤ r := by exact_mod_cast hy
    have h1 : ¬ r < 0 := by linarith
    have h2 : r ≠ 0 := by intro h; rw [h] at hr; linarith
    rw [Ideal.rsqrt_coe, if_neg h1, if_neg h2]
    exact ⟨EReal.coe_nonneg.mpr (inv_nonneg.mpr (Real.sqrt_nonneg r)), EReal.coe_ne_top _⟩

/-- The guarded inverse square root is either the inverse square root of max d 1 or the word 0.0. -/
theorem dinvOf_cases (d : EReal) :
    Spec.dinvOf d = Ideal.rsqrt (max d Spec.one) ∨ Spec.dinvOf d = Spec.zero := by
  unfold Spec.dinvOf
  rcases BitVec.eq_zero_or_eq_one (FloatOps.cmpf (F := Ideal) (φ := .f32) .ogt d Spec.zero) with h | h
  · right; rw [h]; exact select_zero _ _
  · left; rw [h]; exact (select_one _ _).trans rfl

theorem dinvOf_nonneg (d : EReal) : 0 ≤ Spec.dinvOf d := by
  rcases dinvOf_cases d with h | h
  · rw [h]; exact (rsqrt_nonneg_ne_top (by rw [one_eq]; exact le_max_right _ _)).1
  · rw [h, zero_eq]

theorem dinvOf_ne_top (d : EReal) : Spec.dinvOf d ≠ ⊤ := by
  rcases dinvOf_cases d with h | h
  · rw [h]; exact (rsqrt_nonneg_ne_top (by rw [one_eq]; exact le_max_right _ _)).2
  · rw [h, zero_eq]; exact EReal.zero_ne_top

/-! ## One layer -/

/-- The reference's layer is the kernel's: every update into node i carries the factor dinv i, which is finite and
    not negative and so comes out of the sum and of the two summands. -/
theorem layerX_eq {C : Nat} (ei : IVec ⟨2, ![2, 800000]⟩ 32) (y : Fin 100000 → Fin C → EReal) (b : Fin C → EReal) (i : Fin 100000) (k : Fin C) :
    SpecX.layerX ei y b i k = Spec.layer ei y b i k := by
  have h0 : 0 ≤ Spec.dinv ei i := dinvOf_nonneg _
  have hT : Spec.dinv ei i ≠ ⊤ := dinvOf_ne_top _
  have hloop : normX ei (loop i) * y (gRow (rowsX ei (loop i))) k
      = Spec.dinv ei i * (Spec.dinv ei i * y i k) := by
    unfold normX
    rw [rowsX_loop, colsX_loop, gRow_ofNat_node, dinvX_eq, mul_assoc]
  have hgiven : ∀ e ∈ hits ei i, normX ei (given e) * y (gRow (rowsX ei (given e))) k
      = Spec.dinv ei i * (Spec.dinv ei (src ei e) * y (src ei e) k) := by
    intro e he
    unfold normX
    rw [rowsX_given, colsX_given, tgt_of_mem_hits ei he, dinvX_eq, dinvX_eq]
    show (Spec.dinv ei (src ei e) * Spec.dinv ei i) * y (src ei e) k = _
    rw [mul_comm (Spec.dinv ei (src ei e)) (Spec.dinv ei i), mul_assoc]
  unfold SpecX.layerX Spec.layer
  rw [sum_hitsX ei i (fun e' => normX ei e' * y (gRow (rowsX ei e')) k), Finset.sum_congr rfl hgiven, hloop,
    zero_eq, zero_add, zero_add, EReal.left_distrib_of_nonneg_of_ne_top h0 hT,
    Cert.LibERealSum.mul_sum_of_nonneg_of_ne_top _ _ h0 hT]

/-! ## The network -/

section Net
variable (x : (⟨2, ![100000, 256]⟩ : Shape).Idx → EReal) (ei : IVec ⟨2, ![2, 800000]⟩ 32)
  (W1 : (⟨2, ![256, 256]⟩ : Shape).Idx → EReal) (b1 : (⟨1, ![256]⟩ : Shape).Idx → EReal)
  (W2 : (⟨2, ![256, 128]⟩ : Shape).Idx → EReal) (b2 : (⟨1, ![128]⟩ : Shape).Idx → EReal)
  (Wp1 : (⟨2, ![256, 256]⟩ : Shape).Idx → EReal) (bp1 : (⟨1, ![256]⟩ : Shape).Idx → EReal)
  (Wp2 : (⟨2, ![256, 128]⟩ : Shape).Idx → EReal) (bp2 : (⟨1, ![128]⟩ : Shape).Idx → EReal)
  (Wc : (⟨2, ![128, 40]⟩ : Shape).Idx → EReal) (bc : (⟨1, ![40]⟩ : Shape).Idx → EReal)

/-- The hidden layer agrees entry by entry, hence so does its product with the second weight. -/
theorem hidX_eq (i : Fin 100000) (k : Fin 256) : SpecX.hidX x ei W1 b1 i k = Spec.hid x ei W1 b1 i k := by
  unfold SpecX.hidX Spec.hid
  rw [layerX_eq]

theorem xw2X_eq : SpecX.xw2X x ei W1 b1 W2 = Spec.xw2 x ei W1 b1 W2 := by
  funext i k
  unfold SpecX.xw2X Spec.xw2
  exact Finset.sum_congr rfl fun j _ => by rw [hidX_eq]

theorem featX_eq (i : Fin 100000) (k : Fin 128) :
    SpecX.featX x ei W1 b1 W2 b2 i k = Spec.feat x ei W1 b1 W2 b2 i k := by
  unfold SpecX.featX Spec.feat
  rw [xw2X_eq, layerX_eq]

/-- The node features agree as whole arrays. -/
theorem featX_fun_eq : SpecX.featX x ei W1 b1 W2 b2 = Spec.feat x ei W1 b1 W2 b2 :=
  funext fun i => funext fun k => featX_eq x ei W1 b1 W2 b2 i k

theorem edgeX_eq (e : Fin 800000) (k : Fin 128) :
    SpecX.edgeX x ei W1 b1 W2 b2 Wp1 bp1 Wp2 bp2 e k = Spec.edge x ei W1 b1 W2 b2 Wp1 bp1 Wp2 bp2 e k := by
  unfold SpecX.edgeX Spec.edge
  rw [mlpRowX_eq, featX_fun_eq]

theorem logitX_eq (i : Fin 100000) (k : Fin 40) :
    SpecX.logitX x ei W1 b1 W2 b2 Wc bc i k = Spec.logit x ei W1 b1 W2 b2 Wc bc i k := by
  unfold SpecX.logitX Spec.logit
  rw [featX_fun_eq]

end Net

end Cert.Bridge

end
-- ==== Proof.KIndexFeat.lean ====
/-
  The kernel program's host stages read entry by entry: the node features.

  Rows 0 and 1 of the edge array, read as vectors, are the source and target words of the edges; laid as a column
  they are the index words of an accumulation, and wrapped and laid as a column they are the index words of a read.
  The flat accumulation of ones along the target words into zeros counts, at node i, the edges whose target word read
  signed is i; so the degree array is the degree, and its guarded inverse square root the normalisation. A layer is
  then read off operation by operation: the scaled rows gathered at the source nodes, accumulated along the target
  words, the scaled row itself added, the sum scaled again and the bias added.
-/
import proofs.«129196_j11553462026276_2_alg».proof.Proof.KHost
import proofs.«129196_j11553462026276_2_alg».proof.Proof.HostRead
import proofs.«129196_j11553462026276_2_alg».proof.Proof.LibRowScatter
import proofs.«129196_j11553462026276_2_alg».proof.Proof.LibScatterAdd
import Idealize.ShloMosaic.Lib.ValueIdx
import Idealize.ShloMosaic.Lib.ValueLayout

noncomputable section

namespace Cert.KernelIdeal.KIndex

open Cert.KernelIdeal Cert.KernelIdeal.Gen Cert.KernelIdeal.KHost
open Idealize.ShloMosaic Idealize.ShloMosaic.ValueIdx

/-! ## The edge array's rows, and the index words -/

/-- Entry e of row 0 of the edge array is edge e's source word. -/
theorem rowsV_apply (ei : IVec S2x800000 32) (e : Fin 800000) : rowsV ei (ix1 e) = Cert.Spec.rowW ei e := by
  unfold rowsV
  exact Cert.HostRead.row_of_pair (0 : Fin 2) slices_S2x800000_S1x800000_0_0 shapeCasts_S1x800000_S800000 ei e

/-- Entry e of row 1 of the edge array is edge e's target word. -/
theorem colsV_apply (ei : IVec S2x800000 32) (e : Fin 800000) : colsV ei (ix1 e) = Cert.Spec.colW ei e := by
  unfold colsV
  exact Cert.HostRead.row_of_pair (1 : Fin 2) slices_S2x800000_S1x800000_1_0 shapeCasts_S1x800000_S800000 ei e

/-- The column of target words at row e is edge e's target word. -/
theorem colIdx_word (ei : IVec S2x800000 32) (e : Fin 800000) :
    colIdx (colsV ei) (ix2 e (0 : Fin 1)) = Cert.Spec.colW ei e := by
  unfold colIdx
  exact (Cert.HostRead.bcast_col bcast_S800000_S800000x1_0 (colsV ei) e 0).trans (colsV_apply ei e)

/-- The wrapped column at row e is the wrap of the vector's word e. -/
theorem wrapV_word (v : IVec S800000 32) (e : Fin 800000) :
    wrapV v (ix2 e (0 : Fin 1)) = Cert.Spec.wrapW (v (ix1 e)) := by
  unfold wrapV
  refine (Cert.HostRead.bcast_col bcast_S800000_S800000x1_0 _ e 0).trans ?_
  show Scalar.select
      (IntOp.cmpi .slt (v (ix1 e)) (broadcastInDim S800000 ![] bcast_S_S800000 (constantI S_ 32 0#32) (ix1 e)))
      (IntOp.addi (v (ix1 e)) (broadcastInDim S800000 ![] bcast_S_S800000 (constantI S_ 32 100000#32) (ix1 e)))
      (v (ix1 e)) = _
  rw [Cert.HostRead.bcast_scalar, Cert.HostRead.bcast_scalar]
  rfl

/-- The node edge e reads its message from: the wrapped source word, clamped. -/
theorem src_eq (ei : IVec S2x800000 32) (e : Fin 800000) :
    Cert.LibRowScatter.rowOf (by decide : 0 < 100000) (wrapV (rowsV ei)) e = Cert.Spec.src ei e := by
  apply Fin.ext
  rw [Cert.LibRowScatter.rowOf_val, wrapV_word, rowsV_apply]
  rfl

/-- The node edge e's target word reads: the wrapped target word, clamped. -/
theorem tgt_eq (ei : IVec S2x800000 32) (e : Fin 800000) :
    Cert.LibRowScatter.rowOf (by decide : 0 < 100000) (wrapV (colsV ei)) e = Cert.Spec.tgt ei e := by
  apply Fin.ext
  rw [Cert.LibRowScatter.rowOf_val, wrapV_word, colsV_apply]
  rfl

/-- The edges an accumulation along the column of target words sends to node i are the edges into i. -/
theorem hits_eq (ei : IVec S2x800000 32) (i : Fin 100000) :
    (Finset.univ.filter fun e : Fin 800000 => (colIdx (colsV ei) (ix2 e (0 : Fin 1))).toInt = (i.val : Int))
      = Cert.Spec.hits ei i := by
  unfold Cert.Spec.hits
  exact Finset.filter_congr fun e _ => by rw [colIdx_word]

/-! ## The flat accumulation, the degree and the normalisation -/

/-- An accumulation of a vector of updates into a vector along a column of index words, read at n: the operand's
    entry plus the sum of the updates whose index word read signed is n. -/
theorem flat_scatter_apply {B N w : Nat} (d : ScatterDims ⟨1, ![B]⟩ ⟨2, ![N, 1]⟩ ⟨1, ![N]⟩)
    (h1 : d.updateWindowDims = []) (h2 : d.insertedWindowDims = [0])
    (h3 : d.scatterDimsToOperandDims = [0]) (h4 : d.indexVectorDim = 1)
    (x : (⟨1, ![B]⟩ : Shape).Idx → EReal) (idx : IVec ⟨2, ![N, 1]⟩ w) (upd : (⟨1, ![N]⟩ : Shape).Idx → EReal)
    (n : Fin B) :
    Ideal.hostScatterAdd d x idx upd (ix1 n) = x (ix1 n) +
      ∑ e ∈ Finset.univ.filter (fun e : Fin N => (idx (ix2 e (0 : Fin 1))).toInt = (n.val : Int)), upd (ix1 e) := by
  unfold Ideal.hostScatterAdd
  congr 1
  rw [Finset.sum_filter, Finset.sum_filter]
  refine ((Equiv.sum_comp (idxEquiv1 (N := N)).symm _).symm).trans ?_
  refine Finset.sum_congr rfl fun e _ => ?_
  show (if d.resultIdx? (ix1 e) idx = some (ix1 n) then upd (ix1 e) else 0) = _
  have key : d.resultIdx? (ix1 e) idx = some (ix1 n) ↔ (idx (ix2 e (0 : Fin 1))).toInt = (n.val : Int) := by
    rw [ScatterDims.resultIdx?_addAt d h1 h2 h3 h4, addAtIdx_ix1]
    exact Iff.rfl
  by_cases hA : (idx (ix2 e (0 : Fin 1))).toInt = (n.val : Int)
  · rw [if_pos hA, if_pos (key.mpr hA)]
  · rw [if_neg hA, if_neg fun h => hA (key.mp h)]

/-- The host's accumulating scatter at the extended reals is the exact sum. -/
theorem scatterAdd_eq {s si su : Shape} {φ : FTy} (d : ScatterDims s si su) {w : Nat} (x : FVec Ideal s φ) (idx : IVec si w)
    (upd : FVec Ideal su φ) : Host.scatterAdd d x idx upd = Ideal.hostScatterAdd d x idx upd := rfl

/-- The host's inverse square root of an array, at an index. -/
theorem rsqrt_apply {s : Shape} {φ : FTy} (x : FVec Ideal s φ) (i : s.Idx) :
    Host.rsqrt x i = FloatOps.hostUnary (F := Ideal) (φ := φ) .rsqrt (x i) := rfl

/-- The degree array at node i is the degree: the edges into i counted onto zero, plus one. -/
theorem degA_apply (ei : IVec S2x800000 32) (i : Fin 100000) : degA ei (ix1 i) = Cert.Spec.deg ei i := by
  unfold degA Cert.Spec.deg Cert.Spec.zero Cert.Spec.one
  rw [addf_apply, scatterAdd_eq, flat_scatter_apply scatter_S100000_S800000x1_S800000_n_0_0_1 rfl rfl rfl rfl, hits_eq,
    Cert.HostRead.bcast_scalar, Cert.HostRead.bcast_scalar,
    Finset.sum_congr rfl fun e _ =>
      Cert.HostRead.bcast_scalar bcast_S_S800000 (constant (F := Ideal) S_ .f32 0x3F800000#32) (ix1 e)]
  simp only [constant_apply]

/-- The normalisation array at node i is the guarded inverse square root of the degree. -/
theorem dinvA_apply (ei : IVec S2x800000 32) (i : Fin 100000) : dinvA ei (ix1 i) = Cert.Spec.dinv ei i := by
  unfold dinvA Cert.Spec.dinv Cert.Spec.dinvOf Cert.Spec.zero Cert.Spec.one
  rw [select_apply, cmpf_apply, rsqrt_apply, maximumf_apply, degA_apply]
  simp only [id_eq]
  rw [Cert.HostRead.bcast_scalar, Cert.HostRead.bcast_scalar]
  simp only [constant_apply]

end Cert.KernelIdeal.KIndex

end
-- ==== Proof.KIndexLayer128.lean ====
/-
  One layer of the kernel program at width 128, read at an index.

  The layer scales the rows of its input xw by the guarded inverse square root d of the degrees, accumulates the
  scaled row of every edge's source node into the row of the node its target word names (a row scatter-add into
  zeros of a row gather), adds the scaled row itself (the self loop), scales the sum by d again and adds the bias.
  Read at (i, k): the scatter-add is the zero word plus the sum, over the edges whose target word read signed is i,
  of the gathered entry; the gather reads, in row e, the row of the node the source word of edge e names; and the
  broadcasts read d i, d (src e) and b k. So entry (i, k) is
      d i * ((0 + sum over the edges e into i of d (src e) * xw (src e, k)) + d i * xw (i, k)) + b k.
-/
import proofs.«129196_j11553462026276_2_alg».proof.Proof.KHost
import proofs.«129196_j11553462026276_2_alg».proof.Proof.HostRead
import proofs.«129196_j11553462026276_2_alg».proof.Proof.LibRowScatter

noncomputable section

namespace Cert.KernelIdeal.KIndex

open Cert.KernelIdeal Cert.KernelIdeal.Gen Cert.KernelIdeal.KHost
open Idealize.ShloMosaic Idealize.ShloMosaic.ValueIdx

/-! ## The index words -/

/-- Row 0 and row 1 of the edge array as vectors: entry e is the source word, the target word, of edge e. -/
theorem l128_rowsV_apply (ei : IVec S2x800000 32) (e : Fin 800000) : rowsV ei (ix1 e) = Spec.rowW ei e :=
  Cert.HostRead.row_of_pair (0 : Fin 2) slices_S2x800000_S1x800000_0_0 shapeCasts_S1x800000_S800000 ei e
theorem l128_colsV_apply (ei : IVec S2x800000 32) (e : Fin 800000) : colsV ei (ix1 e) = Spec.colW ei e :=
  Cert.HostRead.row_of_pair (1 : Fin 2) slices_S2x800000_S1x800000_1_0 shapeCasts_S1x800000_S800000 ei e

/-- A vector of index words as a column: entry (e, 0) is word e. -/
theorem l128_colIdx_apply (v : IVec S800000 32) (e : Fin 800000) : colIdx v (ix2 e (0 : Fin 1)) = v (ix1 e) :=
  Cert.HostRead.bcast_col bcast_S800000_S800000x1_0 v e 0

/-- The wrapped column of a vector of index words at (e, 0) is the wrap of word e. -/
theorem l128_wrapV_apply (v : IVec S800000 32) (e : Fin 800000) :
    wrapV v (ix2 e (0 : Fin 1)) = Spec.wrapW (v (ix1 e)) := by
  have h0 : broadcastInDim S800000 ![] bcast_S_S800000 (constantI S_ 32 0#32) (ix1 e) = 0#32 :=
    Cert.HostRead.bcast_scalar bcast_S_S800000 _ _
  have h1 : broadcastInDim S800000 ![] bcast_S_S800000 (constantI S_ 32 100000#32) (ix1 e) = 100000#32 :=
    Cert.HostRead.bcast_scalar bcast_S_S800000 _ _
  unfold wrapV
  refine (Cert.HostRead.bcast_col bcast_S800000_S800000x1_0 _ e 0).trans ?_
  show Scalar.select
      (IntOp.cmpi .slt (v (ix1 e)) (broadcastInDim S800000 ![] bcast_S_S800000 (constantI S_ 32 0#32) (ix1 e)))
      (IntOp.addi (v (ix1 e)) (broadcastInDim S800000 ![] bcast_S_S800000 (constantI S_ 32 100000#32) (ix1 e)))
      (v (ix1 e)) = _
  rw [h0, h1]
  rfl

/-- The row a gather reads through the wrapped column of a vector of words is the node the word names. -/
theorem l128_rowOf_wrapV (v : IVec S800000 32) (e : Fin 800000) :
    Cert.LibRowScatter.rowOf (by decide : 0 < 100000) (wrapV v) e = Spec.gRow (v (ix1 e)) := by
  apply Fin.ext
  show min ((wrapV v) (ix2 e (0 : Fin 1))).toInt.toNat (100000 - 1)
    = min (Spec.wrapW (v (ix1 e))).toInt.toNat (100000 - 1)
  rw [l128_wrapV_apply]

/-! ## The layout operations of the layer at an index -/

/-- A vector over the nodes laid as a column and repeated across 128 columns: entry (i, k) is entry i. -/
theorem l128_bcastD_apply (d : FVec Ideal S100000 .f32) (i : Fin 100000) (k : Fin 128) :
    broadcastInDim S100000x128 ![0, 1] bcast_S100000x1_S100000x128_0_1
      (broadcastInDim S100000x1 ![0] bcast_S100000_S100000x1_0 d) (ix2 i k) = d (ix1 i) :=
  Cert.HostRead.bcast_vec_cols bcast_S100000_S100000x1_0 bcast_S100000x1_S100000x128_0_1 d i k

/-- The bias laid as a row and repeated down the rows: entry (i, k) is entry k. -/
theorem l128_bcastB_apply (b : FVec Ideal S128 .f32) (i : Fin 100000) (k : Fin 128) :
    broadcastInDim S100000x128 ![0, 1] bcast_S1x128_S100000x128_0_1
      (broadcastInDim S1x128 ![1] bcast_S128_S1x128_1 b) (ix2 i k) = b (ix1 k) :=
  Cert.HostRead.bcast_vec_rows bcast_S128_S1x128_1 bcast_S1x128_S100000x128_0_1 b i k

/-- The zero word repeated everywhere reads the zero word. -/
theorem l128_zero_apply (j : S100000x128.Idx) :
    broadcastInDim S100000x128 ![] bcast_S_S100000x128 (constant (F := Ideal) S_ .f32 0x00000000#32) j = Spec.zero :=
  Cert.HostRead.bcast_scalar bcast_S_S100000x128 _ j

/-- The row scatter-add at (i, k): the operand's entry plus the sum, over the update rows whose index word read
    signed is i, of the update's entry (e, k). -/
theorem l128_scatter_apply (X : FVec Ideal S100000x128 .f32) (idx : IVec S800000x1 32) (upd : FVec Ideal S800000x128 .f32)
    (i : Fin 100000) (k : Fin 128) :
    Host.scatterAdd scatter_S100000x128_S800000x1_S800000x128_1_0_0_1 X idx upd (ix2 i k)
      = X (ix2 i k)
        + ∑ e ∈ Finset.univ.filter (fun e : Fin 800000 => (idx (ix2 e (0 : Fin 1))).toInt = (i.val : Int)), upd (ix2 e k) :=
  Cert.LibRowScatter.hostScatterAdd_rows_apply scatter_S100000x128_S800000x1_S800000x128_1_0_0_1 rfl rfl rfl rfl
    X idx upd i k

/-- The row gather through the wrapped column of a vector of words at (e, k): row e is the row of the node the word
    names. -/
theorem l128_gather_apply (X : FVec Ideal S100000x128 .f32) (v : IVec S800000 32) (e : Fin 800000) (k : Fin 128) :
    Host.gather gather_S100000x128_S800000x1_S800000x128_1_0_n_n_0_1_1128 X (wrapV v) (ix2 e k)
      = X (ix2 (Spec.gRow (v (ix1 e))) k) := by
  refine (Cert.LibRowScatter.gather_rows_apply gather_S100000x128_S800000x1_S800000x128_1_0_n_n_0_1_1128
    rfl rfl rfl rfl rfl rfl rfl (by decide) X (wrapV v) e k).trans ?_
  rw [l128_rowOf_wrapV]

/-- The edges a scatter-add along the target words accumulates into node i are the edges into i. -/
theorem l128_filter_hits (ei : IVec S2x800000 32) (i : Fin 100000) :
    Finset.univ.filter (fun e : Fin 800000 => (colIdx (colsV ei) (ix2 e (0 : Fin 1))).toInt = (i.val : Int))
      = Spec.hits ei i := by
  unfold Spec.hits
  refine Finset.filter_congr fun e _ => ?_
  rw [l128_colIdx_apply, l128_colsV_apply]

/-- The arithmetic skeleton of the layer at an index. -/
theorem l128_shape (D S xw R : FVec Ideal S100000x128 .f32) (j : S100000x128.Idx) :
    addf (mulf D (addf S (mulf D xw))) R j = D j * (S j + D j * xw j) + R j := rfl

/-! ## The layer -/

/-- The width-128 layer with any scale vector d at (i, k). -/
theorem l128_layer128_apply (d : FVec Ideal S100000 .f32) (xw : FVec Ideal S100000x128 .f32) (ei : IVec S2x800000 32)
    (b : FVec Ideal S128 .f32) (i : Fin 100000) (k : Fin 128) :
    layer128 d xw (rowsV ei) (colsV ei) b (ix2 i k)
      = d (ix1 i) * ((Spec.zero + ∑ e ∈ Spec.hits ei i, d (ix1 (Spec.src ei e)) * xw (ix2 (Spec.src ei e) k))
          + d (ix1 i) * xw (ix2 i k)) + b (ix1 k) := by
  unfold layer128
  refine (l128_shape _ _ _ _ _).trans ?_
  refine congrArg₂ (· + ·) (congrArg₂ (· * ·) (l128_bcastD_apply d i k)
    (congrArg₂ (· + ·) ?_ (congrArg₂ (· * ·) (l128_bcastD_apply d i k) rfl))) (l128_bcastB_apply b i k)
  refine (l128_scatter_apply _ _ _ i k).trans ?_
  refine congrArg₂ (· + ·) (l128_zero_apply _) ?_
  refine Finset.sum_congr (l128_filter_hits ei i) fun e _ => ?_
  refine (l128_gather_apply _ (rowsV ei) e k).trans ?_
  rw [l128_rowsV_apply]
  exact congrArg₂ (· * ·) (l128_bcastD_apply d (Spec.src ei e) k) rfl

/-- The width-128 layer of the kernel program at (i, k), given its guarded inverse square root at an index. -/
theorem layer128_apply_of (ei : IVec S2x800000 32) (hd : ∀ i : Fin 100000, dinvA ei (ix1 i) = Spec.dinv ei i)
    (xw : FVec Ideal S100000x128 .f32) (b : FVec Ideal S128 .f32) (i : Fin 100000) (k : Fin 128) :
    layer128 (dinvA ei) xw (rowsV ei) (colsV ei) b (ix2 i k)
      = Spec.layer ei (fun i k => xw (ix2 i k)) (fun k => b (ix1 k)) i k := by
  refine (l128_layer128_apply (dinvA ei) xw ei b i k).trans ?_
  unfold Spec.layer
  rw [hd i]
  refine congrArg (fun t => Spec.dinv ei i * ((Spec.zero + t) + Spec.dinv ei i * xw (ix2 i k)) + b (ix1 k)) ?_
  exact Finset.sum_congr rfl fun e _ => by rw [hd]

end Cert.KernelIdeal.KIndex

end
-- ==== Proof.KIndexLayer256.lean ====
/-
  One layer of the kernel program at width 256, read at an index.

  The layer scales the rows of its input xw by the guarded inverse square root d of the degrees, accumulates the
  scaled row of every edge's source node into the row of the node its target word names (a row scatter-add into
  zeros of a row gather), adds the scaled row itself (the self loop), scales the sum by d again and adds the bias.
  Read at (i, k): the scatter-add is the zero word plus the sum, over the edges whose target word read signed is i,
  of the gathered entry; the gather reads, in row e, the row of the node the source word of edge e names; and the
  broadcasts read d i, d (src e) and b k. So entry (i, k) is
      d i * ((0 + sum over the edges e into i of d (src e) * xw (src e, k)) + d i * xw (i, k)) + b k.
-/
import proofs.«129196_j11553462026276_2_alg».proof.Proof.KHost
import proofs.«129196_j11553462026276_2_alg».proof.Proof.HostRead
import proofs.«129196_j11553462026276_2_alg».proof.Proof.LibRowScatter

noncomputable section

namespace Cert.KernelIdeal.KIndex

open Cert.KernelIdeal Cert.KernelIdeal.Gen Cert.KernelIdeal.KHost
open Idealize.ShloMosaic Idealize.ShloMosaic.ValueIdx

/-! ## The index words -/

/-- Row 0 and row 1 of the edge array as vectors: entry e is the source word, the target word, of edge e. -/
theorem l256_rowsV_apply (ei : IVec S2x800000 32) (e : Fin 800000) : rowsV ei (ix1 e) = Spec.rowW ei e :=
  Cert.HostRead.row_of_pair (0 : Fin 2) slices_S2x800000_S1x800000_0_0 shapeCasts_S1x800000_S800000 ei e
theorem l256_colsV_apply (ei : IVec S2x800000 32) (e : Fin 800000) : colsV ei (ix1 e) = Spec.colW ei e :=
  Cert.HostRead.row_of_pair (1 : Fin 2) slices_S2x800000_S1x800000_1_0 shapeCasts_S1x800000_S800000 ei e

/-- A vector of index words as a column: entry (e, 0) is word e. -/
theorem l256_colIdx_apply (v : IVec S800000 32) (e : Fin 800000) : colIdx v (ix2 e (0 : Fin 1)) = v (ix1 e) :=
  Cert.HostRead.bcast_col bcast_S800000_S800000x1_0 v e 0

/-- The wrapped column of a vector of index words at (e, 0) is the wrap of word e. -/
theorem l256_wrapV_apply (v : IVec S800000 32) (e : Fin 800000) :
    wrapV v (ix2 e (0 : Fin 1)) = Spec.wrapW (v (ix1 e)) := by
  have h0 : broadcastInDim S800000 ![] bcast_S_S800000 (constantI S_ 32 0#32) (ix1 e) = 0#32 :=
    Cert.HostRead.bcast_scalar bcast_S_S800000 _ _
  have h1 : broadcastInDim S800000 ![] bcast_S_S800000 (constantI S_ 32 100000#32) (ix1 e) = 100000#32 :=
    Cert.HostRead.bcast_scalar bcast_S_S800000 _ _
  unfold wrapV
  refine (Cert.HostRead.bcast_col bcast_S800000_S800000x1_0 _ e 0).trans ?_
  show Scalar.select
      (IntOp.cmpi .slt (v (ix1 e)) (broadcastInDim S800000 ![] bcast_S_S800000 (constantI S_ 32 0#32) (ix1 e)))
      (IntOp.addi (v (ix1 e)) (broadcastInDim S800000 ![] bcast_S_S800000 (constantI S_ 32 100000#32) (ix1 e)))
      (v (ix1 e)) = _
  rw [h0, h1]
  rfl

/-- The row a gather reads through the wrapped column of a vector of words is the node the word names. -/
theorem l256_rowOf_wrapV (v : IVec S800000 32) (e : Fin 800000) :
    Cert.LibRowScatter.rowOf (by decide : 0 < 100000) (wrapV v) e = Spec.gRow (v (ix1 e)) := by
  apply Fin.ext
  show min ((wrapV v) (ix2 e (0 : Fin 1))).toInt.toNat (100000 - 1)
    = min (Spec.wrapW (v (ix1 e))).toInt.toNat (100000 - 1)
  rw [l256_wrapV_apply]

/-! ## The layout operations of the layer at an index -/

/-- A vector over the nodes laid as a column and repeated across 256 columns: entry (i, k) is entry i. -/
theorem l256_bcastD_apply (d : FVec Ideal S100000 .f32) (i : Fin 100000) (k : Fin 256) :
    broadcastInDim S100000x256 ![0, 1] bcast_S100000x1_S100000x256_0_1
      (broadcastInDim S100000x1 ![0] bcast_S100000_S100000x1_0 d) (ix2 i k) = d (ix1 i) :=
  Cert.HostRead.bcast_vec_cols bcast_S100000_S100000x1_0 bcast_S100000x1_S100000x256_0_1 d i k

/-- The bias laid as a row and repeated down the rows: entry (i, k) is entry k. -/
theorem l256_bcastB_apply (b : FVec Ideal S256 .f32) (i : Fin 100000) (k : Fin 256) :
    broadcastInDim S100000x256 ![0, 1] bcast_S1x256_S100000x256_0_1
      (broadcastInDim S1x256 ![1] bcast_S256_S1x256_1 b) (ix2 i k) = b (ix1 k) :=
  Cert.HostRead.bcast_vec_rows bcast_S256_S1x256_1 bcast_S1x256_S100000x256_0_1 b i k

/-- The zero word repeated everywhere reads the zero word. -/
theorem l256_zero_apply (j : S100000x256.Idx) :
    broadcastInDim S100000x256 ![] bcast_S_S100000x256 (constant (F := Ideal) S_ .f32 0x00000000#32) j = Spec.zero :=
  Cert.HostRead.bcast_scalar bcast_S_S100000x256 _ j

/-- The row scatter-add at (i, k): the operand's entry plus the sum, over the update rows whose index word read
    signed is i, of the update's entry (e, k). -/
theorem l256_scatter_apply (X : FVec Ideal S100000x256 .f32) (idx : IVec S800000x1 32) (upd : FVec Ideal S800000x256 .f32)
    (i : Fin 100000) (k : Fin 256) :
    Host.scatterAdd scatter_S100000x256_S800000x1_S800000x256_1_0_0_1 X idx upd (ix2 i k)
      = X (ix2 i k)
        + ∑ e ∈ Finset.univ.filter (fun e : Fin 800000 => (idx (ix2 e (0 : Fin 1))).toInt = (i.val : Int)), upd (ix2 e k) :=
  Cert.LibRowScatter.hostScatterAdd_rows_apply scatter_S100000x256_S800000x1_S800000x256_1_0_0_1 rfl rfl rfl rfl
    X idx upd i k

/-- The row gather through the wrapped column of a vector of words at (e, k): row e is the row of the node the word
    names. -/
theorem l256_gather_apply (X : FVec Ideal S100000x256 .f32) (v : IVec S800000 32) (e : Fin 800000) (k : Fin 256) :
    Host.gather gather_S100000x256_S800000x1_S800000x256_1_0_n_n_0_1_1256 X (wrapV v) (ix2 e k)
      = X (ix2 (Spec.gRow (v (ix1 e))) k) := by
  refine (Cert.LibRowScatter.gather_rows_apply gather_S100000x256_S800000x1_S800000x256_1_0_n_n_0_1_1256
    rfl rfl rfl rfl rfl rfl rfl (by decide) X (wrapV v) e k).trans ?_
  rw [l256_rowOf_wrapV]

/-- The edges a scatter-add along the target words accumulates into node i are the edges into i. -/
theorem l256_filter_hits (ei : IVec S2x800000 32) (i : Fin 100000) :
    Finset.univ.filter (fun e : Fin 800000 => (colIdx (colsV ei) (ix2 e (0 : Fin 1))).toInt = (i.val : Int))
      = Spec.hits ei i := by
  unfold Spec.hits
  refine Finset.filter_congr fun e _ => ?_
  rw [l256_colIdx_apply, l256_colsV_apply]

/-- The arithmetic skeleton of the layer at an index. -/
theorem l256_shape (D S xw R : FVec Ideal S100000x256 .f32) (j : S100000x256.Idx) :
    addf (mulf D (addf S (mulf D xw))) R j = D j * (S j + D j * xw j) + R j := rfl

/-! ## The layer -/

/-- The width-256 layer with any scale vector d at (i, k). -/
theorem l256_layer256_apply (d : FVec Ideal S100000 .f32) (xw : FVec Ideal S100000x256 .f32) (ei : IVec S2x800000 32)
    (b : FVec Ideal S256 .f32) (i : Fin 100000) (k : Fin 256) :
    layer256 d xw (rowsV ei) (colsV ei) b (ix2 i k)
      = d (ix1 i) * ((Spec.zero + ∑ e ∈ Spec.hits ei i, d (ix1 (Spec.src ei e)) * xw (ix2 (Spec.src ei e) k))
          + d (ix1 i) * xw (ix2 i k)) + b (ix1 k) := by
  unfold layer256
  refine (l256_shape _ _ _ _ _).trans ?_
  refine congrArg₂ (· + ·) (congrArg₂ (· * ·) (l256_bcastD_apply d i k)
    (congrArg₂ (· + ·) ?_ (congrArg₂ (· * ·) (l256_bcastD_apply d i k) rfl))) (l256_bcastB_apply b i k)
  refine (l256_scatter_apply _ _ _ i k).trans ?_
  refine congrArg₂ (· + ·) (l256_zero_apply _) ?_
  refine Finset.sum_congr (l256_filter_hits ei i) fun e _ => ?_
  refine (l256_gather_apply _ (rowsV ei) e k).trans ?_
  rw [l256_rowsV_apply]
  exact congrArg₂ (· * ·) (l256_bcastD_apply d (Spec.src ei e) k) rfl

/-- The width-256 layer of the kernel program at (i, k), given its guarded inverse square root at an index. -/
theorem layer256_apply_of (ei : IVec S2x800000 32) (hd : ∀ i : Fin 100000, dinvA ei (ix1 i) = Spec.dinv ei i)
    (xw : FVec Ideal S100000x256 .f32) (b : FVec Ideal S256 .f32) (i : Fin 100000) (k : Fin 256) :
    layer256 (dinvA ei) xw (rowsV ei) (colsV ei) b (ix2 i k)
      = Spec.layer ei (fun i k => xw (ix2 i k)) (fun k => b (ix1 k)) i k := by
  refine (l256_layer256_apply (dinvA ei) xw ei b i k).trans ?_
  unfold Spec.layer
  rw [hd i]
  refine congrArg (fun t => Spec.dinv ei i * ((Spec.zero + t) + Spec.dinv ei i * xw (ix2 i k)) + b (ix1 k)) ?_
  exact Finset.sum_congr rfl fun e _ => by rw [hd]

end Cert.KernelIdeal.KIndex

end
-- ==== Proof.KIndexNet.lean ====
/-
  The kernel program's hidden layer and node features read at an entry: the host stages of KHost are the
  functions of Spec, the layers at widths 256 and 128 composed with the two products.
-/
import proofs.«129196_j11553462026276_2_alg».proof.Proof.KIndexFeat
import proofs.«129196_j11553462026276_2_alg».proof.Proof.KIndexLayer128
import proofs.«129196_j11553462026276_2_alg».proof.Proof.KIndexLayer256

noncomputable section

namespace Cert.KernelIdeal.KIndex

open Cert.KernelIdeal Cert.KernelIdeal.KHost
open Idealize.ShloMosaic Idealize.ShloMosaic.ValueIdx

section
variable (x : FVec Ideal S100000x256 .f32) (ei : IVec S2x800000 32) (W1 : FVec Ideal S256x256 .f32) (b1 : FVec Ideal S256 .f32)
  (W2 : FVec Ideal S256x128 .f32) (b2 : FVec Ideal S128 .f32)

/-- The first product entry by entry. -/
theorem xw1_fun : (fun (i : Fin 100000) (k : Fin 256) => Cert.Product.mm x W1 (ix2 i k)) = Cert.Spec.xw1 x W1 := rfl

/-- The hidden layer at an entry. -/
theorem hidA_apply (i : Fin 100000) (k : Fin 256) : hidA x ei W1 b1 (ix2 i k) = Cert.Spec.hid x ei W1 b1 i k := by
  unfold hidA relu256 Cert.Spec.hid
  refine (maximumf_apply _ _ _).trans ?_
  rw [layer256_apply_of ei (dinvA_apply ei), Cert.HostRead.bcast_scalar, xw1_fun]
  rfl

/-- The second product entry by entry. -/
theorem xw2_fun : (fun (i : Fin 100000) (k : Fin 128) => Cert.Product.mm (hidA x ei W1 b1) W2 (ix2 i k)) = Cert.Spec.xw2 x ei W1 b1 W2 := by
  funext i k
  unfold Cert.Spec.xw2
  refine (Cert.Product.mm_apply _ _ _).trans (Finset.sum_congr rfl fun j _ => ?_)
  show hidA x ei W1 b1 (ix2 i j) * W2 (ix2 j k) = _
  rw [hidA_apply]

/-- The node features at an entry. -/
theorem featA_apply (i : Fin 100000) (k : Fin 128) : featA x ei W1 b1 W2 b2 (ix2 i k) = Cert.Spec.feat x ei W1 b1 W2 b2 i k := by
  unfold featA Cert.Spec.feat
  rw [layer128_apply_of ei (dinvA_apply ei), xw2_fun]

end

end Cert.KernelIdeal.KIndex

end
-- ==== Proof.KIndexHead.lean ====
/-
  The kernel program's class scores and edge features read at an index, given its node features at an index.

  The class scores: the node features times the class weight padded with zeros to 128 columns, plus the padded bias
  row, cut back to the first 40 columns. Inside the first 40 columns the padded weight and bias are the weight and
  bias themselves, so entry (i, k) is the sum over q of feat (i, q) * Wc (q, k) plus bc k.

  The edge features: a gather of feature rows through the wrapped column of a vector of index words reads, in row
  e, the feature row of the node the word of edge e names (wrap a negative word by 100000, clamp into [0, 99999]);
  the change of format before the gather is the identity on the extended reals. The two halves of rows of the
  first head weight are its rows p and 128 + p, and a bias laid as a row reads the bias. So the edge head on whole
  arrays is, entry by entry, the edge head on the two feature rows of the edge's source and target nodes.
-/
import proofs.«129196_j11553462026276_2_alg».proof.Proof.KHost
import proofs.«129196_j11553462026276_2_alg».proof.Proof.HostRead
import proofs.«129196_j11553462026276_2_alg».proof.Proof.LibRowScatter
import Idealize.ShloMosaic.Lib.ValueLayout
import Idealize.ShloMosaic.Lib.KernelVsHost

noncomputable section

namespace Cert.KernelIdeal.KIndex

open Cert.KernelIdeal Cert.KernelIdeal.Gen Cert.KernelIdeal.KHost
open Idealize.ShloMosaic Idealize.ShloMosaic.ValueIdx

/-! ## The class scores -/

/-- The first 40 columns: entry (i, k) is entry (i, k) of the wider array. -/
theorem head_sliceL_apply (X : FVec Ideal S100000x128 .f32) (i : Fin 100000) (k : Fin 40) :
    sliceL X (ix2 i k) = X (ix2 i (⟨k.val, by omega⟩ : Fin 128)) :=
  slice2_axis1_apply 0 X slices_S100000x128_S100000x40_0_0 i k ⟨k.val, by omega⟩ (Nat.zero_add _).symm

/-- The dense product with a bias row at (i, k). -/
theorem head_denseBias_apply (f : S100000x128.Idx → EReal) (w : S128x128.Idx → EReal) (b : S1x128.Idx → EReal)
    (i : Fin 100000) (k : Fin 128) :
    denseBias f w b (ix2 i k) = (∑ q : Fin 128, f (ix2 i q) * w (ix2 q k)) + b (ix2 (0 : Fin 1) k) := rfl

/-- Inside the first 40 columns the padded class weight is the class weight. -/
theorem head_padW_apply (Wc : FVec Ideal S128x40 .f32) (q : Fin 128) (k : Fin 40) :
    padW Wc (ix2 q (⟨k.val, by omega⟩ : Fin 128)) = Wc (ix2 q k) :=
  pad_apply_of_inside _ _ _ Wc _ pads_S128x40_S128x128_000_0880 h_S_ _ (ix2 q k) (fun a => by
    match a with
    | ⟨0, _⟩ => show q.val = 0 + q.val * (0 + 1); omega
    | ⟨1, _⟩ => show k.val = 0 + k.val * (0 + 1); omega)

/-- Inside the first 40 columns the padded class bias, laid as a row, is the class bias. -/
theorem head_padB_apply (bc : FVec Ideal S40 .f32) (k : Fin 40) :
    padB bc (ix2 (0 : Fin 1) (⟨k.val, by omega⟩ : Fin 128)) = bc (ix1 k) := by
  unfold padB
  refine (shapeCast_a_1a_apply _ shapeCasts_S128_S1x128 0 _).trans ?_
  exact pad_apply_of_inside _ _ _ bc _ pads_S40_S128_0880 h_S_ _ (ix1 k) (fun a => by
    match a with
    | ⟨0, _⟩ => show k.val = 0 + k.val * (0 + 1); omega)

section Logit
variable (x : FVec Ideal S100000x256 .f32) (ei : IVec S2x800000 32) (W1 : FVec Ideal S256x256 .f32) (b1 : FVec Ideal S256 .f32)
  (W2 : FVec Ideal S256x128 .f32) (b2 : FVec Ideal S128 .f32) (Wc : FVec Ideal S128x40 .f32) (bc : FVec Ideal S40 .f32)

/-- The class scores of the kernel program at (i, k), given its node features at an index. -/
theorem logitA_apply
    (hf : ∀ (i : Fin 100000) (k : Fin 128), featA x ei W1 b1 W2 b2 (ix2 i k) = Spec.feat x ei W1 b1 W2 b2 i k)
    (i : Fin 100000) (k : Fin 40) :
    logitA x ei W1 b1 W2 b2 Wc bc (ix2 i k) = Spec.logit x ei W1 b1 W2 b2 Wc bc i k := by
  unfold logitA
  refine (head_sliceL_apply _ i k).trans ?_
  refine (head_denseBias_apply _ _ _ i _).trans ?_
  unfold Spec.logit
  refine congrArg₂ (· + ·) (Finset.sum_congr rfl fun q _ => ?_) (head_padB_apply bc k)
  rw [hf, head_padW_apply]

end Logit

/-! ## The edge features -/

/-- Row 0 and row 1 of the edge array as vectors: entry e is the source word, the target word, of edge e. -/
theorem head_rowsV_apply (ei : IVec S2x800000 32) (e : Fin 800000) : rowsV ei (ix1 e) = Spec.rowW ei e :=
  Cert.HostRead.row_of_pair (0 : Fin 2) slices_S2x800000_S1x800000_0_0 shapeCasts_S1x800000_S800000 ei e
theorem head_colsV_apply (ei : IVec S2x800000 32) (e : Fin 800000) : colsV ei (ix1 e) = Spec.colW ei e :=
  Cert.HostRead.row_of_pair (1 : Fin 2) slices_S2x800000_S1x800000_1_0 shapeCasts_S1x800000_S800000 ei e

/-- The wrapped column of a vector of index words at (e, 0) is the wrap of word e. -/
theorem head_wrapV_apply (v : IVec S800000 32) (e : Fin 800000) :
    wrapV v (ix2 e (0 : Fin 1)) = Spec.wrapW (v (ix1 e)) := by
  have h0 : broadcastInDim S800000 ![] bcast_S_S800000 (constantI S_ 32 0#32) (ix1 e) = 0#32 :=
    Cert.HostRead.bcast_scalar bcast_S_S800000 _ _
  have h1 : broadcastInDim S800000 ![] bcast_S_S800000 (constantI S_ 32 100000#32) (ix1 e) = 100000#32 :=
    Cert.HostRead.bcast_scalar bcast_S_S800000 _ _
  unfold wrapV
  refine (Cert.HostRead.bcast_col bcast_S800000_S800000x1_0 _ e 0).trans ?_
  show Scalar.select
      (IntOp.cmpi .slt (v (ix1 e)) (broadcastInDim S800000 ![] bcast_S_S800000 (constantI S_ 32 0#32) (ix1 e)))
      (IntOp.addi (v (ix1 e)) (broadcastInDim S800000 ![] bcast_S_S800000 (constantI S_ 32 100000#32) (ix1 e)))
      (v (ix1 e)) = _
  rw [h0, h1]
  rfl

/-- The row a gather reads through the wrapped column of a vector of words is the node the word names. -/
theorem head_rowOf_wrapV (v : IVec S800000 32) (e : Fin 800000) :
    Cert.LibRowScatter.rowOf (by decide : 0 < 100000) (wrapV v) e = Spec.gRow (v (ix1 e)) := by
  apply Fin.ext
  show min ((wrapV v) (ix2 e (0 : Fin 1))).toInt.toNat (100000 - 1)
    = min (Spec.wrapW (v (ix1 e))).toInt.toNat (100000 - 1)
  rw [head_wrapV_apply]

/-- The gathered feature rows: row e is the feature row of the node the word of edge e names. -/
theorem head_gatherF_apply (f : FVec Ideal S100000x128 .f32) (v : IVec S800000 32) (e : Fin 800000) (p : Fin 128) :
    gatherF f (wrapV v) (ix2 e p) = f (ix2 (Spec.gRow (v (ix1 e))) p) := by
  unfold gatherF
  refine (Cert.LibRowScatter.gather_rows_apply gather_S100000x128_S800000x1_S800000x128_1_0_n_n_0_1_1128
    rfl rfl rfl rfl rfl rfl rfl (by decide) _ (wrapV v) e p).trans ?_
  rw [head_rowOf_wrapV]
  rfl

theorem head_gather_src (f : FVec Ideal S100000x128 .f32) (ei : IVec S2x800000 32) (e : Fin 800000) (p : Fin 128) :
    gatherF f (wrapV (rowsV ei)) (ix2 e p) = f (ix2 (Spec.src ei e) p) :=
  (head_gatherF_apply f (rowsV ei) e p).trans (by rw [head_rowsV_apply]; rfl)
theorem head_gather_tgt (f : FVec Ideal S100000x128 .f32) (ei : IVec S2x800000 32) (e : Fin 800000) (p : Fin 128) :
    gatherF f (wrapV (colsV ei)) (ix2 e p) = f (ix2 (Spec.tgt ei e) p) :=
  (head_gatherF_apply f (colsV ei) e p).trans (by rw [head_colsV_apply]; rfl)

/-- The two halves of rows of the first head weight: rows p and 128 + p. -/
theorem head_w1top_apply (Wp1 : FVec Ideal S256x256 .f32) (p : Fin 128) (q : Fin 256) :
    w1top Wp1 (ix2 p q) = Wp1 (ix2 (⟨p.val, by omega⟩ : Fin 256) q) :=
  slice2_axis0_apply 0 Wp1 slices_S256x256_S128x256_0_0 p q ⟨p.val, by omega⟩ (Nat.zero_add _).symm
theorem head_w1bot_apply (Wp1 : FVec Ideal S256x256 .f32) (p : Fin 128) (q : Fin 256) :
    w1bot Wp1 (ix2 p q) = Wp1 (ix2 (⟨128 + p.val, by omega⟩ : Fin 256) q) :=
  slice2_axis0_apply 128 Wp1 slices_S256x256_S128x256_128_0 p q ⟨128 + p.val, by omega⟩ rfl

/-- A bias laid as a row reads the bias. -/
theorem head_rowB1_apply (bp1 : FVec Ideal S256 .f32) (q : Fin 256) : rowB1 bp1 (ix2 (0 : Fin 1) q) = bp1 (ix1 q) :=
  shapeCast_a_1a_apply bp1 shapeCasts_S256_S1x256 0 q
theorem head_rowB2_apply (bp2 : FVec Ideal S128 .f32) (k : Fin 128) : rowB2 bp2 (ix2 (0 : Fin 1) k) = bp2 (ix1 k) :=
  shapeCast_a_1a_apply bp2 shapeCasts_S128_S1x128 0 k

/-- The edge head on whole arrays at (e, k). -/
theorem head_edgeHeadA_apply (fr fc : S800000x128.Idx → EReal) (w1t w1b : S128x256.Idx → EReal) (b1 : S1x256.Idx → EReal)
    (w2 : S256x128.Idx → EReal) (b2 : S1x128.Idx → EReal) (e : Fin 800000) (k : Fin 128) :
    edgeHeadA fr fc w1t w1b b1 w2 b2 (ix2 e k)
      = (∑ q : Fin 256, max (((∑ p : Fin 128, fr (ix2 e p) * w1t (ix2 p q)) + (∑ p : Fin 128, fc (ix2 e p) * w1b (ix2 p q)))
            + b1 (ix2 (0 : Fin 1) q)) Cert.Spec.zero * w2 (ix2 q k)) + b2 (ix2 (0 : Fin 1) k) := rfl

section Edge
variable (x : FVec Ideal S100000x256 .f32) (ei : IVec S2x800000 32) (W1 : FVec Ideal S256x256 .f32) (b1 : FVec Ideal S256 .f32)
  (W2 : FVec Ideal S256x128 .f32) (b2 : FVec Ideal S128 .f32) (Wp1 : FVec Ideal S256x256 .f32) (bp1 : FVec Ideal S256 .f32)
  (Wp2 : FVec Ideal S256x128 .f32) (bp2 : FVec Ideal S128 .f32)

/-- The edge features of the kernel program at (e, k), given its node features at an index. -/
theorem edgeA_apply
    (hf : ∀ (i : Fin 100000) (k : Fin 128), featA x ei W1 b1 W2 b2 (ix2 i k) = Spec.feat x ei W1 b1 W2 b2 i k)
    (e : Fin 800000) (k : Fin 128) :
    edgeA x ei W1 b1 W2 b2 Wp1 bp1 Wp2 bp2 (ix2 e k) = Spec.edge x ei W1 b1 W2 b2 Wp1 bp1 Wp2 bp2 e k := by
  unfold edgeA
  refine (head_edgeHeadA_apply _ _ _ _ _ _ _ e k).trans ?_
  unfold Spec.edge Spec.mlpRow
  refine congrArg₂ (· + ·) (Finset.sum_congr rfl fun q _ => ?_) (head_rowB2_apply bp2 k)
  refine congrArg (fun t => max t Cert.Spec.zero * Wp2 (ix2 q k)) ?_
  refine congrArg₂ (· + ·) (congrArg₂ (· + ·) (Finset.sum_congr rfl fun p _ => ?_)
    (Finset.sum_congr rfl fun p _ => ?_)) (head_rowB1_apply bp1 q)
  · rw [head_gather_src, hf, head_w1top_apply]
  · rw [head_gather_tgt, hf, head_w1bot_apply]

end Edge

end Cert.KernelIdeal.KIndex

end
-- ==== Proof.Join.lean ====
/-
  The two idealized programs compute one function: each float result of the reference, as an array of its
  arguments, is the kernel program's. Entry by entry the reference's stage is the reference's form of the network,
  which is the kernel's form by the algebra of the extended reals (a finite factor that is not negative goes through
  a sum; the self loops are the last summand; the two halves of the first head weight), which is the kernel
  program's host stage read at that entry.
-/
import proofs.«129196_j11553462026276_2_alg».proof.Proof.RefFeat
import proofs.«129196_j11553462026276_2_alg».proof.Proof.RefLayer1
import proofs.«129196_j11553462026276_2_alg».proof.Proof.RefLayer2
import proofs.«129196_j11553462026276_2_alg».proof.Proof.RefHead
import proofs.«129196_j11553462026276_2_alg».proof.Proof.Bridge
import proofs.«129196_j11553462026276_2_alg».proof.Proof.KIndexNet
import proofs.«129196_j11553462026276_2_alg».proof.Proof.KIndexHead

noncomputable section

namespace Cert.Join

open Idealize.ShloMosaic Idealize.ShloMosaic.ValueIdx
open Cert.ReferenceIdeal.Read Cert.KernelIdeal.KHost

section
variable (x0 : FVec Ideal ⟨2, ![100000, 256]⟩ .f32) (x1 : IVec ⟨2, ![2, 800000]⟩ 32) (x2 : FVec Ideal ⟨2, ![256, 256]⟩ .f32)
  (x3 : FVec Ideal ⟨1, ![256]⟩ .f32) (x4 : FVec Ideal ⟨2, ![256, 128]⟩ .f32) (x5 : FVec Ideal ⟨1, ![128]⟩ .f32)
  (x6 : FVec Ideal ⟨2, ![256, 256]⟩ .f32) (x7 : FVec Ideal ⟨1, ![256]⟩ .f32) (x8 : FVec Ideal ⟨2, ![256, 128]⟩ .f32)
  (x9 : FVec Ideal ⟨1, ![128]⟩ .f32) (x10 : FVec Ideal ⟨2, ![128, 40]⟩ .f32) (x11 : FVec Ideal ⟨1, ![40]⟩ .f32)

/-- The reference's node features at an entry, in the reference's form. -/
theorem ref_feat (i : Fin 100000) (k : Fin 128) :
    val_main_v66 (F := Ideal) x0 x1 x2 x3 x4 x5 (ix2 i k) = Cert.SpecX.featX x0 x1 x2 x3 x4 x5 i k :=
  Cert.RefRead2.ref_layer2 x0 x1 x2 x3 x4 x5 (Cert.RefRead.ref_rows x1) (Cert.RefRead.ref_cols x1) (Cert.RefRead.ref_norm x1)
    (Cert.RefRead1.ref_layer1 x0 x1 x2 x3 (Cert.RefRead.ref_rows x1) (Cert.RefRead.ref_cols x1) (Cert.RefRead.ref_norm x1)) i k

/-- The node features. -/
theorem feat_join : val_main_v66 (F := Ideal) x0 x1 x2 x3 x4 x5 = featA x0 x1 x2 x3 x4 x5 := by
  funext j
  obtain ⟨i, k, rfl⟩ : ∃ (i : Fin 100000) (k : Fin 128), j = ix2 i k := ⟨j 0, j 1, eq_ix2 j⟩
  rw [ref_feat, Cert.Bridge.featX_eq, ← Cert.KernelIdeal.KIndex.featA_apply]

/-- The edge features. -/
theorem edge_join : val_main_v94 (F := Ideal) x0 x1 x2 x3 x4 x5 x6 x7 x8 x9 = edgeA x0 x1 x2 x3 x4 x5 x6 x7 x8 x9 := by
  funext j
  obtain ⟨e, k, rfl⟩ : ∃ (e : Fin 800000) (k : Fin 128), j = ix2 e k := ⟨j 0, j 1, eq_ix2 j⟩
  rw [Cert.RefRead.ref_edge_of_feat]
  simp only [ref_feat]
  refine Eq.trans ?_ (Cert.KernelIdeal.KIndex.edgeA_apply x0 x1 x2 x3 x4 x5 x6 x7 x8 x9
    (Cert.KernelIdeal.KIndex.featA_apply x0 x1 x2 x3 x4 x5) e k).symm
  exact Cert.Bridge.edgeX_eq x0 x1 x2 x3 x4 x5 x6 x7 x8 x9 e k

/-- The class scores. -/
theorem logit_join : val_main_v98 (F := Ideal) x0 x1 x2 x3 x4 x5 x10 x11 = logitA x0 x1 x2 x3 x4 x5 x10 x11 := by
  funext j
  obtain ⟨i, k, rfl⟩ : ∃ (i : Fin 100000) (k : Fin 40), j = ix2 i k := ⟨j 0, j 1, eq_ix2 j⟩
  rw [Cert.RefRead.ref_logit_of_feat]
  simp only [ref_feat]
  refine Eq.trans ?_ (Cert.KernelIdeal.KIndex.logitA_apply x0 x1 x2 x3 x4 x5 x10 x11
    (Cert.KernelIdeal.KIndex.featA_apply x0 x1 x2 x3 x4 x5) i k).symm
  exact Cert.Bridge.logitX_eq x0 x1 x2 x3 x4 x5 x10 x11 i k

end

end Cert.Join

end
-- ==== Proof.lean ====
/-
  The certificate of a graph encoder (two normalized message-passing layers, an edge head, class scores): the
  kernel program computes its dense products in four tiled regions with the host doing the reads and the
  accumulations along the edges; the reference does everything on the host over the edge list with the self loops
  appended. Idealized, both compute the same arrays of extended reals.

  The three frames are the generated ones (the reference's is its run with the results dropped); the idealization
  rewrote nothing. For the value claim the kernel program's run is read back buffer by buffer (KernelRun, KStageA–D,
  each region a product of whole arrays: RegionDense, RegionEdge), the reference's run stage by stage (RefRead and
  the RefFeat / RefLayer2 / RefHead readings), and the two meet entry by entry (Join): with deg i = 0 + #{edges into
  i} + 1 and dinv the guarded inverse square root, a layer is
      dinv i * ((0 + Σ over the edges e into i of dinv (src e) * y (src e)) + dinv i * y i) + b
  on the kernel's side and 0 + Σ over the edges and self loops into i of (dinv (src) * dinv (tgt)) * y (src) + b on
  the reference's; they agree because dinv i is finite and not negative, so it goes through the sum of extended
  reals whatever the summands are. The edge head's first product over the two feature rows side by side is the sum of
  the products with the two halves of the weight; the class scores ignore the zero padding.
-/
import proofs.«129196_j11553462026276_2_alg».proof.Defs
import proofs.«129196_j11553462026276_2_alg».proof.Proof.Gen.Kernel
import proofs.«129196_j11553462026276_2_alg».proof.Proof.Gen.Kernel.Skeleton
import proofs.«129196_j11553462026276_2_alg».proof.Proof.Gen.Kernel.Launch
import proofs.«129196_j11553462026276_2_alg».proof.Proof.Gen.Kernel.Points
import proofs.«129196_j11553462026276_2_alg».proof.Proof.Gen.Kernel.Frame
import proofs.«129196_j11553462026276_2_alg».proof.Proof.Gen.KernelIdeal
import proofs.«129196_j11553462026276_2_alg».proof.Proof.Gen.KernelIdeal.Skeleton
import proofs.«129196_j11553462026276_2_alg».proof.Proof.Gen.KernelIdeal.Launch
import proofs.«129196_j11553462026276_2_alg».proof.Proof.Gen.KernelIdeal.Points
import proofs.«129196_j11553462026276_2_alg».proof.Proof.Gen.KernelIdeal.Frame
import proofs.«129196_j11553462026276_2_alg».proof.Proof.Gen.ReferenceIdeal
import proofs.«129196_j11553462026276_2_alg».proof.Proof.Gen.Pre_finite_inputs
import proofs.«129196_j11553462026276_2_alg».proof.Proof.RefRead
import proofs.«129196_j11553462026276_2_alg».proof.Proof.KernelRun
import proofs.«129196_j11553462026276_2_alg».proof.Proof.KStageD
import proofs.«129196_j11553462026276_2_alg».proof.Proof.RegionDense
import proofs.«129196_j11553462026276_2_alg».proof.Proof.RegionEdge
import proofs.«129196_j11553462026276_2_alg».proof.Proof.Join
import Idealize.ShloMosaic.Adequacy
import Idealize.ShloMosaic.Init

noncomputable section

namespace Cert.Proof

open Idealize.ShloMosaic Idealize.SL.Sem

/-! ## The frames and the idealization -/

theorem frame_k : @Cert.frame_Kernel Cert.Kernel.Gen.facts Cert.Pre_finite_inputs.Gen.facts :=
  fun m ρ _ => Cert.Kernel.Gen.frame m ρ
theorem frame_ki : @Cert.frame_KernelIdeal Cert.KernelIdeal.Gen.facts Cert.Pre_finite_inputs.Gen.facts :=
  fun m ρ _ => Cert.KernelIdeal.Gen.frame m ρ
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2.2)
    (Cert.ReferenceIdeal.Value.run (F := Ideal) m ρ)

/-! ## The kernel program's run, its results named -/

section KernelRun
open Cert.KernelIdeal Cert.KernelIdeal.Gen Cert.KernelIdeal.KHost Idealize.ShloMosaic.TcCoe

/-- The edge head of the region's statement is the one the host stages use. -/
theorem final2' (V : (c : Dev nD) → (b : Ref sig .tc) → Buf (Elt Ideal) ((c : Thread nD τ).loc b)) (c : Dev nD) :
    (dat2 (F := Ideal) V c).arrAt 7 cfg2.N = edgeHeadA (V c main_v66) (V c main_v73) (V c main_v74) (V c main_v75) (V c main_v76) (V c main_arg8) (V c main_v77) :=
  Cert.KernelIdeal.Regions.final2 V c
theorem final3' (V : (c : Dev nD) → (b : Ref sig .tc) → Buf (Elt Ideal) ((c : Thread nD τ).loc b)) (c : Dev nD) :
    (dat3 (F := Ideal) V c).arrAt 3 cfg3.N = denseBias (V c main_v58) (V c main_v79) (V c main_v81) :=
  Cert.KernelIdeal.Regions.final3 V c

theorem kernel_run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v58) = featA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v78) = edgeA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v83) = logitA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (Cert.KernelIdeal.defs (F := Ideal)) _ _).mono (fun r h c =>
    ⟨(h c main_v58 (by decide)).trans (Cert.KernelIdeal.KStage.k_feat m ρ Cert.KernelIdeal.Regions.final0 Cert.KernelIdeal.Regions.final1 c),
     (h c main_v78 (by decide)).trans (Cert.KernelIdeal.KStage.k_edge m ρ Cert.KernelIdeal.Regions.final0 Cert.KernelIdeal.Regions.final1 final2' c),
     (h c main_v83 (by decide)).trans (Cert.KernelIdeal.KStage.k_logit m ρ Cert.KernelIdeal.Regions.final0 Cert.KernelIdeal.Regions.final1 final3' c),
     (h c main_arg1 (by decide)).trans (W15_main_arg1 m ρ c),
     (h c main_arg0 (by decide)).trans (W15_main_arg0 m ρ c),
     (h c main_arg1 (by decide)).trans (W15_main_arg1 m ρ c),
     (h c main_arg2 (by decide)).trans (W15_main_arg2 m ρ c),
     (h c main_arg3 (by decide)).trans (W15_main_arg3 m ρ c),
     (h c main_arg4 (by decide)).trans (W15_main_arg4 m ρ c),
     (h c main_arg5 (by decide)).trans (W15_main_arg5 m ρ c),
     (h c main_arg6 (by decide)).trans (W15_main_arg6 m ρ c),
     (h c main_arg7 (by decide)).trans (W15_main_arg7 m ρ c),
     (h c main_arg8 (by decide)).trans (W15_main_arg8 m ρ c),
     (h c main_arg9 (by decide)).trans (W15_main_arg9 m ρ c),
     (h c main_arg10 (by decide)).trans (W15_main_arg10 m ρ c),
     (h c main_arg11 (by decide)).trans (W15_main_arg11 m ρ c)⟩)
    (Cert.KernelIdeal.KRun.run_named m ρ)

end KernelRun

/-! ## The value claim -/

theorem preserves : Cert.preserves_Kernel_KernelIdeal := trivial

theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, _, _, kernel_run m ρ, ?_⟩
  refine (θ_run Cert.ReferenceIdeal.defs _ _).mono (fun r h c => ?_) (Cert.ReferenceIdeal.Value.run (F := Ideal) m' ρ')
  obtain ⟨h66, h94, h98, h1, hargs⟩ := h c
  obtain ⟨a0, a1, a2, a3, a4, a5, a6, a7, a8, a9, a10, a11⟩ := hagree c
  refine ⟨h66.trans ?_, h94.trans ?_, h98.trans ?_, h1.trans a1, hargs⟩
  · rw [Cert.ReferenceIdeal.Read.val_main_v66_eq, a0, a1, a2, a3, a4, a5]
    exact Cert.Join.feat_join _ _ _ _ _ _
  · rw [Cert.ReferenceIdeal.Read.val_main_v94_eq, a0, a1, a2, a3, a4, a5, a6, a7, a8, a9]
    exact Cert.Join.edge_join _ _ _ _ _ _ _ _ _ _
  · rw [Cert.ReferenceIdeal.Read.val_main_v98_eq, a0, a1, a2, a3, a4, a5, a10, a11]
    exact Cert.Join.logit_join _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
